-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)) →
    ∃ (v0 : (c : Dev Cert.KernelIdeal.nD) → Buf (Elt Ideal) ((c.tc : Thread Cert.KernelIdeal.nD Cert.KernelIdeal.τ).loc Cert.KernelIdeal.main_v76)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v76) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v182) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S10000x1000 : Shape := ⟨2, ![10000, 1000]⟩
abbrev S80000 : Shape := ⟨1, ![80000]⟩
abbrev S3x1000x1000 : Shape := ⟨3, ![3, 1000, 1000]⟩
abbrev S3000x1000 : Shape := ⟨2, ![3000, 1000]⟩
abbrev S3000 : Shape := ⟨1, ![3000]⟩
abbrev S100x1000 : Shape := ⟨2, ![100, 1000]⟩
abbrev S100 : Shape := ⟨1, ![100]⟩
abbrev S10000 : Shape := ⟨1, ![10000]⟩
abbrev S_ : Shape := ⟨0, ![]⟩

class Facts : Prop where
  bcast_S_S10000x1000 : S_.BroadcastsInDim S10000x1000 (![] : Fin 0 → Fin S10000x1000.rank)
  reducesTo_S10000x1000_S_d0_1 : S10000x1000.ReducesTo [0, 1] S_
  h_S_ : 0 < S_.numel
  bcast_S_S80000 : S_.BroadcastsInDim S80000 (![] : Fin 0 → Fin S80000.rank)
  reducesTo_S80000_S_d0 : S80000.ReducesTo [0] S_
  bcast_S_S3x1000x1000 : S_.BroadcastsInDim S3x1000x1000 (![] : Fin 0 → Fin S3x1000x1000.rank)
  reducesTo_S3x1000x1000_S_d0_1_2 : S3x1000x1000.ReducesTo [0, 1, 2] S_
  bcast_S_S3000x1000 : S_.BroadcastsInDim S3000x1000 (![] : Fin 0 → Fin S3000x1000.rank)
  reducesTo_S3000x1000_S_d0_1 : S3000x1000.ReducesTo [0, 1] S_
  bcast_S_S3000 : S_.BroadcastsInDim S3000 (![] : Fin 0 → Fin S3000.rank)
  reducesTo_S3000_S_d0 : S3000.ReducesTo [0] S_
  bcast_S_S100x1000 : S_.BroadcastsInDim S100x1000 (![] : Fin 0 → Fin S100x1000.rank)
  reducesTo_S100x1000_S_d0_1 : S100x1000.ReducesTo [0, 1] S_
  bcast_S_S100 : S_.BroadcastsInDim S100 (![] : Fin 0 → Fin S100.rank)
  reducesTo_S100_S_d0 : S100.ReducesTo [0] S_

variable [Facts]

def fn_part2 {F : FTy → Type} [FloatOps F] (main_arg7 : FVec F S100x1000 .f32) (main_arg8 : FVec F S100 .f32) (main_v33 : IVec S_ 1) : IVec S_ 1 :=
  let main_v34 : FVec F S100x1000 .f32 := Host.absf main_arg7
  let main_cst_12 : FVec F S_ .f32 := constant S_ .f32 0x7F800000#32
  let main_v35 : FVec F S100x1000 .f32 := broadcastInDim S100x1000 ![] bcast_S_S100x1000 main_cst_12
  let main_v36 : IVec S100x1000 1 := cmpf .olt main_v34 main_v35
  let main_c_13 : IVec S_ 1 := constantI S_ 1 1#1
  let main_v37 : IVec S_ 1 := (fun x v => Host.reduce IntOp.andi x v reducesTo_S100x1000_S_d0_1 h_S_) main_v36 main_c_13
  let main_v38 : IVec S_ 1 := andi main_v33 main_v37
  let main_v39 : FVec F S100 .f32 := Host.absf main_arg8
  let main_cst_14 : FVec F S_ .f32 := constant S_ .f32 0x7F800000#32
  let main_v40 : FVec F S100 .f32 := broadcastInDim S100 ![] bcast_S_S100 main_cst_14
  let main_v41 : IVec S100 1 := cmpf .olt main_v39 main_v40
  let main_c_15 : IVec S_ 1 := constantI S_ 1 1#1
  let main_v42 : IVec S_ 1 := (fun x v => Host.reduce IntOp.andi x v reducesTo_S100_S_d0 h_S_) main_v41 main_c_15
  let main_v43 : IVec S_ 1 := andi main_v38 main_v42
  main_v43

def fn_part1 {F : FTy → Type} [FloatOps F] (main_arg4 : FVec F S3000x1000 .f32) (main_arg5 : FVec F S3000 .f32) (main_arg6 : FVec F S3000 .f32) (main_arg7 : FVec F S100x1000 .f32) (main_arg8 : FVec F S100 .f32) (main_v13 : IVec S_ 1) (main_v16 : IVec S3000x1000 1) : IVec S_ 1 :=
  let main_c_5 : IVec S_ 1 := constantI S_ 1 1#1
  let main_v17 : IVec S_ 1 := (fun x v => Host.reduce IntOp.andi x v reducesTo_S3000x1000_S_d0_1 h_S_) main_v16 main_c_5
  let main_v18 : IVec S_ 1 := andi main_v13 main_v17
  let main_v19 : FVec F S3000x1000 .f32 := Host.absf main_arg4
  let main_cst_6 : FVec F S_ .f32 := constant S_ .f32 0x7F800000#32
  let main_v20 : FVec F S3000x1000 .f32 := broadcastInDim S3000x1000 ![] bcast_S_S3000x1000 main_cst_6
  let main_v21 : IVec S3000x1000 1 := cmpf .olt main_v19 main_v20
  let main_c_7 : IVec S_ 1 := constantI S_ 1 1#1
  let main_v22 : IVec S_ 1 := (fun x v => Host.reduce IntOp.andi x v reducesTo_S3000x1000_S_d0_1 h_S_) main_v21 main_c_7
  let main_v23 : IVec S_ 1 := andi main_v18 main_v22
  let main_v24 : FVec F S3000 .f32 := Host.absf main_arg5
  let main_cst_8 : FVec F S_ .f32 := constant S_ .f32 0x7F800000#32
  let main_v25 : FVec F S3000 .f32 := broadcastInDim S3000 ![] bcast_S_S3000 main_cst_8
  let main_v26 : IVec S3000 1 := cmpf .olt main_v24 main_v25
  let main_c_9 : IVec S_ 1 := constantI S_ 1 1#1
  let main_v27 : IVec S_ 1 := (fun x v => Host.reduce IntOp.andi x v reducesTo_S3000_S_d0 h_S_) main_v26 main_c_9
  let main_v28 : IVec S_ 1 := andi main_v23 main_v27
  let main_v29 : FVec F S3000 .f32 := Host.absf main_arg6
  let main_cst_10 : FVec F S_ .f32 := constant S_ .f32 0x7F800000#32
  let main_v30 : FVec F S3000 .f32 := broadcastInDim S3000 ![] bcast_S_S3000 main_cst_10
  let main_v31 : IVec S3000 1 := cmpf .olt main_v29 main_v30
  let main_c_11 : IVec S_ 1 := constantI S_ 1 1#1
  let main_v32 : IVec S_ 1 := (fun x v => Host.reduce IntOp.andi x v reducesTo_S3000_S_d0 h_S_) main_v31 main_c_11
  let main_v33 : IVec S_ 1 := andi main_v28 main_v32
  fn_part2 (F := F) main_arg7 main_arg8 main_v33

def fn {F : FTy → Type} [FloatOps F] (main_arg0 : FVec F S10000x1000 .f32) (main_arg1 : FVec F S80000 .f32) (main_arg2 : FVec F S3x1000x1000 .f32) (main_arg3 : FVec F S3000x1000 .f32) (main_arg4 : FVec F S3000x1000 .f32) (main_arg5 : FVec F S3000 .f32) (main_arg6 : FVec F S3000 .f32) (main_arg7 : FVec F S100x1000 .f32) (main_arg8 : FVec F S100 .f32) (main_arg9 : IVec S80000 32) (main_arg10 : IVec S80000 32) (main_arg11 : IVec S10000 32) : IVec S_ 1 :=
  let main_v0 : FVec F S10000x1000 .f32 := Host.absf main_arg0
  let main_cst : FVec F S_ .f32 := constant S_ .f32 0x7F800000#32
  let main_v1 : FVec F S10000x1000 .f32 := broadcastInDim S10000x1000 ![] bcast_S_S10000x1000 main_cst
  let main_v2 : IVec S10000x1000 1 := cmpf .olt main_v0 main_v1
  let main_c : IVec S_ 1 := constantI S_ 1 1#1
  let main_v3 : IVec S_ 1 := (fun x v => Host.reduce IntOp.andi x v reducesTo_S10000x1000_S_d0_1 h_S_) main_v2 main_c
  let main_v4 : FVec F S80000 .f32 := Host.absf main_arg1
  let main_cst_0 : FVec F S_ .f32 := constant S_ .f32 0x7F800000#32
  let main_v5 : FVec F S80000 .f32 := broadcastInDim S80000 ![] bcast_S_S80000 main_cst_0
  let main_v6 : IVec S80000 1 := cmpf .olt main_v4 main_v5
  let main_c_1 : IVec S_ 1 := constantI S_ 1 1#1
  let main_v7 : IVec S_ 1 := (fun x v => Host.reduce IntOp.andi x v reducesTo_S80000_S_d0 h_S_) main_v6 main_c_1
  let main_v8 : IVec S_ 1 := andi main_v3 main_v7
  let main_v9 : FVec F S3x1000x1000 .f32 := Host.absf main_arg2
  let main_cst_2 : FVec F S_ .f32 := constant S_ .f32 0x7F800000#32
  let main_v10 : FVec F S3x1000x1000 .f32 := broadcastInDim S3x1000x1000 ![] bcast_S_S3x1000x1000 main_cst_2
  let main_v11 : IVec S3x1000x1000 1 := cmpf .olt main_v9 main_v10
  let main_c_3 : IVec S_ 1 := constantI S_ 1 1#1
  let main_v12 : IVec S_ 1 := (fun x v => Host.reduce IntOp.andi x v reducesTo_S3x1000x1000_S_d0_1_2 h_S_) main_v11 main_c_3
  let main_v13 : IVec S_ 1 := andi main_v8 main_v12
  let main_v14 : FVec F S3000x1000 .f32 := Host.absf main_arg3
  let main_cst_4 : FVec F S_ .f32 := constant S_ .f32 0x7F800000#32
  let main_v15 : FVec F S3000x1000 .f32 := broadcastInDim S3000x1000 ![] bcast_S_S3000x1000 main_cst_4
  let main_v16 : IVec S3000x1000 1 := cmpf .olt main_v14 main_v15
  fn_part1 (F := F) main_arg4 main_arg5 main_arg6 main_arg7 main_arg8 main_v13 main_v16
-- ==== Kernel.lean ====
abbrev S10000x1000 : Shape := ⟨2, ![10000, 1000]⟩
abbrev S80000 : Shape := ⟨1, ![80000]⟩
abbrev S3x1000x1000 : Shape := ⟨3, ![3, 1000, 1000]⟩
abbrev S3000x1000 : Shape := ⟨2, ![3000, 1000]⟩
abbrev S3000 : Shape := ⟨1, ![3000]⟩
abbrev S100x1000 : Shape := ⟨2, ![100, 1000]⟩
abbrev S100 : Shape := ⟨1, ![100]⟩
abbrev S10000 : Shape := ⟨1, ![10000]⟩
abbrev S1000x3000 : Shape := ⟨2, ![1000, 3000]⟩
abbrev S1000x100 : Shape := ⟨2, ![1000, 100]⟩
abbrev S1x1000x1000 : Shape := ⟨3, ![1, 1000, 1000]⟩
abbrev S1000x1000 : Shape := ⟨2, ![1000, 1000]⟩
abbrev S2000x1000 : Shape := ⟨2, ![2000, 1000]⟩
abbrev S_ : Shape := ⟨0, ![]⟩
abbrev S80000x1 : Shape := ⟨2, ![80000, 1]⟩
abbrev S80000x1000 : Shape := ⟨2, ![80000, 1000]⟩
abbrev S1x3000 : Shape := ⟨2, ![1, 3000]⟩
abbrev S400x1000 : Shape := ⟨2, ![400, 1000]⟩
abbrev S400x3000 : Shape := ⟨2, ![400, 3000]⟩
abbrev S1x100 : Shape := ⟨2, ![1, 100]⟩
abbrev S10000x100 : Shape := ⟨2, ![10000, 100]⟩
abbrev S2000x100 : Shape := ⟨2, ![2000, 100]⟩
abbrev S16x100 : Shape := ⟨2, ![16, 100]⟩
abbrev S10000x1 : Shape := ⟨2, ![10000, 1]⟩
abbrev S16 : Shape := ⟨1, ![16]⟩
abbrev S16x1 : Shape := ⟨2, ![16, 1]⟩

abbrev nBuf : Space → Nat
  | .hbm => 104
  | .vmem => 51
  | .smem => 0
  | _ => 0

abbrev bufTy : (tb : Table) → Fin (tcTables nBuf tb) → BufTy
  | .hbm, ⟨0, _⟩ => ⟨S10000x1000, .f32⟩
  | .hbm, ⟨1, _⟩ => ⟨S80000, .f32⟩
  | .hbm, ⟨2, _⟩ => ⟨S3x1000x1000, .f32⟩
  | .hbm, ⟨3, _⟩ => ⟨S3000x1000, .f32⟩
  | .hbm, ⟨4, _⟩ => ⟨S3000x1000, .f32⟩
  | .hbm, ⟨5, _⟩ => ⟨S3000, .f32⟩
  | .hbm, ⟨6, _⟩ => ⟨S3000, .f32⟩
  | .hbm, ⟨7, _⟩ => ⟨S100x1000, .f32⟩
  | .hbm, ⟨8, _⟩ => ⟨S100, .f32⟩
  | .hbm, ⟨9, _⟩ => ⟨S80000, .i32⟩
  | .hbm, ⟨10, _⟩ => ⟨S80000, .i32⟩
  | .hbm, ⟨11, _⟩ => ⟨S10000, .i32⟩
  | .hbm, ⟨12, _⟩ => ⟨S1000x3000, .f32⟩
  | .hbm, ⟨13, _⟩ => ⟨S1000x3000, .f32⟩
  | .hbm, ⟨14, _⟩ => ⟨S1000x100, .f32⟩
  | .hbm, ⟨15, _⟩ => ⟨S1x1000x1000, .f32⟩
  | .hbm, ⟨16, _⟩ => ⟨S1000x1000, .f32⟩
  | .hbm, ⟨17, _⟩ => ⟨S10000x1000, .f32⟩
  | .hbm, ⟨18, _⟩ => ⟨S_, .i32⟩
  | .hbm, ⟨19, _⟩ => ⟨S80000, .i32⟩
  | .hbm, ⟨20, _⟩ => ⟨S80000, .i1⟩
  | .hbm, ⟨21, _⟩ => ⟨S_, .i32⟩
  | .hbm, ⟨22, _⟩ => ⟨S80000, .i32⟩
  | .hbm, ⟨23, _⟩ => ⟨S80000, .i32⟩
  | .hbm, ⟨24, _⟩ => ⟨S80000, .i32⟩
  | .hbm, ⟨25, _⟩ => ⟨S80000x1, .i32⟩
  | .hbm, ⟨26, _⟩ => ⟨S80000x1000, .f32⟩
  | .hbm, ⟨27, _⟩ => ⟨S80000x1, .f32⟩
  | .hbm, ⟨28, _⟩ => ⟨S80000x1000, .f32⟩
  | .hbm, ⟨29, _⟩ => ⟨S80000x1000, .f32⟩
  | .hbm, ⟨30, _⟩ => ⟨S_, .f32⟩
  | .hbm, ⟨31, _⟩ => ⟨S10000x1000, .f32⟩
  | .hbm, ⟨32, _⟩ => ⟨S80000x1, .i32⟩
  | .hbm, ⟨33, _⟩ => ⟨S10000x1000, .f32⟩
  | .hbm, ⟨34, _⟩ => ⟨S1x3000, .f32⟩
  | .hbm, ⟨35, _⟩ => ⟨S1x3000, .f32⟩
  | .hbm, ⟨36, _⟩ => ⟨S10000x1000, .f32⟩
  | .hbm, ⟨37, _⟩ => ⟨S1x1000x1000, .f32⟩
  | .hbm, ⟨38, _⟩ => ⟨S1000x1000, .f32⟩
  | .hbm, ⟨39, _⟩ => ⟨S10000x1000, .f32⟩
  | .hbm, ⟨40, _⟩ => ⟨S_, .i32⟩
  | .hbm, ⟨41, _⟩ => ⟨S80000, .i32⟩
  | .hbm, ⟨42, _⟩ => ⟨S80000, .i1⟩
  | .hbm, ⟨43, _⟩ => ⟨S_, .i32⟩
  | .hbm, ⟨44, _⟩ => ⟨S80000, .i32⟩
  | .hbm, ⟨45, _⟩ => ⟨S80000, .i32⟩
  | .hbm, ⟨46, _⟩ => ⟨S80000, .i32⟩
  | .hbm, ⟨47, _⟩ => ⟨S80000x1, .i32⟩
  | .hbm, ⟨48, _⟩ => ⟨S80000x1000, .f32⟩
  | .hbm, ⟨49, _⟩ => ⟨S80000x1, .f32⟩
  | .hbm, ⟨50, _⟩ => ⟨S80000x1000, .f32⟩
  | .hbm, ⟨51, _⟩ => ⟨S80000x1000, .f32⟩
  | .hbm, ⟨52, _⟩ => ⟨S_, .f32⟩
  | .hbm, ⟨53, _⟩ => ⟨S10000x1000, .f32⟩
  | .hbm, ⟨54, _⟩ => ⟨S80000x1, .i32⟩
  | .hbm, ⟨55, _⟩ => ⟨S10000x1000, .f32⟩
  | .hbm, ⟨56, _⟩ => ⟨S1x3000, .f32⟩
  | .hbm, ⟨57, _⟩ => ⟨S1x3000, .f32⟩
  | .hbm, ⟨58, _⟩ => ⟨S10000x1000, .f32⟩
  | .hbm, ⟨59, _⟩ => ⟨S1x1000x1000, .f32⟩
  | .hbm, ⟨60, _⟩ => ⟨S1000x1000, .f32⟩
  | .hbm, ⟨61, _⟩ => ⟨S10000x1000, .f32⟩
  | .hbm, ⟨62, _⟩ => ⟨S_, .i32⟩
  | .hbm, ⟨63, _⟩ => ⟨S80000, .i32⟩
  | .hbm, ⟨64, _⟩ => ⟨S80000, .i1⟩
  | .hbm, ⟨65, _⟩ => ⟨S_, .i32⟩
  | .hbm, ⟨66, _⟩ => ⟨S80000, .i32⟩
  | .hbm, ⟨67, _⟩ => ⟨S80000, .i32⟩
  | .hbm, ⟨68, _⟩ => ⟨S80000, .i32⟩
  | .hbm, ⟨69, _⟩ => ⟨S80000x1, .i32⟩
  | .hbm, ⟨70, _⟩ => ⟨S80000x1000, .f32⟩
  | .hbm, ⟨71, _⟩ => ⟨S80000x1, .f32⟩
  | .hbm, ⟨72, _⟩ => ⟨S80000x1000, .f32⟩
  | .hbm, ⟨73, _⟩ => ⟨S80000x1000, .f32⟩
  | .hbm, ⟨74, _⟩ => ⟨S_, .f32⟩
  | .hbm, ⟨75, _⟩ => ⟨S10000x1000, .f32⟩
  | .hbm, ⟨76, _⟩ => ⟨S80000x1, .i32⟩
  | .hbm, ⟨77, _⟩ => ⟨S10000x1000, .f32⟩
  | .hbm, ⟨78, _⟩ => ⟨S1x3000, .f32⟩
  | .hbm, ⟨79, _⟩ => ⟨S1x3000, .f32⟩
  | .hbm, ⟨80, _⟩ => ⟨S10000x1000, .f32⟩
  | .hbm, ⟨81, _⟩ => ⟨S1x100, .f32⟩
  | .hbm, ⟨82, _⟩ => ⟨S10000x100, .f32⟩
  | .hbm, ⟨83, _⟩ => ⟨S_, .f32⟩
  | .hbm, ⟨84, _⟩ => ⟨S16x100, .f32⟩
  | .hbm, ⟨85, _⟩ => ⟨S10000x1, .i32⟩
  | .hbm, ⟨86, _⟩ => ⟨S16x100, .f32⟩
  | .hbm, ⟨87, _⟩ => ⟨S_, .f32⟩
  | .hbm, ⟨88, _⟩ => ⟨S10000, .f32⟩
  | .hbm, ⟨89, _⟩ => ⟨S_, .f32⟩
  | .hbm, ⟨90, _⟩ => ⟨S16, .f32⟩
  | .hbm, ⟨91, _⟩ => ⟨S10000x1, .i32⟩
  | .hbm, ⟨92, _⟩ => ⟨S16, .f32⟩
  | .hbm, ⟨93, _⟩ => ⟨S_, .f32⟩
  | .hbm, ⟨94, _⟩ => ⟨S16, .f32⟩
  | .hbm, ⟨95, _⟩ => ⟨S16, .f32⟩
  | .hbm, ⟨96, _⟩ => ⟨S16x1, .f32⟩
  | .hbm, ⟨97, _⟩ => ⟨S16x100, .f32⟩
  | .hbm, ⟨98, _⟩ => ⟨S16x100, .f32⟩
  | .hbm, ⟨99, _⟩ => ⟨S_, .f32⟩
  | .hbm, ⟨100, _⟩ => ⟨S16, .f32⟩
  | .hbm, ⟨101, _⟩ => ⟨S_, .f32⟩
  | .hbm, ⟨102, _⟩ => ⟨S16, .f32⟩
  | .hbm, ⟨103, _⟩ => ⟨S16, .f32⟩
  | .local _ .vmem, ⟨0, _⟩ => ⟨S2000x1000, .f32⟩
  | .local _ .vmem, ⟨1, _⟩ => ⟨S2000x1000, .f32⟩
  | .local _ .vmem, ⟨2, _⟩ => ⟨S1000x1000, .f32⟩
  | .local _ .vmem, ⟨3, _⟩ => ⟨S2000x1000, .f32⟩
  | .local _ .vmem, ⟨4, _⟩ => ⟨S2000x1000, .f32⟩
  | .local _ .vmem, ⟨5, _⟩ => ⟨S400x1000, .f32⟩
  | .local _ .vmem, ⟨6, _⟩ => ⟨S400x1000, .f32⟩
  | .local _ .vmem, ⟨7, _⟩ => ⟨S400x1000, .f32⟩
  | .local _ .vmem, ⟨8, _⟩ => ⟨S400x1000, .f32⟩
  | .local _ .vmem, ⟨9, _⟩ => ⟨S1000x3000, .f32⟩
  | .local _ .vmem, ⟨10, _⟩ => ⟨S1000x3000, .f32⟩
  | .local _ .vmem, ⟨11, _⟩ => ⟨S1x3000, .f32⟩
  | .local _ .vmem, ⟨12, _⟩ => ⟨S1x3000, .f32⟩
  | .local _ .vmem, ⟨13, _⟩ => ⟨S400x1000, .f32⟩
  | .local _ .vmem, ⟨14, _⟩ => ⟨S400x1000, .f32⟩
  | .local _ .vmem, ⟨15, _⟩ => ⟨S2000x1000, .f32⟩
  | .local _ .vmem, ⟨16, _⟩ => ⟨S2000x1000, .f32⟩
  | .local _ .vmem, ⟨17, _⟩ => ⟨S1000x1000, .f32⟩
  | .local _ .vmem, ⟨18, _⟩ => ⟨S2000x1000, .f32⟩
  | .local _ .vmem, ⟨19, _⟩ => ⟨S2000x1000, .f32⟩
  | .local _ .vmem, ⟨20, _⟩ => ⟨S400x1000, .f32⟩
  | .local _ .vmem, ⟨21, _⟩ => ⟨S400x1000, .f32⟩
  | .local _ .vmem, ⟨22, _⟩ => ⟨S400x1000, .f32⟩
  | .local _ .vmem, ⟨23, _⟩ => ⟨S400x1000, .f32⟩
  | .local _ .vmem, ⟨24, _⟩ => ⟨S1000x3000, .f32⟩
  | .local _ .vmem, ⟨25, _⟩ => ⟨S1000x3000, .f32⟩
  | .local _ .vmem, ⟨26, _⟩ => ⟨S1x3000, .f32⟩
  | .local _ .vmem, ⟨27, _⟩ => ⟨S1x3000, .f32⟩
  | .local _ .vmem, ⟨28, _⟩ => ⟨S400x1000, .f32⟩
  | .local _ .vmem, ⟨29, _⟩ => ⟨S400x1000, .f32⟩
  | .local _ .vmem, ⟨30, _⟩ => ⟨S2000x1000, .f32⟩
  | .local _ .vmem, ⟨31, _⟩ => ⟨S2000x1000, .f32⟩
  | .local _ .vmem, ⟨32, _⟩ => ⟨S1000x1000, .f32⟩
  | .local _ .vmem, ⟨33, _⟩ => ⟨S2000x1000, .f32⟩
  | .local _ .vmem, ⟨34, _⟩ => ⟨S2000x1000, .f32⟩
  | .local _ .vmem, ⟨35, _⟩ => ⟨S400x1000, .f32⟩
  | .local _ .vmem, ⟨36, _⟩ => ⟨S400x1000, .f32⟩
  | .local _ .vmem, ⟨37, _⟩ => ⟨S400x1000, .f32⟩
  | .local _ .vmem, ⟨38, _⟩ => ⟨S400x1000, .f32⟩
  | .local _ .vmem, ⟨39, _⟩ => ⟨S1000x3000, .f32⟩
  | .local _ .vmem, ⟨40, _⟩ => ⟨S1000x3000, .f32⟩
  | .local _ .vmem, ⟨41, _⟩ => ⟨S1x3000, .f32⟩
  | .local _ .vmem, ⟨42, _⟩ => ⟨S1x3000, .f32⟩
  | .local _ .vmem, ⟨43, _⟩ => ⟨S400x1000, .f32⟩
  | .local _ .vmem, ⟨44, _⟩ => ⟨S400x1000, .f32⟩
  | .local _ .vmem, ⟨45, _⟩ => ⟨S2000x1000, .f32⟩
  | .local _ .vmem, ⟨46, _⟩ => ⟨S2000x1000, .f32⟩
  | .local _ .vmem, ⟨47, _⟩ => ⟨S1000x100, .f32⟩
  | .local _ .vmem, ⟨48, _⟩ => ⟨S1x100, .f32⟩
  | .local _ .vmem, ⟨49, _⟩ => ⟨S2000x100, .f32⟩
  | .local _ .vmem, ⟨50, _⟩ => ⟨S2000x100, .f32⟩
  | _, _ => ⟨S10000x1000, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | .vmem, ⟨42, _⟩ => true
  | .vmem, ⟨43, _⟩ => true
  | .vmem, ⟨44, _⟩ => true
  | .vmem, ⟨45, _⟩ => true
  | .vmem, ⟨46, _⟩ => true
  | .vmem, ⟨47, _⟩ => true
  | .vmem, ⟨48, _⟩ => true
  | .vmem, ⟨49, _⟩ => true
  | .vmem, ⟨50, _⟩ => true
  | _, _ => false

abbrev semScoped : Fin 0 → Bool
  | ⟨_, h⟩ => absurd h (Nat.not_lt_zero _)

abbrev dmaSemScoped : Fin 51 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | ⟨48, _⟩ => true
  | ⟨49, _⟩ => true
  | ⟨50, _⟩ => true
  | _ => false

abbrev sig : RefSig :=
  ofTc nBuf bufTy 0 51 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_v0 : Ref sig .tc := ⟨.hbm, 12, rfl⟩
abbrev main_v1 : Ref sig .tc := ⟨.hbm, 13, rfl⟩
abbrev main_v2 : Ref sig .tc := ⟨.hbm, 14, rfl⟩
abbrev main_v3 : Ref sig .tc := ⟨.hbm, 15, rfl⟩
abbrev main_v4 : Ref sig .tc := ⟨.hbm, 16, rfl⟩
abbrev main_v5 : Ref sig .tc := ⟨.hbm, 17, rfl⟩
abbrev main_c : Ref sig .tc := ⟨.hbm, 18, rfl⟩
abbrev main_v6 : Ref sig .tc := ⟨.hbm, 19, rfl⟩
abbrev main_v7 : Ref sig .tc := ⟨.hbm, 20, rfl⟩
abbrev main_c_0 : Ref sig .tc := ⟨.hbm, 21, rfl⟩
abbrev main_v8 : Ref sig .tc := ⟨.hbm, 22, rfl⟩
abbrev main_v9 : Ref sig .tc := ⟨.hbm, 23, rfl⟩
abbrev main_v10 : Ref sig .tc := ⟨.hbm, 24, rfl⟩
abbrev main_v11 : Ref sig .tc := ⟨.hbm, 25, rfl⟩
abbrev main_v12 : Ref sig .tc := ⟨.hbm, 26, rfl⟩
abbrev main_v13 : Ref sig .tc := ⟨.hbm, 27, rfl⟩
abbrev main_v14 : Ref sig .tc := ⟨.hbm, 28, rfl⟩
abbrev main_v15 : Ref sig .tc := ⟨.hbm, 29, rfl⟩
abbrev main_cst : Ref sig .tc := ⟨.hbm, 30, rfl⟩
abbrev main_v16 : Ref sig .tc := ⟨.hbm, 31, rfl⟩
abbrev main_v17 : Ref sig .tc := ⟨.hbm, 32, rfl⟩
abbrev main_v18 : Ref sig .tc := ⟨.hbm, 33, rfl⟩
abbrev main_v19 : Ref sig .tc := ⟨.hbm, 34, rfl⟩
abbrev main_v20 : Ref sig .tc := ⟨.hbm, 35, rfl⟩
abbrev main_v21 : Ref sig .tc := ⟨.hbm, 36, rfl⟩
abbrev main_v22 : Ref sig .tc := ⟨.hbm, 37, rfl⟩
abbrev main_v23 : Ref sig .tc := ⟨.hbm, 38, rfl⟩
abbrev main_v24 : Ref sig .tc := ⟨.hbm, 39, rfl⟩
abbrev main_c_1 : Ref sig .tc := ⟨.hbm, 40, rfl⟩
abbrev main_v25 : Ref sig .tc := ⟨.hbm, 41, rfl⟩
abbrev main_v26 : Ref sig .tc := ⟨.hbm, 42, rfl⟩
abbrev main_c_2 : Ref sig .tc := ⟨.hbm, 43, rfl⟩
abbrev main_v27 : Ref sig .tc := ⟨.hbm, 44, rfl⟩
abbrev main_v28 : Ref sig .tc := ⟨.hbm, 45, rfl⟩
abbrev main_v29 : Ref sig .tc := ⟨.hbm, 46, rfl⟩
abbrev main_v30 : Ref sig .tc := ⟨.hbm, 47, rfl⟩
abbrev main_v31 : Ref sig .tc := ⟨.hbm, 48, rfl⟩
abbrev main_v32 : Ref sig .tc := ⟨.hbm, 49, rfl⟩
abbrev main_v33 : Ref sig .tc := ⟨.hbm, 50, rfl⟩
abbrev main_v34 : Ref sig .tc := ⟨.hbm, 51, rfl⟩
abbrev main_cst_3 : Ref sig .tc := ⟨.hbm, 52, rfl⟩
abbrev main_v35 : Ref sig .tc := ⟨.hbm, 53, rfl⟩
abbrev main_v36 : Ref sig .tc := ⟨.hbm, 54, rfl⟩
abbrev main_v37 : Ref sig .tc := ⟨.hbm, 55, rfl⟩
abbrev main_v38 : Ref sig .tc := ⟨.hbm, 56, rfl⟩
abbrev main_v39 : Ref sig .tc := ⟨.hbm, 57, rfl⟩
abbrev main_v40 : Ref sig .tc := ⟨.hbm, 58, rfl⟩
abbrev main_v41 : Ref sig .tc := ⟨.hbm, 59, rfl⟩
abbrev main_v42 : Ref sig .tc := ⟨.hbm, 60, rfl⟩
abbrev main_v43 : Ref sig .tc := ⟨.hbm, 61, rfl⟩
abbrev main_c_4 : Ref sig .tc := ⟨.hbm, 62, rfl⟩
abbrev main_v44 : Ref sig .tc := ⟨.hbm, 63, rfl⟩
abbrev main_v45 : Ref sig .tc := ⟨.hbm, 64, rfl⟩
abbrev main_c_5 : Ref sig .tc := ⟨.hbm, 65, rfl⟩
abbrev main_v46 : Ref sig .tc := ⟨.hbm, 66, rfl⟩
abbrev main_v47 : Ref sig .tc := ⟨.hbm, 67, rfl⟩
abbrev main_v48 : Ref sig .tc := ⟨.hbm, 68, rfl⟩
abbrev main_v49 : Ref sig .tc := ⟨.hbm, 69, rfl⟩
abbrev main_v50 : Ref sig .tc := ⟨.hbm, 70, rfl⟩
abbrev main_v51 : Ref sig .tc := ⟨.hbm, 71, rfl⟩
abbrev main_v52 : Ref sig .tc := ⟨.hbm, 72, rfl⟩
abbrev main_v53 : Ref sig .tc := ⟨.hbm, 73, rfl⟩
abbrev main_cst_6 : Ref sig .tc := ⟨.hbm, 74, rfl⟩
abbrev main_v54 : Ref sig .tc := ⟨.hbm, 75, rfl⟩
abbrev main_v55 : Ref sig .tc := ⟨.hbm, 76, rfl⟩
abbrev main_v56 : Ref sig .tc := ⟨.hbm, 77, rfl⟩
abbrev main_v57 : Ref sig .tc := ⟨.hbm, 78, rfl⟩
abbrev main_v58 : Ref sig .tc := ⟨.hbm, 79, rfl⟩
abbrev main_v59 : Ref sig .tc := ⟨.hbm, 80, rfl⟩
abbrev main_v60 : Ref sig .tc := ⟨.hbm, 81, rfl⟩
abbrev main_v61 : Ref sig .tc := ⟨.hbm, 82, rfl⟩
abbrev main_cst_7 : Ref sig .tc := ⟨.hbm, 83, rfl⟩
abbrev main_v62 : Ref sig .tc := ⟨.hbm, 84, rfl⟩
abbrev main_v63 : Ref sig .tc := ⟨.hbm, 85, rfl⟩
abbrev main_v64 : Ref sig .tc := ⟨.hbm, 86, rfl⟩
abbrev main_cst_8 : Ref sig .tc := ⟨.hbm, 87, rfl⟩
abbrev main_v65 : Ref sig .tc := ⟨.hbm, 88, rfl⟩
abbrev main_cst_9 : Ref sig .tc := ⟨.hbm, 89, rfl⟩
abbrev main_v66 : Ref sig .tc := ⟨.hbm, 90, rfl⟩
abbrev main_v67 : Ref sig .tc := ⟨.hbm, 91, rfl⟩
abbrev main_v68 : Ref sig .tc := ⟨.hbm, 92, rfl⟩
abbrev main_cst_10 : Ref sig .tc := ⟨.hbm, 93, rfl⟩
abbrev main_v69 : Ref sig .tc := ⟨.hbm, 94, rfl⟩
abbrev main_v70 : Ref sig .tc := ⟨.hbm, 95, rfl⟩
abbrev main_v71 : Ref sig .tc := ⟨.hbm, 96, rfl⟩
abbrev main_v72 : Ref sig .tc := ⟨.hbm, 97, rfl⟩
abbrev main_v73 : Ref sig .tc := ⟨.hbm, 98, rfl⟩
abbrev main_cst_11 : Ref sig .tc := ⟨.hbm, 99, rfl⟩
abbrev main_v74 : Ref sig .tc := ⟨.hbm, 100, rfl⟩
abbrev main_cst_12 : Ref sig .tc := ⟨.hbm, 101, rfl⟩
abbrev main_v75 : Ref sig .tc := ⟨.hbm, 102, rfl⟩
abbrev main_v76 : Ref sig .tc := ⟨.hbm, 103, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg1_1 : Ref sig .tc := ⟨.vmem, 8, rfl⟩
abbrev cc1_stg2_0 : Ref sig .tc := ⟨.vmem, 9, rfl⟩
abbrev cc1_stg3_0 : Ref sig .tc := ⟨.vmem, 10, rfl⟩
abbrev cc1_stg4_0 : Ref sig .tc := ⟨.vmem, 11, rfl⟩
abbrev cc1_stg5_0 : Ref sig .tc := ⟨.vmem, 12, rfl⟩
abbrev cc1_stg6_0 : Ref sig .tc := ⟨.vmem, 13, rfl⟩
abbrev cc1_stg6_1 : Ref sig .tc := ⟨.vmem, 14, rfl⟩
abbrev cc2_stg0_0 : Ref sig .tc := ⟨.vmem, 15, rfl⟩
abbrev cc2_stg0_1 : Ref sig .tc := ⟨.vmem, 16, rfl⟩
abbrev cc2_stg1_0 : Ref sig .tc := ⟨.vmem, 17, rfl⟩
abbrev cc2_stg2_0 : Ref sig .tc := ⟨.vmem, 18, rfl⟩
abbrev cc2_stg2_1 : Ref sig .tc := ⟨.vmem, 19, rfl⟩
abbrev cc3_stg0_0 : Ref sig .tc := ⟨.vmem, 20, rfl⟩
abbrev cc3_stg0_1 : Ref sig .tc := ⟨.vmem, 21, rfl⟩
abbrev cc3_stg1_0 : Ref sig .tc := ⟨.vmem, 22, rfl⟩
abbrev cc3_stg1_1 : Ref sig .tc := ⟨.vmem, 23, rfl⟩
abbrev cc3_stg2_0 : Ref sig .tc := ⟨.vmem, 24, rfl⟩
abbrev cc3_stg3_0 : Ref sig .tc := ⟨.vmem, 25, rfl⟩
abbrev cc3_stg4_0 : Ref sig .tc := ⟨.vmem, 26, rfl⟩
abbrev cc3_stg5_0 : Ref sig .tc := ⟨.vmem, 27, rfl⟩
abbrev cc3_stg6_0 : Ref sig .tc := ⟨.vmem, 28, rfl⟩
abbrev cc3_stg6_1 : Ref sig .tc := ⟨.vmem, 29, rfl⟩
abbrev cc4_stg0_0 : Ref sig .tc := ⟨.vmem, 30, rfl⟩
abbrev cc4_stg0_1 : Ref sig .tc := ⟨.vmem, 31, rfl⟩
abbrev cc4_stg1_0 : Ref sig .tc := ⟨.vmem, 32, rfl⟩
abbrev cc4_stg2_0 : Ref sig .tc := ⟨.vmem, 33, rfl⟩
abbrev cc4_stg2_1 : Ref sig .tc := ⟨.vmem, 34, rfl⟩
abbrev cc5_stg0_0 : Ref sig .tc := ⟨.vmem, 35, rfl⟩
abbrev cc5_stg0_1 : Ref sig .tc := ⟨.vmem, 36, rfl⟩
abbrev cc5_stg1_0 : Ref sig .tc := ⟨.vmem, 37, rfl⟩
abbrev cc5_stg1_1 : Ref sig .tc := ⟨.vmem, 38, rfl⟩
abbrev cc5_stg2_0 : Ref sig .tc := ⟨.vmem, 39, rfl⟩
abbrev cc5_stg3_0 : Ref sig .tc := ⟨.vmem, 40, rfl⟩
abbrev cc5_stg4_0 : Ref sig .tc := ⟨.vmem, 41, rfl⟩
abbrev cc5_stg5_0 : Ref sig .tc := ⟨.vmem, 42, rfl⟩
abbrev cc5_stg6_0 : Ref sig .tc := ⟨.vmem, 43, rfl⟩
abbrev cc5_stg6_1 : Ref sig .tc := ⟨.vmem, 44, rfl⟩
abbrev cc6_stg0_0 : Ref sig .tc := ⟨.vmem, 45, rfl⟩
abbrev cc6_stg0_1 : Ref sig .tc := ⟨.vmem, 46, rfl⟩
abbrev cc6_stg1_0 : Ref sig .tc := ⟨.vmem, 47, rfl⟩
abbrev cc6_stg2_0 : Ref sig .tc := ⟨.vmem, 48, rfl⟩
abbrev cc6_stg3_0 : Ref sig .tc := ⟨.vmem, 49, rfl⟩
abbrev cc6_stg3_1 : Ref sig .tc := ⟨.vmem, 50, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem1_1 : DmaSem sig := 8
abbrev cc1_sem2_0 : DmaSem sig := 9
abbrev cc1_sem3_0 : DmaSem sig := 10
abbrev cc1_sem4_0 : DmaSem sig := 11
abbrev cc1_sem5_0 : DmaSem sig := 12
abbrev cc1_sem6_0 : DmaSem sig := 13
abbrev cc1_sem6_1 : DmaSem sig := 14
abbrev cc2_sem0_0 : DmaSem sig := 15
abbrev cc2_sem0_1 : DmaSem sig := 16
abbrev cc2_sem1_0 : DmaSem sig := 17
abbrev cc2_sem2_0 : DmaSem sig := 18
abbrev cc2_sem2_1 : DmaSem sig := 19
abbrev cc3_sem0_0 : DmaSem sig := 20
abbrev cc3_sem0_1 : DmaSem sig := 21
abbrev cc3_sem1_0 : DmaSem sig := 22
abbrev cc3_sem1_1 : DmaSem sig := 23
abbrev cc3_sem2_0 : DmaSem sig := 24
abbrev cc3_sem3_0 : DmaSem sig := 25
abbrev cc3_sem4_0 : DmaSem sig := 26
abbrev cc3_sem5_0 : DmaSem sig := 27
abbrev cc3_sem6_0 : DmaSem sig := 28
abbrev cc3_sem6_1 : DmaSem sig := 29
abbrev cc4_sem0_0 : DmaSem sig := 30
abbrev cc4_sem0_1 : DmaSem sig := 31
abbrev cc4_sem1_0 : DmaSem sig := 32
abbrev cc4_sem2_0 : DmaSem sig := 33
abbrev cc4_sem2_1 : DmaSem sig := 34
abbrev cc5_sem0_0 : DmaSem sig := 35
abbrev cc5_sem0_1 : DmaSem sig := 36
abbrev cc5_sem1_0 : DmaSem sig := 37
abbrev cc5_sem1_1 : DmaSem sig := 38
abbrev cc5_sem2_0 : DmaSem sig := 39
abbrev cc5_sem3_0 : DmaSem sig := 40
abbrev cc5_sem4_0 : DmaSem sig := 41
abbrev cc5_sem5_0 : DmaSem sig := 42
abbrev cc5_sem6_0 : DmaSem sig := 43
abbrev cc5_sem6_1 : DmaSem sig := 44
abbrev cc6_sem0_0 : DmaSem sig := 45
abbrev cc6_sem0_1 : DmaSem sig := 46
abbrev cc6_sem1_0 : DmaSem sig := 47
abbrev cc6_sem2_0 : DmaSem sig := 48
abbrev cc6_sem3_0 : DmaSem sig := 49
abbrev cc6_sem3_1 : DmaSem sig := 50

abbrev nD : Nat := 1
abbrev τ : Topo := Topo.v7x

variable {F : FTy → Type} [FloatOps F]

abbrev grid0 : Pipeline.Grid := ⟨1, ![5], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S2000x1000 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1000x1000 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S2000x1000 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨1, ![25], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_6 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S400x1000 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S400x1000 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 1 → Memref sig .tc .vmem S1000x3000 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S1000x3000 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S1x3000 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 1 → Memref sig .tc .vmem S1x3000 .f32 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![false]

abbrev stage1_6 : Fin 2 → Memref sig .tc .vmem S400x1000 .f32 := fun | 0 => Memref.whole cc1_stg6_0 | 1 => Memref.whole cc1_stg6_1 | ⟨_ + 2, h⟩ => absurd h (Nat.not_lt.2 (Nat.le_add_left _ _))
abbrev sem1_6 : Fin 2 → DmaSem sig := fun | 0 => cc1_sem6_0 | 1 => cc1_sem6_1 | ⟨_ + 2, h⟩ => absurd h (Nat.not_lt.2 (Nat.le_add_left _ _))
abbrev reads1_6 : Fin grid1.rank → Bool := ![true]

abbrev grid2 : Pipeline.Grid := ⟨1, ![5], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S2000x1000 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S1000x1000 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 2 → Memref sig .tc .vmem S2000x1000 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]

abbrev grid3 : Pipeline.Grid := ⟨1, ![25], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_2 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_3 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_4 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_5 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_6 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S400x1000 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 2 → Memref sig .tc .vmem S400x1000 .f32 := fun | 0 => Memref.whole cc3_stg1_0 | 1 => Memref.whole cc3_stg1_1 | ⟨_ + 2, h⟩ => absurd h (Nat.not_lt.2 (Nat.le_add_left _ _))
abbrev sem3_1 : Fin 2 → DmaSem sig := fun | 0 => cc3_sem1_0 | 1 => cc3_sem1_1 | ⟨_ + 2, h⟩ => absurd h (Nat.not_lt.2 (Nat.le_add_left _ _))
abbrev reads3_1 : Fin grid3.rank → Bool := ![true]

abbrev stage3_2 : Fin 1 → Memref sig .tc .vmem S1000x3000 .f32 := fun | 0 => Memref.whole cc3_stg2_0 | ⟨_ + 1, h⟩ => absurd h (Nat.not_lt.2 (Nat.le_add_left _ _))
abbrev sem3_2 : Fin 1 → DmaSem sig := fun | 0 => cc3_sem2_0 | ⟨_ + 1, h⟩ => absurd h (Nat.not_lt.2 (Nat.le_add_left _ _))
abbrev reads3_2 : Fin grid3.rank → Bool := ![false]

abbrev stage3_3 : Fin 1 → Memref sig .tc .vmem S1000x3000 .f32 := fun | 0 => Memref.whole cc3_stg3_0 | ⟨_ + 1, h⟩ => absurd h (Nat.not_lt.2 (Nat.le_add_left _ _))
abbrev sem3_3 : Fin 1 → DmaSem sig := fun | 0 => cc3_sem3_0 | ⟨_ + 1, h⟩ => absurd h (Nat.not_lt.2 (Nat.le_add_left _ _))
abbrev reads3_3 : Fin grid3.rank → Bool := ![false]

abbrev stage3_4 : Fin 1 → Memref sig .tc .vmem S1x3000 .f32 := fun | 0 => Memref.whole cc3_stg4_0 | ⟨_ + 1, h⟩ => absurd h (Nat.not_lt.2 (Nat.le_add_left _ _))
abbrev sem3_4 : Fin 1 → DmaSem sig := fun | 0 => cc3_sem4_0 | ⟨_ + 1, h⟩ => absurd h (Nat.not_lt.2 (Nat.le_add_left _ _))
abbrev reads3_4 : Fin grid3.rank → Bool := ![false]

abbrev stage3_5 : Fin 1 → Memref sig .tc .vmem S1x3000 .f32 := fun | 0 => Memref.whole cc3_stg5_0 | ⟨_ + 1, h⟩ => absurd h (Nat.not_lt.2 (Nat.le_add_left _ _))
abbrev sem3_5 : Fin 1 → DmaSem sig := fun | 0 => cc3_sem5_0 | ⟨_ + 1, h⟩ => absurd h (Nat.not_lt.2 (Nat.le_add_left _ _))
abbrev reads3_5 : Fin grid3.rank → Bool := ![false]

abbrev stage3_6 : Fin 2 → Memref sig .tc .vmem S400x1000 .f32 := fun | 0 => Memref.whole cc3_stg6_0 | 1 => Memref.whole cc3_stg6_1 | ⟨_ + 2, h⟩ => absurd h (Nat.not_lt.2 (Nat.le_add_left _ _))
abbrev sem3_6 : Fin 2 → DmaSem sig := fun | 0 => cc3_sem6_0 | 1 => cc3_sem6_1 | ⟨_ + 2, h⟩ => absurd h (Nat.not_lt.2 (Nat.le_add_left _ _))
abbrev reads3_6 : Fin grid3.rank → Bool := ![true]

abbrev grid4 : Pipeline.Grid := ⟨1, ![5], ![false]⟩

def cc4_transform_0 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_1 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_2 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage4_0 : Fin 2 → Memref sig .tc .vmem S2000x1000 .f32 := fun | 0 => Memref.whole cc4_stg0_0 | 1 => Memref.whole cc4_stg0_1 | ⟨_ + 2, h⟩ => absurd h (Nat.not_lt.2 (Nat.le_add_left _ _))
abbrev sem4_0 : Fin 2 → DmaSem sig := fun | 0 => cc4_sem0_0 | 1 => cc4_sem0_1 | ⟨_ + 2, h⟩ => absurd h (Nat.not_lt.2 (Nat.le_add_left _ _))
abbrev reads4_0 : Fin grid4.rank → Bool := ![true]

abbrev stage4_1 : Fin 1 → Memref sig .tc .vmem S1000x1000 .f32 := fun | 0 => Memref.whole cc4_stg1_0 | ⟨_ + 1, h⟩ => absurd h (Nat.not_lt.2 (Nat.le_add_left _ _))
abbrev sem4_1 : Fin 1 → DmaSem sig := fun | 0 => cc4_sem1_0 | ⟨_ + 1, h⟩ => absurd h (Nat.not_lt.2 (Nat.le_add_left _ _))
abbrev reads4_1 : Fin grid4.rank → Bool := ![false]

abbrev stage4_2 : Fin 2 → Memref sig .tc .vmem S2000x1000 .f32 := fun | 0 => Memref.whole cc4_stg2_0 | 1 => Memref.whole cc4_stg2_1 | ⟨_ + 2, h⟩ => absurd h (Nat.not_lt.2 (Nat.le_add_left _ _))
abbrev sem4_2 : Fin 2 → DmaSem sig := fun | 0 => cc4_sem2_0 | 1 => cc4_sem2_1 | ⟨_ + 2, h⟩ => absurd h (Nat.not_lt.2 (Nat.le_add_left _ _))
abbrev reads4_2 : Fin grid4.rank → Bool := ![true]

abbrev grid5 : Pipeline.Grid := ⟨1, ![25], ![false]⟩

def cc5_transform_0 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

def cc5_transform_1 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

def cc5_transform_2 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_3 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_4 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_5 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_6 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage5_0 : Fin 2 → Memref sig .tc .vmem S400x1000 .f32 := fun | 0 => Memref.whole cc5_stg0_0 | 1 => Memref.whole cc5_stg0_1 | ⟨_ + 2, h⟩ => absurd h (Nat.not_lt.2 (Nat.le_add_left _ _))
abbrev sem5_0 : Fin 2 → DmaSem sig := fun | 0 => cc5_sem0_0 | 1 => cc5_sem0_1 | ⟨_ + 2, h⟩ => absurd h (Nat.not_lt.2 (Nat.le_add_left _ _))
abbrev reads5_0 : Fin grid5.rank → Bool := ![true]

abbrev stage5_1 : Fin 2 → Memref sig .tc .vmem S400x1000 .f32 := fun | 0 => Memref.whole cc5_stg1_0 | 1 => Memref.whole cc5_stg1_1 | ⟨_ + 2, h⟩ => absurd h (Nat.not_lt.2 (Nat.le_add_left _ _))
abbrev sem5_1 : Fin 2 → DmaSem sig := fun | 0 => cc5_sem1_0 | 1 => cc5_sem1_1 | ⟨_ + 2, h⟩ => absurd h (Nat.not_lt.2 (Nat.le_add_left _ _))
abbrev reads5_1 : Fin grid5.rank → Bool := ![true]

abbrev stage5_2 : Fin 1 → Memref sig .tc .vmem S1000x3000 .f32 := fun | 0 => Memref.whole cc5_stg2_0 | ⟨_ + 1, h⟩ => absurd h (Nat.not_lt.2 (Nat.le_add_left _ _))
abbrev sem5_2 : Fin 1 → DmaSem sig := fun | 0 => cc5_sem2_0 | ⟨_ + 1, h⟩ => absurd h (Nat.not_lt.2 (Nat.le_add_left _ _))
abbrev reads5_2 : Fin grid5.rank → Bool := ![false]

abbrev stage5_3 : Fin 1 → Memref sig .tc .vmem S1000x3000 .f32 := fun | 0 => Memref.whole cc5_stg3_0 | ⟨_ + 1, h⟩ => absurd h (Nat.not_lt.2 (Nat.le_add_left _ _))
abbrev sem5_3 : Fin 1 → DmaSem sig := fun | 0 => cc5_sem3_0 | ⟨_ + 1, h⟩ => absurd h (Nat.not_lt.2 (Nat.le_add_left _ _))
abbrev reads5_3 : Fin grid5.rank → Bool := ![false]

abbrev stage5_4 : Fin 1 → Memref sig .tc .vmem S1x3000 .f32 := fun | 0 => Memref.whole cc5_stg4_0 | ⟨_ + 1, h⟩ => absurd h (Nat.not_lt.2 (Nat.le_add_left _ _))
abbrev sem5_4 : Fin 1 → DmaSem sig := fun | 0 => cc5_sem4_0 | ⟨_ + 1, h⟩ => absurd h (Nat.not_lt.2 (Nat.le_add_left _ _))
abbrev reads5_4 : Fin grid5.rank → Bool := ![false]

abbrev stage5_5 : Fin 1 → Memref sig .tc .vmem S1x3000 .f32 := fun | 0 => Memref.whole cc5_stg5_0 | ⟨_ + 1, h⟩ => absurd h (Nat.not_lt.2 (Nat.le_add_left _ _))
abbrev sem5_5 : Fin 1 → DmaSem sig := fun | 0 => cc5_sem5_0 | ⟨_ + 1, h⟩ => absurd h (Nat.not_lt.2 (Nat.le_add_left _ _))
abbrev reads5_5 : Fin grid5.rank → Bool := ![false]

abbrev stage5_6 : Fin 2 → Memref sig .tc .vmem S400x1000 .f32 := fun | 0 => Memref.whole cc5_stg6_0 | 1 => Memref.whole cc5_stg6_1 | ⟨_ + 2, h⟩ => absurd h (Nat.not_lt.2 (Nat.le_add_left _ _))
abbrev sem5_6 : Fin 2 → DmaSem sig := fun | 0 => cc5_sem6_0 | 1 => cc5_sem6_1 | ⟨_ + 2, h⟩ => absurd h (Nat.not_lt.2 (Nat.le_add_left _ _))
abbrev reads5_6 : Fin grid5.rank → Bool := ![true]

abbrev grid6 : Pipeline.Grid := ⟨1, ![5], ![false]⟩

def cc6_transform_0 (i : grid6.Coords) : Fin 2 → Nat :=
  let arg0 : BitVec 32 := BitVec.ofNat 32 (i 0).val
  let c0_i32 : BitVec 32 := 0#32
  let c0_i32_0 : BitVec 32 := 0#32
  ![arg0.toNat, c0_i32.toNat]

def cc6_transform_1 (i : grid6.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc6_transform_2 (i : grid6.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc6_transform_3 (i : grid6.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage6_0 : Fin 2 → Memref sig .tc .vmem S2000x1000 .f32 := fun | 0 => Memref.whole cc6_stg0_0 | 1 => Memref.whole cc6_stg0_1 | ⟨_ + 2, h⟩ => absurd h (Nat.not_lt.2 (Nat.le_add_left _ _))
abbrev sem6_0 : Fin 2 → DmaSem sig := fun | 0 => cc6_sem0_0 | 1 => cc6_sem0_1 | ⟨_ + 2, h⟩ => absurd h (Nat.not_lt.2 (Nat.le_add_left _ _))
abbrev reads6_0 : Fin grid6.rank → Bool := ![true]

abbrev stage6_1 : Fin 1 → Memref sig .tc .vmem S1000x100 .f32 := fun | 0 => Memref.whole cc6_stg1_0 | ⟨_ + 1, h⟩ => absurd h (Nat.not_lt.2 (Nat.le_add_left _ _))
abbrev sem6_1 : Fin 1 → DmaSem sig := fun | 0 => cc6_sem1_0 | ⟨_ + 1, h⟩ => absurd h (Nat.not_lt.2 (Nat.le_add_left _ _))
abbrev reads6_1 : Fin grid6.rank → Bool := ![false]

abbrev stage6_2 : Fin 1 → Memref sig .tc .vmem S1x100 .f32 := fun | 0 => Memref.whole cc6_stg2_0 | ⟨_ + 1, h⟩ => absurd h (Nat.not_lt.2 (Nat.le_add_left _ _))
abbrev sem6_2 : Fin 1 → DmaSem sig := fun | 0 => cc6_sem2_0 | ⟨_ + 1, h⟩ => absurd h (Nat.not_lt.2 (Nat.le_add_left _ _))
abbrev reads6_2 : Fin grid6.rank → Bool := ![false]

abbrev stage6_3 : Fin 2 → Memref sig .tc .vmem S2000x100 .f32 := fun | 0 => Memref.whole cc6_stg3_0 | 1 => Memref.whole cc6_stg3_1 | ⟨_ + 2, h⟩ => absurd h (Nat.not_lt.2 (Nat.le_add_left _ _))
abbrev sem6_3 : Fin 2 → DmaSem sig := fun | 0 => cc6_sem3_0 | 1 => cc6_sem3_1 | ⟨_ + 2, h⟩ => absurd h (Nat.not_lt.2 (Nat.le_add_left _ _))
abbrev reads6_3 : Fin grid6.rank → Bool := ![true]

class Facts₀ : Prop where
  transposes_S3000x1000_S1000x3000_1_0 : S3000x1000.Transposes [1, 0] S1000x3000
  transposes_S100x1000_S1000x100_1_0 : S100x1000.Transposes [1, 0] S1000x100
  slices_S3x1000x1000_S1x1000x1000_0_0_0 : S3x1000x1000.Slices ![0, 0, 0] S1x1000x1000
  shapeCasts_S1x1000x1000_S1000x1000 : S1x1000x1000.ShapeCasts S1000x1000
  inb_S2000x1000_S2000x1000_0_0 : ∀ a, (![0, 0] : Fin 2 → Nat) a + S2000x1000.size a ≤ S2000x1000.size a
  h_S2000x1000 : 0 < S2000x1000.numel
  bitsLt_bf16_f32 : FTy.bits .bf16 < FTy.bits .f32
  inb_S1000x1000_S1000x1000_0_0 : ∀ a, (![0, 0] : Fin 2 → Nat) a + S1000x1000.size a ≤ S1000x1000.size a
  h_S1000x1000 : 0 < S1000x1000.numel
  shapeCasts_S1000x1000_S1000x1000 : S1000x1000.ShapeCasts S1000x1000
  bcast_S_S80000 : S_.BroadcastsInDim S80000 (![] : Fin 0 → Fin S80000.rank)
  bcast_S80000_S80000x1_0 : S80000.BroadcastsInDim S80000x1 (![0] : Fin 1 → Fin S80000x1.rank)
  bcast_S80000x1_S80000x1000_0_1 : S80000x1.BroadcastsInDim S80000x1000 (![0, 1] : Fin 2 → Fin S80000x1000.rank)
  bcast_S_S10000x1000 : S_.BroadcastsInDim S10000x1000 (![] : Fin 0 → Fin S10000x1000.rank)
  shapeCasts_S3000_S1x3000 : S3000.ShapeCasts S1x3000
  inb_S400x1000_S400x1000_0_0 : ∀ a, (![0, 0] : Fin 2 → Nat) a + S400x1000.size a ≤ S400x1000.size a
  h_S400x1000 : 0 < S400x1000.numel
  shapeCasts_S400x1000_S400x1000 : S400x1000.ShapeCasts S400x1000
  inb_S1000x3000_S1000x3000_0_0 : ∀ a, (![0, 0] : Fin 2 → Nat) a + S1000x3000.size a ≤ S1000x3000.size a
  h_S1000x3000 : 0 < S1000x3000.numel
  shapeCasts_S1000x3000_S1000x3000 : S1000x3000.ShapeCasts S1000x3000
  inb_S1x3000_S1x3000_0_0 : ∀ a, (![0, 0] : Fin 2 → Nat) a + S1x3000.size a ≤ S1x3000.size a
  h_S1x3000 : 0 < S1x3000.numel
  shapeCasts_S1x3000_S1x3000 : S1x3000.ShapeCasts S1x3000
  broadcasts_S1x3000_S400x3000 : S1x3000.Broadcasts S400x3000
  slices_S400x3000_o0_0_S400x1000 : S400x3000.Slices ![0, 0] S400x1000
  slices_S400x3000_o0_1000_S400x1000 : S400x3000.Slices ![0, 1000] S400x1000
  slices_S400x3000_o0_2000_S400x1000 : S400x3000.Slices ![0, 2000] S400x1000
  slices_S3x1000x1000_S1x1000x1000_1_0_0 : S3x1000x1000.Slices ![1, 0, 0] S1x1000x1000
  shapeCasts_S2000x1000_S2000x1000 : S2000x1000.ShapeCasts S2000x1000
  slices_S3x1000x1000_S1x1000x1000_2_0_0 : S3x1000x1000.Slices ![2, 0, 0] S1x1000x1000
  shapeCasts_S100_S1x100 : S100.ShapeCasts S1x100
  inb_S1000x100_S1000x100_0_0 : ∀ a, (![0, 0] : Fin 2 → Nat) a + S1000x100.size a ≤ S1000x100.size a
  h_S1000x100 : 0 < S1000x100.numel
  shapeCasts_S1000x100_S1000x100 : S1000x100.ShapeCasts S1000x100
  inb_S1x100_S1x100_0_0 : ∀ a, (![0, 0] : Fin 2 → Nat) a + S1x100.size a ≤ S1x100.size a
  h_S1x100 : 0 < S1x100.numel
  shapeCasts_S1x100_S1x100 : S1x100.ShapeCasts S1x100
  broadcasts_S1x100_S2000x100 : S1x100.Broadcasts S2000x100
  inb_S2000x100_S2000x100_0_0 : ∀ a, (![0, 0] : Fin 2 → Nat) a + S2000x100.size a ≤ S2000x100.size a
  h_S2000x100 : 0 < S2000x100.numel
  bcast_S_S16x100 : S_.BroadcastsInDim S16x100 (![] : Fin 0 → Fin S16x100.rank)
  bcast_S10000_S10000x1_0 : S10000.BroadcastsInDim S10000x1 (![0] : Fin 1 → Fin S10000x1.rank)
  bcast_S_S10000 : S_.BroadcastsInDim S10000 (![] : Fin 0 → Fin S10000.rank)
  bcast_S_S16 : S_.BroadcastsInDim S16 (![] : Fin 0 → Fin S16.rank)
  bcast_S16_S16x1_0 : S16.BroadcastsInDim S16x1 (![0] : Fin 1 → Fin S16x1.rank)
  bcast_S16x1_S16x100_0_1 : S16x1.BroadcastsInDim S16x100 (![0, 1] : Fin 2 → Fin S16x100.rank)
  reducesTo_S16x100_S16_d1 : S16x100.ReducesTo [1] S16
  h_S_ : 0 < S_.numel
  dot_S2000x1000_S1000x1000_S2000x1000_1_0_0_1_n_n_wf : DotDims.WF S2000x1000 S1000x1000 S2000x1000 [1] [0] [0] [1] [] []
  gather_S10000x1000_S80000x1_S80000x1000_1_0_n_n_0_1_11000_wf : GatherDims.WF S10000x1000 S80000x1 S80000x1000 [1] [0] [] [0] [] 1 ![1, 1000]
  scatter_S10000x1000_S80000x1_S80000x1000_1_0_0_1_wf : ScatterDims.WF S10000x1000 S80000x1 S80000x1000 [1] [0] [0] 1
  dot_S400x1000_S1000x3000_S400x3000_1_0_0_1_n_n_wf : DotDims.WF S400x1000 S1000x3000 S400x3000 [1] [0] [0] [1] [] []
  dot_S2000x1000_S1000x100_S2000x100_1_0_0_1_n_n_wf : DotDims.WF S2000x1000 S1000x100 S2000x100 [1] [0] [0] [1] [] []
  scatter_S16x100_S10000x1_S10000x100_1_0_0_1_wf : ScatterDims.WF S16x100 S10000x1 S10000x100 [1] [0] [0] 1
  scatter_S16_S10000x1_S10000_n_0_0_1_wf : ScatterDims.WF S16 S10000x1 S10000 [] [0] [0] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2000x1000.size a ≤ S10000x1000.size a
  hwx0_0 : ∀ i : grid0.Coords, EltTy.bits .f32 = 32 ∨ (Rect.block (s := S10000x1000) S2000x1000.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S1000x1000.size a ≤ S1000x1000.size a
  hwx0_1 : ∀ i : grid0.Coords, EltTy.bits .f32 = 32 ∨ (Rect.block (s := S1000x1000) S1000x1000.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S2000x1000.size a ≤ S10000x1000.size a
  hwx0_2 : ∀ i : grid0.Coords, EltTy.bits .f32 = 32 ∨ (Rect.block (s := S10000x1000) S2000x1000.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S400x1000.size a ≤ S10000x1000.size a
  hwx1_0 : ∀ i : grid1.Coords, EltTy.bits .f32 = 32 ∨ (Rect.block (s := S10000x1000) S400x1000.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S400x1000.size a ≤ S10000x1000.size a
  hwx1_1 : ∀ i : grid1.Coords, EltTy.bits .f32 = 32 ∨ (Rect.block (s := S10000x1000) S400x1000.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S1000x3000.size a ≤ S1000x3000.size a
  hwx1_2 : ∀ i : grid1.Coords, EltTy.bits .f32 = 32 ∨ (Rect.block (s := S1000x3000) S1000x3000.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S1000x3000.size a ≤ S1000x3000.size a
  hwx1_3 : ∀ i : grid1.Coords, EltTy.bits .f32 = 32 ∨ (Rect.block (s := S1000x3000) S1000x3000.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S1x3000.size a ≤ S1x3000.size a
  hwx1_4 : ∀ i : grid1.Coords, EltTy.bits .f32 = 32 ∨ (Rect.block (s := S1x3000) S1x3000.size (cc1_transform_4 i) (hinb1_4 i)).WholeWords (EltTy.packing .f32)
  hstage1_5 : ∀ j, (stage1_5 j).IsWhole
  nbuf1_5 : grid1.bufCount reads1_5 true = 1
  hreads1_5 : ∀ i i' : grid1.Coords, (∀ a, reads1_5 a = true → i a = i' a) → cc1_transform_5 i = cc1_transform_5 i'
  hinb1_5 : ∀ (i : grid1.Coords) a, (cc1_transform_5 i a + 1) * S1x3000.size a ≤ S1x3000.size a
  hwx1_5 : ∀ i : grid1.Coords, EltTy.bits .f32 = 32 ∨ (Rect.block (s := S1x3000) S1x3000.size (cc1_transform_5 i) (hinb1_5 i)).WholeWords (EltTy.packing .f32)
  hstage1_6 : ∀ j, (stage1_6 j).IsWhole
  nbuf1_6 : grid1.bufCount reads1_6 false = 2
  hreads1_6 : ∀ i i' : grid1.Coords, (∀ a, reads1_6 a = true → i a = i' a) → cc1_transform_6 i = cc1_transform_6 i'
  hinb1_6 : ∀ (i : grid1.Coords) a, (cc1_transform_6 i a + 1) * S400x1000.size a ≤ S10000x1000.size a
  hwx1_6 : ∀ i : grid1.Coords, EltTy.bits .f32 = 32 ∨ (Rect.block (s := S10000x1000) S400x1000.size (cc1_transform_6 i) (hinb1_6 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S2000x1000.size a ≤ S10000x1000.size a
  hwx2_0 : ∀ i : grid2.Coords, EltTy.bits .f32 = 32 ∨ (Rect.block (s := S10000x1000) S2000x1000.size (cc2_transform_0 i) (hinb2_0 i)).WholeWords (EltTy.packing .f32)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S1000x1000.size a ≤ S1000x1000.size a
  hwx2_1 : ∀ i : grid2.Coords, EltTy.bits .f32 = 32 ∨ (Rect.block (s := S1000x1000) S1000x1000.size (cc2_transform_1 i) (hinb2_1 i)).WholeWords (EltTy.packing .f32)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S2000x1000.size a ≤ S10000x1000.size a
  hwx2_2 : ∀ i : grid2.Coords, EltTy.bits .f32 = 32 ∨ (Rect.block (s := S10000x1000) S2000x1000.size (cc2_transform_2 i) (hinb2_2 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S400x1000.size a ≤ S10000x1000.size a
  hwx3_0 : ∀ i : grid3.Coords, EltTy.bits .f32 = 32 ∨ (Rect.block (s := S10000x1000) S400x1000.size (cc3_transform_0 i) (hinb3_0 i)).WholeWords (EltTy.packing .f32)
  hstage3_1 : ∀ j, (stage3_1 j).IsWhole
  nbuf3_1 : grid3.bufCount reads3_1 false = 2
  hreads3_1 : ∀ i i' : grid3.Coords, (∀ a, reads3_1 a = true → i a = i' a) → cc3_transform_1 i = cc3_transform_1 i'
  hinb3_1 : ∀ (i : grid3.Coords) a, (cc3_transform_1 i a + 1) * S400x1000.size a ≤ S10000x1000.size a
  hwx3_1 : ∀ i : grid3.Coords, EltTy.bits .f32 = 32 ∨ (Rect.block (s := S10000x1000) S400x1000.size (cc3_transform_1 i) (hinb3_1 i)).WholeWords (EltTy.packing .f32)
  hstage3_2 : ∀ j, (stage3_2 j).IsWhole
  nbuf3_2 : grid3.bufCount reads3_2 true = 1
  hreads3_2 : ∀ i i' : grid3.Coords, (∀ a, reads3_2 a = true → i a = i' a) → cc3_transform_2 i = cc3_transform_2 i'
  hinb3_2 : ∀ (i : grid3.Coords) a, (cc3_transform_2 i a + 1) * S1000x3000.size a ≤ S1000x3000.size a
  hwx3_2 : ∀ i : grid3.Coords, EltTy.bits .f32 = 32 ∨ (Rect.block (s := S1000x3000) S1000x3000.size (cc3_transform_2 i) (hinb3_2 i)).WholeWords (EltTy.packing .f32)
  hstage3_3 : ∀ j, (stage3_3 j).IsWhole
  nbuf3_3 : grid3.bufCount reads3_3 true = 1
  hreads3_3 : ∀ i i' : grid3.Coords, (∀ a, reads3_3 a = true → i a = i' a) → cc3_transform_3 i = cc3_transform_3 i'
  hinb3_3 : ∀ (i : grid3.Coords) a, (cc3_transform_3 i a + 1) * S1000x3000.size a ≤ S1000x3000.size a
  hwx3_3 : ∀ i : grid3.Coords, EltTy.bits .f32 = 32 ∨ (Rect.block (s := S1000x3000) S1000x3000.size (cc3_transform_3 i) (hinb3_3 i)).WholeWords (EltTy.packing .f32)
  hstage3_4 : ∀ j, (stage3_4 j).IsWhole
  nbuf3_4 : grid3.bufCount reads3_4 true = 1
  hreads3_4 : ∀ i i' : grid3.Coords, (∀ a, reads3_4 a = true → i a = i' a) → cc3_transform_4 i = cc3_transform_4 i'
  hinb3_4 : ∀ (i : grid3.Coords) a, (cc3_transform_4 i a + 1) * S1x3000.size a ≤ S1x3000.size a
  hwx3_4 : ∀ i : grid3.Coords, EltTy.bits .f32 = 32 ∨ (Rect.block (s := S1x3000) S1x3000.size (cc3_transform_4 i) (hinb3_4 i)).WholeWords (EltTy.packing .f32)
  hstage3_5 : ∀ j, (stage3_5 j).IsWhole
  nbuf3_5 : grid3.bufCount reads3_5 true = 1
  hreads3_5 : ∀ i i' : grid3.Coords, (∀ a, reads3_5 a = true → i a = i' a) → cc3_transform_5 i = cc3_transform_5 i'
  hinb3_5 : ∀ (i : grid3.Coords) a, (cc3_transform_5 i a + 1) * S1x3000.size a ≤ S1x3000.size a
  hwx3_5 : ∀ i : grid3.Coords, EltTy.bits .f32 = 32 ∨ (Rect.block (s := S1x3000) S1x3000.size (cc3_transform_5 i) (hinb3_5 i)).WholeWords (EltTy.packing .f32)
  hstage3_6 : ∀ j, (stage3_6 j).IsWhole
  nbuf3_6 : grid3.bufCount reads3_6 false = 2
  hreads3_6 : ∀ i i' : grid3.Coords, (∀ a, reads3_6 a = true → i a = i' a) → cc3_transform_6 i = cc3_transform_6 i'
  hinb3_6 : ∀ (i : grid3.Coords) a, (cc3_transform_6 i a + 1) * S400x1000.size a ≤ S10000x1000.size a
  hwx3_6 : ∀ i : grid3.Coords, EltTy.bits .f32 = 32 ∨ (Rect.block (s := S10000x1000) S400x1000.size (cc3_transform_6 i) (hinb3_6 i)).WholeWords (EltTy.packing .f32)
  hrank4 : 0 < grid4.rank
  hstage4_0 : ∀ j, (stage4_0 j).IsWhole
  nbuf4_0 : grid4.bufCount reads4_0 false = 2
  hreads4_0 : ∀ i i' : grid4.Coords, (∀ a, reads4_0 a = true → i a = i' a) → cc4_transform_0 i = cc4_transform_0 i'
  hinb4_0 : ∀ (i : grid4.Coords) a, (cc4_transform_0 i a + 1) * S2000x1000.size a ≤ S10000x1000.size a
  hwx4_0 : ∀ i : grid4.Coords, EltTy.bits .f32 = 32 ∨ (Rect.block (s := S10000x1000) S2000x1000.size (cc4_transform_0 i) (hinb4_0 i)).WholeWords (EltTy.packing .f32)
  hstage4_1 : ∀ j, (stage4_1 j).IsWhole
  nbuf4_1 : grid4.bufCount reads4_1 true = 1
  hreads4_1 : ∀ i i' : grid4.Coords, (∀ a, reads4_1 a = true → i a = i' a) → cc4_transform_1 i = cc4_transform_1 i'
  hinb4_1 : ∀ (i : grid4.Coords) a, (cc4_transform_1 i a + 1) * S1000x1000.size a ≤ S1000x1000.size a
  hwx4_1 : ∀ i : grid4.Coords, EltTy.bits .f32 = 32 ∨ (Rect.block (s := S1000x1000) S1000x1000.size (cc4_transform_1 i) (hinb4_1 i)).WholeWords (EltTy.packing .f32)
  hstage4_2 : ∀ j, (stage4_2 j).IsWhole
  nbuf4_2 : grid4.bufCount reads4_2 false = 2
  hreads4_2 : ∀ i i' : grid4.Coords, (∀ a, reads4_2 a = true → i a = i' a) → cc4_transform_2 i = cc4_transform_2 i'
  hinb4_2 : ∀ (i : grid4.Coords) a, (cc4_transform_2 i a + 1) * S2000x1000.size a ≤ S10000x1000.size a
  hwx4_2 : ∀ i : grid4.Coords, EltTy.bits .f32 = 32 ∨ (Rect.block (s := S10000x1000) S2000x1000.size (cc4_transform_2 i) (hinb4_2 i)).WholeWords (EltTy.packing .f32)
  hrank5 : 0 < grid5.rank
  hstage5_0 : ∀ j, (stage5_0 j).IsWhole
  nbuf5_0 : grid5.bufCount reads5_0 false = 2
  hreads5_0 : ∀ i i' : grid5.Coords, (∀ a, reads5_0 a = true → i a = i' a) → cc5_transform_0 i = cc5_transform_0 i'
  hinb5_0 : ∀ (i : grid5.Coords) a, (cc5_transform_0 i a + 1) * S400x1000.size a ≤ S10000x1000.size a
  hwx5_0 : ∀ i : grid5.Coords, EltTy.bits .f32 = 32 ∨ (Rect.block (s := S10000x1000) S400x1000.size (cc5_transform_0 i) (hinb5_0 i)).WholeWords (EltTy.packing .f32)
  hstage5_1 : ∀ j, (stage5_1 j).IsWhole
  nbuf5_1 : grid5.bufCount reads5_1 false = 2
  hreads5_1 : ∀ i i' : grid5.Coords, (∀ a, reads5_1 a = true → i a = i' a) → cc5_transform_1 i = cc5_transform_1 i'
  hinb5_1 : ∀ (i : grid5.Coords) a, (cc5_transform_1 i a + 1) * S400x1000.size a ≤ S10000x1000.size a
  hwx5_1 : ∀ i : grid5.Coords, EltTy.bits .f32 = 32 ∨ (Rect.block (s := S10000x1000) S400x1000.size (cc5_transform_1 i) (hinb5_1 i)).WholeWords (EltTy.packing .f32)
  hstage5_2 : ∀ j, (stage5_2 j).IsWhole
  nbuf5_2 : grid5.bufCount reads5_2 true = 1
  hreads5_2 : ∀ i i' : grid5.Coords, (∀ a, reads5_2 a = true → i a = i' a) → cc5_transform_2 i = cc5_transform_2 i'
  hinb5_2 : ∀ (i : grid5.Coords) a, (cc5_transform_2 i a + 1) * S1000x3000.size a ≤ S1000x3000.size a
  hwx5_2 : ∀ i : grid5.Coords, EltTy.bits .f32 = 32 ∨ (Rect.block (s := S1000x3000) S1000x3000.size (cc5_transform_2 i) (hinb5_2 i)).WholeWords (EltTy.packing .f32)
  hstage5_3 : ∀ j, (stage5_3 j).IsWhole
  nbuf5_3 : grid5.bufCount reads5_3 true = 1
  hreads5_3 : ∀ i i' : grid5.Coords, (∀ a, reads5_3 a = true → i a = i' a) → cc5_transform_3 i = cc5_transform_3 i'
  hinb5_3 : ∀ (i : grid5.Coords) a, (cc5_transform_3 i a + 1) * S1000x3000.size a ≤ S1000x3000.size a
  hwx5_3 : ∀ i : grid5.Coords, EltTy.bits .f32 = 32 ∨ (Rect.block (s := S1000x3000) S1000x3000.size (cc5_transform_3 i) (hinb5_3 i)).WholeWords (EltTy.packing .f32)
  hstage5_4 : ∀ j, (stage5_4 j).IsWhole
  nbuf5_4 : grid5.bufCount reads5_4 true = 1
  hreads5_4 : ∀ i i' : grid5.Coords, (∀ a, reads5_4 a = true → i a = i' a) → cc5_transform_4 i = cc5_transform_4 i'
  hinb5_4 : ∀ (i : grid5.Coords) a, (cc5_transform_4 i a + 1) * S1x3000.size a ≤ S1x3000.size a
  hwx5_4 : ∀ i : grid5.Coords, EltTy.bits .f32 = 32 ∨ (Rect.block (s := S1x3000) S1x3000.size (cc5_transform_4 i) (hinb5_4 i)).WholeWords (EltTy.packing .f32)
  hstage5_5 : ∀ j, (stage5_5 j).IsWhole
  nbuf5_5 : grid5.bufCount reads5_5 true = 1
  hreads5_5 : ∀ i i' : grid5.Coords, (∀ a, reads5_5 a = true → i a = i' a) → cc5_transform_5 i = cc5_transform_5 i'
  hinb5_5 : ∀ (i : grid5.Coords) a, (cc5_transform_5 i a + 1) * S1x3000.size a ≤ S1x3000.size a
  hwx5_5 : ∀ i : grid5.Coords, EltTy.bits .f32 = 32 ∨ (Rect.block (s := S1x3000) S1x3000.size (cc5_transform_5 i) (hinb5_5 i)).WholeWords (EltTy.packing .f32)
  hstage5_6 : ∀ j, (stage5_6 j).IsWhole
  nbuf5_6 : grid5.bufCount reads5_6 false = 2
  hreads5_6 : ∀ i i' : grid5.Coords, (∀ a, reads5_6 a = true → i a = i' a) → cc5_transform_6 i = cc5_transform_6 i'
  hinb5_6 : ∀ (i : grid5.Coords) a, (cc5_transform_6 i a + 1) * S400x1000.size a ≤ S10000x1000.size a
  hwx5_6 : ∀ i : grid5.Coords, EltTy.bits .f32 = 32 ∨ (Rect.block (s := S10000x1000) S400x1000.size (cc5_transform_6 i) (hinb5_6 i)).WholeWords (EltTy.packing .f32)
  hrank6 : 0 < grid6.rank
  hstage6_0 : ∀ j, (stage6_0 j).IsWhole
  nbuf6_0 : grid6.bufCount reads6_0 false = 2
  hreads6_0 : ∀ i i' : grid6.Coords, (∀ a, reads6_0 a = true → i a = i' a) → cc6_transform_0 i = cc6_transform_0 i'
  hinb6_0 : ∀ (i : grid6.Coords) a, (cc6_transform_0 i a + 1) * S2000x1000.size a ≤ S10000x1000.size a
  hwx6_0 : ∀ i : grid6.Coords, EltTy.bits .f32 = 32 ∨ (Rect.block (s := S10000x1000) S2000x1000.size (cc6_transform_0 i) (hinb6_0 i)).WholeWords (EltTy.packing .f32)
  hstage6_1 : ∀ j, (stage6_1 j).IsWhole
  nbuf6_1 : grid6.bufCount reads6_1 true = 1
  hreads6_1 : ∀ i i' : grid6.Coords, (∀ a, reads6_1 a = true → i a = i' a) → cc6_transform_1 i = cc6_transform_1 i'
  hinb6_1 : ∀ (i : grid6.Coords) a, (cc6_transform_1 i a + 1) * S1000x100.size a ≤ S1000x100.size a
  hwx6_1 : ∀ i : grid6.Coords, EltTy.bits .f32 = 32 ∨ (Rect.block (s := S1000x100) S1000x100.size (cc6_transform_1 i) (hinb6_1 i)).WholeWords (EltTy.packing .f32)
  hstage6_2 : ∀ j, (stage6_2 j).IsWhole
  nbuf6_2 : grid6.bufCount reads6_2 true = 1
  hreads6_2 : ∀ i i' : grid6.Coords, (∀ a, reads6_2 a = true → i a = i' a) → cc6_transform_2 i = cc6_transform_2 i'
  hinb6_2 : ∀ (i : grid6.Coords) a, (cc6_transform_2 i a + 1) * S1x100.size a ≤ S1x100.size a
  hwx6_2 : ∀ i : grid6.Coords, EltTy.bits .f32 = 32 ∨ (Rect.block (s := S1x100) S1x100.size (cc6_transform_2 i) (hinb6_2 i)).WholeWords (EltTy.packing .f32)
  hstage6_3 : ∀ j, (stage6_3 j).IsWhole
  nbuf6_3 : grid6.bufCount reads6_3 false = 2
  hreads6_3 : ∀ i i' : grid6.Coords, (∀ a, reads6_3 a = true → i a = i' a) → cc6_transform_3 i = cc6_transform_3 i'
  hinb6_3 : ∀ (i : grid6.Coords) a, (cc6_transform_3 i a + 1) * S2000x100.size a ≤ S10000x100.size a
  hwx6_3 : ∀ i : grid6.Coords, EltTy.bits .f32 = 32 ∨ (Rect.block (s := S10000x100) S2000x100.size (cc6_transform_3 i) (hinb6_3 i)).WholeWords (EltTy.packing .f32)

variable [Facts₀]

def dot_S2000x1000_S1000x1000_S2000x1000_1_0_0_1_n_n : DotDims S2000x1000 S1000x1000 S2000x1000 where
  lhsContracting := [1]
  rhsContracting := [0]
  lhsNonContracting := [0]
  rhsNonContracting := [1]
  lhsBatch := []
  rhsBatch := []
  wf := dot_S2000x1000_S1000x1000_S2000x1000_1_0_0_1_n_n_wf
def gather_S10000x1000_S80000x1_S80000x1000_1_0_n_n_0_1_11000 : GatherDims S10000x1000 S80000x1 S80000x1000 where
  offsetDims := [1]
  collapsedSliceDims := [0]
  operandBatchingDims := []
  startIndicesBatchingDims := []
  startIndexMap := [0]
  indexVectorDim := 1
  sliceSizes := ![1, 1000]
  wf := gather_S10000x1000_S80000x1_S80000x1000_1_0_n_n_0_1_11000_wf
def scatter_S10000x1000_S80000x1_S80000x1000_1_0_0_1 : ScatterDims S10000x1000 S80000x1 S80000x1000 where
  updateWindowDims := [1]
  insertedWindowDims := [0]
  scatterDimsToOperandDims := [0]
  indexVectorDim := 1
  wf := scatter_S10000x1000_S80000x1_S80000x1000_1_0_0_1_wf
def dot_S400x1000_S1000x3000_S400x3000_1_0_0_1_n_n : DotDims S400x1000 S1000x3000 S400x3000 where
  lhsContracting := [1]
  rhsContracting := [0]
  lhsNonContracting := [0]
  rhsNonContracting := [1]
  lhsBatch := []
  rhsBatch := []
  wf := dot_S400x1000_S1000x3000_S400x3000_1_0_0_1_n_n_wf
def dot_S2000x1000_S1000x100_S2000x100_1_0_0_1_n_n : DotDims S2000x1000 S1000x100 S2000x100 where
  lhsContracting := [1]
  rhsContracting := [0]
  lhsNonContracting := [0]
  rhsNonContracting := [1]
  lhsBatch := []
  rhsBatch := []
  wf := dot_S2000x1000_S1000x100_S2000x100_1_0_0_1_n_n_wf
def scatter_S16x100_S10000x1_S10000x100_1_0_0_1 : ScatterDims S16x100 S10000x1 S10000x100 where
  updateWindowDims := [1]
  insertedWindowDims := [0]
  scatterDimsToOperandDims := [0]
  indexVectorDim := 1
  wf := scatter_S16x100_S10000x1_S10000x100_1_0_0_1_wf
def scatter_S16_S10000x1_S10000_n_0_0_1 : ScatterDims S16 S10000x1 S10000 where
  updateWindowDims := []
  insertedWindowDims := [0]
  scatterDimsToOperandDims := [0]
  indexVectorDim := 1
  wf := scatter_S16_S10000x1_S10000_n_0_0_1_wf

abbrev win0_0 : Pipeline.Window sig grid0 :=
  Pipeline.Window.ofSpec (Memref.whole main_arg0) S2000x1000.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v4) S1000x1000.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v5) S2000x1000.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_v18) S400x1000.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_arg0) S400x1000.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v0) S1000x3000.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v1) S1000x3000.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v19) S1x3000.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v20) S1x3000.size cc1_transform_5 reads1_5 false true 1 stage1_5 sem1_5
    hrank1 hreads1_5 hinb1_5 nbuf1_5 (Memref.isWhole_whole _) hwx1_5 hstage1_5

abbrev win1_6 : Pipeline.Window sig grid1 :=
  Pipeline.Window.ofSpec (Memref.whole main_v21) S400x1000.size cc1_transform_6 reads1_6 true false 2 stage1_6 sem1_6
    hrank1 hreads1_6 hinb1_6 nbuf1_6 (Memref.isWhole_whole _) hwx1_6 hstage1_6

abbrev win1 : Fin 7 → Pipeline.Window sig grid1 := fun | 0 => win1_0 | 1 => win1_1 | 2 => win1_2 | 3 => win1_3 | 4 => win1_4 | 5 => win1_5 | 6 => win1_6 | ⟨_ + 7, h⟩ => absurd h (Nat.not_lt.2 (Nat.le_add_left _ _))
abbrev spec1 : Fin 7 → Pipeline.WinSpec sig grid1.rank := fun w => (win1 w).toWinSpec

abbrev win2_0 : Pipeline.Window sig grid2 :=
  Pipeline.Window.ofSpec (Memref.whole main_v21) S2000x1000.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v23) S1000x1000.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_v24) S2000x1000.size cc2_transform_2 reads2_2 true false 2 stage2_2 sem2_2
    hrank2 hreads2_2 hinb2_2 nbuf2_2 (Memref.isWhole_whole _) hwx2_2 hstage2_2

abbrev win2 : Fin 3 → Pipeline.Window sig grid2 := fun | 0 => win2_0 | 1 => win2_1 | 2 => win2_2 | ⟨_ + 3, h⟩ => absurd h (Nat.not_lt.2 (Nat.le_add_left _ _))
abbrev spec2 : Fin 3 → Pipeline.WinSpec sig grid2.rank := fun w => (win2 w).toWinSpec

abbrev win3_0 : Pipeline.Window sig grid3 :=
  Pipeline.Window.ofSpec (Memref.whole main_v37) S400x1000.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v21) S400x1000.size cc3_transform_1 reads3_1 false false 2 stage3_1 sem3_1
    hrank3 hreads3_1 hinb3_1 nbuf3_1 (Memref.isWhole_whole _) hwx3_1 hstage3_1

abbrev win3_2 : Pipeline.Window sig grid3 :=
  Pipeline.Window.ofSpec (Memref.whole main_v0) S1000x3000.size cc3_transform_2 reads3_2 false true 1 stage3_2 sem3_2
    hrank3 hreads3_2 hinb3_2 nbuf3_2 (Memref.isWhole_whole _) hwx3_2 hstage3_2

abbrev win3_3 : Pipeline.Window sig grid3 :=
  Pipeline.Window.ofSpec (Memref.whole main_v1) S1000x3000.size cc3_transform_3 reads3_3 false true 1 stage3_3 sem3_3
    hrank3 hreads3_3 hinb3_3 nbuf3_3 (Memref.isWhole_whole _) hwx3_3 hstage3_3

abbrev win3_4 : Pipeline.Window sig grid3 :=
  Pipeline.Window.ofSpec (Memref.whole main_v38) S1x3000.size cc3_transform_4 reads3_4 false true 1 stage3_4 sem3_4
    hrank3 hreads3_4 hinb3_4 nbuf3_4 (Memref.isWhole_whole _) hwx3_4 hstage3_4

abbrev win3_5 : Pipeline.Window sig grid3 :=
  Pipeline.Window.ofSpec (Memref.whole main_v39) S1x3000.size cc3_transform_5 reads3_5 false true 1 stage3_5 sem3_5
    hrank3 hreads3_5 hinb3_5 nbuf3_5 (Memref.isWhole_whole _) hwx3_5 hstage3_5

abbrev win3_6 : Pipeline.Window sig grid3 :=
  Pipeline.Window.ofSpec (Memref.whole main_v40) S400x1000.size cc3_transform_6 reads3_6 true false 2 stage3_6 sem3_6
    hrank3 hreads3_6 hinb3_6 nbuf3_6 (Memref.isWhole_whole _) hwx3_6 hstage3_6

abbrev win3 : Fin 7 → Pipeline.Window sig grid3 := fun | 0 => win3_0 | 1 => win3_1 | 2 => win3_2 | 3 => win3_3 | 4 => win3_4 | 5 => win3_5 | 6 => win3_6 | ⟨_ + 7, h⟩ => absurd h (Nat.not_lt.2 (Nat.le_add_left _ _))
abbrev spec3 : Fin 7 → Pipeline.WinSpec sig grid3.rank := fun w => (win3 w).toWinSpec

abbrev win4_0 : Pipeline.Window sig grid4 :=
  Pipeline.Window.ofSpec (Memref.whole main_v40) S2000x1000.size cc4_transform_0 reads4_0 false false 2 stage4_0 sem4_0
    hrank4 hreads4_0 hinb4_0 nbuf4_0 (Memref.isWhole_whole _) hwx4_0 hstage4_0

abbrev win4_1 : Pipeline.Window sig grid4 :=
  Pipeline.Window.ofSpec (Memref.whole main_v42) S1000x1000.size cc4_transform_1 reads4_1 false true 1 stage4_1 sem4_1
    hrank4 hreads4_1 hinb4_1 nbuf4_1 (Memref.isWhole_whole _) hwx4_1 hstage4_1

abbrev win4_2 : Pipeline.Window sig grid4 :=
  Pipeline.Window.ofSpec (Memref.whole main_v43) S2000x1000.size cc4_transform_2 reads4_2 true false 2 stage4_2 sem4_2
    hrank4 hreads4_2 hinb4_2 nbuf4_2 (Memref.isWhole_whole _) hwx4_2 hstage4_2

abbrev win4 : Fin 3 → Pipeline.Window sig grid4 := fun | 0 => win4_0 | 1 => win4_1 | 2 => win4_2 | ⟨_ + 3, h⟩ => absurd h (Nat.not_lt.2 (Nat.le_add_left _ _))
abbrev spec4 : Fin 3 → Pipeline.WinSpec sig grid4.rank := fun w => (win4 w).toWinSpec

abbrev win5_0 : Pipeline.Window sig grid5 :=
  Pipeline.Window.ofSpec (Memref.whole main_v56) S400x1000.size cc5_transform_0 reads5_0 false false 2 stage5_0 sem5_0
    hrank5 hreads5_0 hinb5_0 nbuf5_0 (Memref.isWhole_whole _) hwx5_0 hstage5_0

abbrev win5_1 : Pipeline.Window sig grid5 :=
  Pipeline.Window.ofSpec (Memref.whole main_v40) S400x1000.size cc5_transform_1 reads5_1 false false 2 stage5_1 sem5_1
    hrank5 hreads5_1 hinb5_1 nbuf5_1 (Memref.isWhole_whole _) hwx5_1 hstage5_1

abbrev win5_2 : Pipeline.Window sig grid5 :=
  Pipeline.Window.ofSpec (Memref.whole main_v0) S1000x3000.size cc5_transform_2 reads5_2 false true 1 stage5_2 sem5_2
    hrank5 hreads5_2 hinb5_2 nbuf5_2 (Memref.isWhole_whole _) hwx5_2 hstage5_2

abbrev win5_3 : Pipeline.Window sig grid5 :=
  Pipeline.Window.ofSpec (Memref.whole main_v1) S1000x3000.size cc5_transform_3 reads5_3 false true 1 stage5_3 sem5_3
    hrank5 hreads5_3 hinb5_3 nbuf5_3 (Memref.isWhole_whole _) hwx5_3 hstage5_3

abbrev win5_4 : Pipeline.Window sig grid5 :=
  Pipeline.Window.ofSpec (Memref.whole main_v57) S1x3000.size cc5_transform_4 reads5_4 false true 1 stage5_4 sem5_4
    hrank5 hreads5_4 hinb5_4 nbuf5_4 (Memref.isWhole_whole _) hwx5_4 hstage5_4

abbrev win5_5 : Pipeline.Window sig grid5 :=
  Pipeline.Window.ofSpec (Memref.whole main_v58) S1x3000.size cc5_transform_5 reads5_5 false true 1 stage5_5 sem5_5
    hrank5 hreads5_5 hinb5_5 nbuf5_5 (Memref.isWhole_whole _) hwx5_5 hstage5_5

abbrev win5_6 : Pipeline.Window sig grid5 :=
  Pipeline.Window.ofSpec (Memref.whole main_v59) S400x1000.size cc5_transform_6 reads5_6 true false 2 stage5_6 sem5_6
    hrank5 hreads5_6 hinb5_6 nbuf5_6 (Memref.isWhole_whole _) hwx5_6 hstage5_6

abbrev win5 : Fin 7 → Pipeline.Window sig grid5 := fun | 0 => win5_0 | 1 => win5_1 | 2 => win5_2 | 3 => win5_3 | 4 => win5_4 | 5 => win5_5 | 6 => win5_6 | ⟨_ + 7, h⟩ => absurd h (Nat.not_lt.2 (Nat.le_add_left _ _))
abbrev spec5 : Fin 7 → Pipeline.WinSpec sig grid5.rank := fun w => (win5 w).toWinSpec

abbrev win6_0 : Pipeline.Window sig grid6 :=
  Pipeline.Window.ofSpec (Memref.whole main_v59) S2000x1000.size cc6_transform_0 reads6_0 false false 2 stage6_0 sem6_0
    hrank6 hreads6_0 hinb6_0 nbuf6_0 (Memref.isWhole_whole _) hwx6_0 hstage6_0

abbrev win6_1 : Pipeline.Window sig grid6 :=
  Pipeline.Window.ofSpec (Memref.whole main_v2) S1000x100.size cc6_transform_1 reads6_1 false true 1 stage6_1 sem6_1
    hrank6 hreads6_1 hinb6_1 nbuf6_1 (Memref.isWhole_whole _) hwx6_1 hstage6_1

abbrev win6_2 : Pipeline.Window sig grid6 :=
  Pipeline.Window.ofSpec (Memref.whole main_v60) S1x100.size cc6_transform_2 reads6_2 false true 1 stage6_2 sem6_2
    hrank6 hreads6_2 hinb6_2 nbuf6_2 (Memref.isWhole_whole _) hwx6_2 hstage6_2

abbrev win6_3 : Pipeline.Window sig grid6 :=
  Pipeline.Window.ofSpec (Memref.whole main_v61) S2000x100.size cc6_transform_3 reads6_3 true false 2 stage6_3 sem6_3
    hrank6 hreads6_3 hinb6_3 nbuf6_3 (Memref.isWhole_whole _) hwx6_3 hstage6_3

abbrev win6 : Fin 4 → Pipeline.Window sig grid6 := fun | 0 => win6_0 | 1 => win6_1 | 2 => win6_2 | 3 => win6_3 | ⟨_ + 4, h⟩ => absurd h (Nat.not_lt.2 (Nat.le_add_left _ _))
abbrev spec6 : Fin 4 → Pipeline.WinSpec sig grid6.rank := fun w => (win6 w).toWinSpec

class Facts : Prop extends Facts₀ where

variable [Facts]
-- ==== ReferenceIdeal.lean ====
abbrev S10000x1000 : Shape := ⟨2, ![10000, 1000]⟩
abbrev S80000 : Shape := ⟨1, ![80000]⟩
abbrev S3x1000x1000 : Shape := ⟨3, ![3, 1000, 1000]⟩
abbrev S3000x1000 : Shape := ⟨2, ![3000, 1000]⟩
abbrev S3000 : Shape := ⟨1, ![3000]⟩
abbrev S100x1000 : Shape := ⟨2, ![100, 1000]⟩
abbrev S100 : Shape := ⟨1, ![100]⟩
abbrev S10000 : Shape := ⟨1, ![10000]⟩
abbrev S1x1000x1000 : Shape := ⟨3, ![1, 1000, 1000]⟩
abbrev S1000x1000 : Shape := ⟨2, ![1000, 1000]⟩
abbrev S_ : Shape := ⟨0, ![]⟩
abbrev S80000x1 : Shape := ⟨2, ![80000, 1]⟩
abbrev S80000x1000 : Shape := ⟨2, ![80000, 1000]⟩
abbrev S1000x3000 : Shape := ⟨2, ![1000, 3000]⟩
abbrev S10000x3000 : Shape := ⟨2, ![10000, 3000]⟩
abbrev S1x3000 : Shape := ⟨2, ![1, 3000]⟩
abbrev S1000x100 : Shape := ⟨2, ![1000, 100]⟩
abbrev S10000x100 : Shape := ⟨2, ![10000, 100]⟩
abbrev S1x100 : Shape := ⟨2, ![1, 100]⟩
abbrev S16x100 : Shape := ⟨2, ![16, 100]⟩
abbrev S10000x1 : Shape := ⟨2, ![10000, 1]⟩
abbrev S16 : Shape := ⟨1, ![16]⟩
abbrev S16x1 : Shape := ⟨2, ![16, 1]⟩

abbrev nBuf : Space → Nat
  | .hbm => 227
  | .vmem => 0
  | .smem => 0
  | _ => 0

abbrev hbmTy0_0 (i : Nat) : BufTy := match i % 128 with
  | 0 => ⟨S10000x1000, .f32⟩
  | 1 => ⟨S80000, .f32⟩
  | 2 => ⟨S3x1000x1000, .f32⟩
  | 3 => ⟨S3000x1000, .f32⟩
  | 4 => ⟨S3000x1000, .f32⟩
  | 5 => ⟨S3000, .f32⟩
  | 6 => ⟨S3000, .f32⟩
  | 7 => ⟨S100x1000, .f32⟩
  | 8 => ⟨S100, .f32⟩
  | 9 => ⟨S80000, .i32⟩
  | 10 => ⟨S80000, .i32⟩
  | 11 => ⟨S10000, .i32⟩
  | 12 => ⟨S1x1000x1000, .f32⟩
  | 13 => ⟨S1000x1000, .f32⟩
  | 14 => ⟨S10000x1000, .f32⟩
  | 15 => ⟨S_, .i32⟩
  | 16 => ⟨S80000, .i32⟩
  | 17 => ⟨S80000, .i1⟩
  | 18 => ⟨S_, .i32⟩
  | 19 => ⟨S80000, .i32⟩
  | 20 => ⟨S80000, .i32⟩
  | 21 => ⟨S80000, .i32⟩
  | 22 => ⟨S80000x1, .i32⟩
  | 23 => ⟨S80000x1000, .f32⟩
  | 24 => ⟨S80000x1, .f32⟩
  | 25 => ⟨S80000x1000, .f32⟩
  | 26 => ⟨S80000x1000, .f32⟩
  | 27 => ⟨S_, .f32⟩
  | 28 => ⟨S10000x1000, .f32⟩
  | 29 => ⟨S80000x1, .i32⟩
  | 30 => ⟨S10000x1000, .f32⟩
  | 31 => ⟨S1000x3000, .f32⟩
  | 32 => ⟨S10000x3000, .f32⟩
  | 33 => ⟨S1x3000, .f32⟩
  | 34 => ⟨S10000x3000, .f32⟩
  | 35 => ⟨S10000x3000, .f32⟩
  | 36 => ⟨S1000x3000, .f32⟩
  | 37 => ⟨S10000x3000, .f32⟩
  | 38 => ⟨S1x3000, .f32⟩
  | 39 => ⟨S10000x3000, .f32⟩
  | 40 => ⟨S10000x3000, .f32⟩
  | 41 => ⟨S10000x1000, .f32⟩
  | 42 => ⟨S10000x1000, .f32⟩
  | 43 => ⟨S10000x1000, .f32⟩
  | 44 => ⟨S10000x1000, .f32⟩
  | 45 => ⟨S10000x1000, .f32⟩
  | 46 => ⟨S10000x1000, .f32⟩
  | 47 => ⟨S10000x1000, .f32⟩
  | 48 => ⟨S10000x1000, .f32⟩
  | 49 => ⟨S10000x1000, .f32⟩
  | 50 => ⟨S_, .f32⟩
  | 51 => ⟨S10000x1000, .f32⟩
  | 52 => ⟨S10000x1000, .f32⟩
  | 53 => ⟨S_, .f32⟩
  | 54 => ⟨S10000x1000, .f32⟩
  | 55 => ⟨S10000x1000, .f32⟩
  | 56 => ⟨S10000x1000, .f32⟩
  | 57 => ⟨S10000x1000, .f32⟩
  | 58 => ⟨S10000x1000, .f32⟩
  | 59 => ⟨S_, .f32⟩
  | 60 => ⟨S10000x1000, .f32⟩
  | 61 => ⟨S10000x1000, .f32⟩
  | 62 => ⟨S_, .f32⟩
  | 63 => ⟨S10000x1000, .f32⟩
  | 64 => ⟨S10000x1000, .f32⟩
  | 65 => ⟨S10000x1000, .f32⟩
  | 66 => ⟨S10000x1000, .f32⟩
  | 67 => ⟨S10000x1000, .f32⟩
  | 68 => ⟨S_, .f32⟩
  | 69 => ⟨S10000x1000, .f32⟩
  | 70 => ⟨S10000x1000, .f32⟩
  | 71 => ⟨S10000x1000, .f32⟩
  | 72 => ⟨S10000x1000, .f32⟩
  | 73 => ⟨S10000x1000, .f32⟩
  | 74 => ⟨S1x1000x1000, .f32⟩
  | 75 => ⟨S1000x1000, .f32⟩
  | 76 => ⟨S10000x1000, .f32⟩
  | 77 => ⟨S_, .i32⟩
  | 78 => ⟨S80000, .i32⟩
  | 79 => ⟨S80000, .i1⟩
  | 80 => ⟨S_, .i32⟩
  | 81 => ⟨S80000, .i32⟩
  | 82 => ⟨S80000, .i32⟩
  | 83 => ⟨S80000, .i32⟩
  | 84 => ⟨S80000x1, .i32⟩
  | 85 => ⟨S80000x1000, .f32⟩
  | 86 => ⟨S80000x1, .f32⟩
  | 87 => ⟨S80000x1000, .f32⟩
  | 88 => ⟨S80000x1000, .f32⟩
  | 89 => ⟨S_, .f32⟩
  | 90 => ⟨S10000x1000, .f32⟩
  | 91 => ⟨S80000x1, .i32⟩
  | 92 => ⟨S10000x1000, .f32⟩
  | 93 => ⟨S1000x3000, .f32⟩
  | 94 => ⟨S10000x3000, .f32⟩
  | 95 => ⟨S1x3000, .f32⟩
  | 96 => ⟨S10000x3000, .f32⟩
  | 97 => ⟨S10000x3000, .f32⟩
  | 98 => ⟨S1000x3000, .f32⟩
  | 99 => ⟨S10000x3000, .f32⟩
  | 100 => ⟨S1x3000, .f32⟩
  | 101 => ⟨S10000x3000, .f32⟩
  | 102 => ⟨S10000x3000, .f32⟩
  | 103 => ⟨S10000x1000, .f32⟩
  | 104 => ⟨S10000x1000, .f32⟩
  | 105 => ⟨S10000x1000, .f32⟩
  | 106 => ⟨S10000x1000, .f32⟩
  | 107 => ⟨S10000x1000, .f32⟩
  | 108 => ⟨S10000x1000, .f32⟩
  | 109 => ⟨S10000x1000, .f32⟩
  | 110 => ⟨S10000x1000, .f32⟩
  | 111 => ⟨S10000x1000, .f32⟩
  | 112 => ⟨S_, .f32⟩
  | 113 => ⟨S10000x1000, .f32⟩
  | 114 => ⟨S10000x1000, .f32⟩
  | 115 => ⟨S_, .f32⟩
  | 116 => ⟨S10000x1000, .f32⟩
  | 117 => ⟨S10000x1000, .f32⟩
  | 118 => ⟨S10000x1000, .f32⟩
  | 119 => ⟨S10000x1000, .f32⟩
  | 120 => ⟨S10000x1000, .f32⟩
  | 121 => ⟨S_, .f32⟩
  | 122 => ⟨S10000x1000, .f32⟩
  | 123 => ⟨S10000x1000, .f32⟩
  | 124 => ⟨S_, .f32⟩
  | 125 => ⟨S10000x1000, .f32⟩
  | 126 => ⟨S10000x1000, .f32⟩
  | 127 => ⟨S10000x1000, .f32⟩
  | _ => ⟨S10000x1000, .f32⟩

abbrev hbmTy0_1 (i : Nat) : BufTy := match i % 128 with
  | 0 => ⟨S10000x1000, .f32⟩
  | 1 => ⟨S10000x1000, .f32⟩
  | 2 => ⟨S_, .f32⟩
  | 3 => ⟨S10000x1000, .f32⟩
  | 4 => ⟨S10000x1000, .f32⟩
  | 5 => ⟨S10000x1000, .f32⟩
  | 6 => ⟨S10000x1000, .f32⟩
  | 7 => ⟨S10000x1000, .f32⟩
  | 8 => ⟨S1x1000x1000, .f32⟩
  | 9 => ⟨S1000x1000, .f32⟩
  | 10 => ⟨S10000x1000, .f32⟩
  | 11 => ⟨S_, .i32⟩
  | 12 => ⟨S80000, .i32⟩
  | 13 => ⟨S80000, .i1⟩
  | 14 => ⟨S_, .i32⟩
  | 15 => ⟨S80000, .i32⟩
  | 16 => ⟨S80000, .i32⟩
  | 17 => ⟨S80000, .i32⟩
  | 18 => ⟨S80000x1, .i32⟩
  | 19 => ⟨S80000x1000, .f32⟩
  | 20 => ⟨S80000x1, .f32⟩
  | 21 => ⟨S80000x1000, .f32⟩
  | 22 => ⟨S80000x1000, .f32⟩
  | 23 => ⟨S_, .f32⟩
  | 24 => ⟨S10000x1000, .f32⟩
  | 25 => ⟨S80000x1, .i32⟩
  | 26 => ⟨S10000x1000, .f32⟩
  | 27 => ⟨S1000x3000, .f32⟩
  | 28 => ⟨S10000x3000, .f32⟩
  | 29 => ⟨S1x3000, .f32⟩
  | 30 => ⟨S10000x3000, .f32⟩
  | 31 => ⟨S10000x3000, .f32⟩
  | 32 => ⟨S1000x3000, .f32⟩
  | 33 => ⟨S10000x3000, .f32⟩
  | 34 => ⟨S1x3000, .f32⟩
  | 35 => ⟨S10000x3000, .f32⟩
  | 36 => ⟨S10000x3000, .f32⟩
  | 37 => ⟨S10000x1000, .f32⟩
  | 38 => ⟨S10000x1000, .f32⟩
  | 39 => ⟨S10000x1000, .f32⟩
  | 40 => ⟨S10000x1000, .f32⟩
  | 41 => ⟨S10000x1000, .f32⟩
  | 42 => ⟨S10000x1000, .f32⟩
  | 43 => ⟨S10000x1000, .f32⟩
  | 44 => ⟨S10000x1000, .f32⟩
  | 45 => ⟨S10000x1000, .f32⟩
  | 46 => ⟨S_, .f32⟩
  | 47 => ⟨S10000x1000, .f32⟩
  | 48 => ⟨S10000x1000, .f32⟩
  | 49 => ⟨S_, .f32⟩
  | 50 => ⟨S10000x1000, .f32⟩
  | 51 => ⟨S10000x1000, .f32⟩
  | 52 => ⟨S10000x1000, .f32⟩
  | 53 => ⟨S10000x1000, .f32⟩
  | 54 => ⟨S10000x1000, .f32⟩
  | 55 => ⟨S_, .f32⟩
  | 56 => ⟨S10000x1000, .f32⟩
  | 57 => ⟨S10000x1000, .f32⟩
  | 58 => ⟨S_, .f32⟩
  | 59 => ⟨S10000x1000, .f32⟩
  | 60 => ⟨S10000x1000, .f32⟩
  | 61 => ⟨S10000x1000, .f32⟩
  | 62 => ⟨S10000x1000, .f32⟩
  | 63 => ⟨S10000x1000, .f32⟩
  | 64 => ⟨S_, .f32⟩
  | 65 => ⟨S10000x1000, .f32⟩
  | 66 => ⟨S10000x1000, .f32⟩
  | 67 => ⟨S10000x1000, .f32⟩
  | 68 => ⟨S10000x1000, .f32⟩
  | 69 => ⟨S10000x1000, .f32⟩
  | 70 => ⟨S_, .f32⟩
  | 71 => ⟨S10000x1000, .f32⟩
  | 72 => ⟨S10000x1000, .f32⟩
  | 73 => ⟨S1000x100, .f32⟩
  | 74 => ⟨S10000x100, .f32⟩
  | 75 => ⟨S1x100, .f32⟩
  | 76 => ⟨S10000x100, .f32⟩
  | 77 => ⟨S10000x100, .f32⟩
  | 78 => ⟨S_, .f32⟩
  | 79 => ⟨S16x100, .f32⟩
  | 80 => ⟨S10000x1, .i32⟩
  | 81 => ⟨S16x100, .f32⟩
  | 82 => ⟨S_, .f32⟩
  | 83 => ⟨S10000, .f32⟩
  | 84 => ⟨S_, .f32⟩
  | 85 => ⟨S16, .f32⟩
  | 86 => ⟨S10000x1, .i32⟩
  | 87 => ⟨S16, .f32⟩
  | 88 => ⟨S_, .f32⟩
  | 89 => ⟨S16, .f32⟩
  | 90 => ⟨S16, .f32⟩
  | 91 => ⟨S16x1, .f32⟩
  | 92 => ⟨S16x100, .f32⟩
  | 93 => ⟨S16x100, .f32⟩
  | 94 => ⟨S_, .f32⟩
  | 95 => ⟨S16, .f32⟩
  | 96 => ⟨S_, .f32⟩
  | 97 => ⟨S16, .f32⟩
  | 98 => ⟨S16, .f32⟩
  | _ => ⟨S10000x1000, .f32⟩

abbrev hbmTy (i : Nat) : BufTy := match i / 128 with
  | 0 => hbmTy0_0 i
  | 1 => hbmTy0_1 i
  | _ => ⟨S10000x1000, .f32⟩

abbrev bufTy : (tb : Table) → Fin (tcTables nBuf tb) → BufTy
  | .hbm, ⟨i, _⟩ => hbmTy i
  | _, _ => ⟨S10000x1000, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_v0 : Ref sig .tc := ⟨.hbm, 12, rfl⟩
abbrev main_v1 : Ref sig .tc := ⟨.hbm, 13, rfl⟩
abbrev main_v2 : Ref sig .tc := ⟨.hbm, 14, rfl⟩
abbrev main_c : Ref sig .tc := ⟨.hbm, 15, rfl⟩
abbrev main_v3 : Ref sig .tc := ⟨.hbm, 16, rfl⟩
abbrev main_v4 : Ref sig .tc := ⟨.hbm, 17, rfl⟩
abbrev main_c_0 : Ref sig .tc := ⟨.hbm, 18, rfl⟩
abbrev main_v5 : Ref sig .tc := ⟨.hbm, 19, rfl⟩
abbrev main_v6 : Ref sig .tc := ⟨.hbm, 20, rfl⟩
abbrev main_v7 : Ref sig .tc := ⟨.hbm, 21, rfl⟩
abbrev main_v8 : Ref sig .tc := ⟨.hbm, 22, rfl⟩
abbrev main_v9 : Ref sig .tc := ⟨.hbm, 23, rfl⟩
abbrev main_v10 : Ref sig .tc := ⟨.hbm, 24, rfl⟩
abbrev main_v11 : Ref sig .tc := ⟨.hbm, 25, rfl⟩
abbrev main_v12 : Ref sig .tc := ⟨.hbm, 26, rfl⟩
abbrev main_cst : Ref sig .tc := ⟨.hbm, 27, rfl⟩
abbrev main_v13 : Ref sig .tc := ⟨.hbm, 28, rfl⟩
abbrev main_v14 : Ref sig .tc := ⟨.hbm, 29, rfl⟩
abbrev main_v15 : Ref sig .tc := ⟨.hbm, 30, rfl⟩
abbrev main_v16 : Ref sig .tc := ⟨.hbm, 31, rfl⟩
abbrev main_v17 : Ref sig .tc := ⟨.hbm, 32, rfl⟩
abbrev main_v18 : Ref sig .tc := ⟨.hbm, 33, rfl⟩
abbrev main_v19 : Ref sig .tc := ⟨.hbm, 34, rfl⟩
abbrev main_v20 : Ref sig .tc := ⟨.hbm, 35, rfl⟩
abbrev main_v21 : Ref sig .tc := ⟨.hbm, 36, rfl⟩
abbrev main_v22 : Ref sig .tc := ⟨.hbm, 37, rfl⟩
abbrev main_v23 : Ref sig .tc := ⟨.hbm, 38, rfl⟩
abbrev main_v24 : Ref sig .tc := ⟨.hbm, 39, rfl⟩
abbrev main_v25 : Ref sig .tc := ⟨.hbm, 40, rfl⟩
abbrev main_v26 : Ref sig .tc := ⟨.hbm, 41, rfl⟩
abbrev main_v27 : Ref sig .tc := ⟨.hbm, 42, rfl⟩
abbrev main_v28 : Ref sig .tc := ⟨.hbm, 43, rfl⟩
abbrev main_v29 : Ref sig .tc := ⟨.hbm, 44, rfl⟩
abbrev main_v30 : Ref sig .tc := ⟨.hbm, 45, rfl⟩
abbrev main_v31 : Ref sig .tc := ⟨.hbm, 46, rfl⟩
abbrev main_v32 : Ref sig .tc := ⟨.hbm, 47, rfl⟩
abbrev main_v33 : Ref sig .tc := ⟨.hbm, 48, rfl⟩
abbrev main_v34 : Ref sig .tc := ⟨.hbm, 49, rfl⟩
abbrev main_cst_1 : Ref sig .tc := ⟨.hbm, 50, rfl⟩
abbrev main_v35 : Ref sig .tc := ⟨.hbm, 51, rfl⟩
abbrev main_v36 : Ref sig .tc := ⟨.hbm, 52, rfl⟩
abbrev main_cst_2 : Ref sig .tc := ⟨.hbm, 53, rfl⟩
abbrev main_v37 : Ref sig .tc := ⟨.hbm, 54, rfl⟩
abbrev main_v38 : Ref sig .tc := ⟨.hbm, 55, rfl⟩
abbrev main_v39 : Ref sig .tc := ⟨.hbm, 56, rfl⟩
abbrev main_v40 : Ref sig .tc := ⟨.hbm, 57, rfl⟩
abbrev main_v41 : Ref sig .tc := ⟨.hbm, 58, rfl⟩
abbrev main_cst_3 : Ref sig .tc := ⟨.hbm, 59, rfl⟩
abbrev main_v42 : Ref sig .tc := ⟨.hbm, 60, rfl⟩
abbrev main_v43 : Ref sig .tc := ⟨.hbm, 61, rfl⟩
abbrev main_cst_4 : Ref sig .tc := ⟨.hbm, 62, rfl⟩
abbrev main_v44 : Ref sig .tc := ⟨.hbm, 63, rfl⟩
abbrev main_v45 : Ref sig .tc := ⟨.hbm, 64, rfl⟩
abbrev main_v46 : Ref sig .tc := ⟨.hbm, 65, rfl⟩
abbrev main_v47 : Ref sig .tc := ⟨.hbm, 66, rfl⟩
abbrev main_v48 : Ref sig .tc := ⟨.hbm, 67, rfl⟩
abbrev main_cst_5 : Ref sig .tc := ⟨.hbm, 68, rfl⟩
abbrev main_v49 : Ref sig .tc := ⟨.hbm, 69, rfl⟩
abbrev main_v50 : Ref sig .tc := ⟨.hbm, 70, rfl⟩
abbrev main_v51 : Ref sig .tc := ⟨.hbm, 71, rfl⟩
abbrev main_v52 : Ref sig .tc := ⟨.hbm, 72, rfl⟩
abbrev main_v53 : Ref sig .tc := ⟨.hbm, 73, rfl⟩
abbrev main_v54 : Ref sig .tc := ⟨.hbm, 74, rfl⟩
abbrev main_v55 : Ref sig .tc := ⟨.hbm, 75, rfl⟩
abbrev main_v56 : Ref sig .tc := ⟨.hbm, 76, rfl⟩
abbrev main_c_6 : Ref sig .tc := ⟨.hbm, 77, rfl⟩
abbrev main_v57 : Ref sig .tc := ⟨.hbm, 78, rfl⟩
abbrev main_v58 : Ref sig .tc := ⟨.hbm, 79, rfl⟩
abbrev main_c_7 : Ref sig .tc := ⟨.hbm, 80, rfl⟩
abbrev main_v59 : Ref sig .tc := ⟨.hbm, 81, rfl⟩
abbrev main_v60 : Ref sig .tc := ⟨.hbm, 82, rfl⟩
abbrev main_v61 : Ref sig .tc := ⟨.hbm, 83, rfl⟩
abbrev main_v62 : Ref sig .tc := ⟨.hbm, 84, rfl⟩
abbrev main_v63 : Ref sig .tc := ⟨.hbm, 85, rfl⟩
abbrev main_v64 : Ref sig .tc := ⟨.hbm, 86, rfl⟩
abbrev main_v65 : Ref sig .tc := ⟨.hbm, 87, rfl⟩
abbrev main_v66 : Ref sig .tc := ⟨.hbm, 88, rfl⟩
abbrev main_cst_8 : Ref sig .tc := ⟨.hbm, 89, rfl⟩
abbrev main_v67 : Ref sig .tc := ⟨.hbm, 90, rfl⟩
abbrev main_v68 : Ref sig .tc := ⟨.hbm, 91, rfl⟩
abbrev main_v69 : Ref sig .tc := ⟨.hbm, 92, rfl⟩
abbrev main_v70 : Ref sig .tc := ⟨.hbm, 93, rfl⟩
abbrev main_v71 : Ref sig .tc := ⟨.hbm, 94, rfl⟩
abbrev main_v72 : Ref sig .tc := ⟨.hbm, 95, rfl⟩
abbrev main_v73 : Ref sig .tc := ⟨.hbm, 96, rfl⟩
abbrev main_v74 : Ref sig .tc := ⟨.hbm, 97, rfl⟩
abbrev main_v75 : Ref sig .tc := ⟨.hbm, 98, rfl⟩
abbrev main_v76 : Ref sig .tc := ⟨.hbm, 99, rfl⟩
abbrev main_v77 : Ref sig .tc := ⟨.hbm, 100, rfl⟩
abbrev main_v78 : Ref sig .tc := ⟨.hbm, 101, rfl⟩
abbrev main_v79 : Ref sig .tc := ⟨.hbm, 102, rfl⟩
abbrev main_v80 : Ref sig .tc := ⟨.hbm, 103, rfl⟩
abbrev main_v81 : Ref sig .tc := ⟨.hbm, 104, rfl⟩
abbrev main_v82 : Ref sig .tc := ⟨.hbm, 105, rfl⟩
abbrev main_v83 : Ref sig .tc := ⟨.hbm, 106, rfl⟩
abbrev main_v84 : Ref sig .tc := ⟨.hbm, 107, rfl⟩
abbrev main_v85 : Ref sig .tc := ⟨.hbm, 108, rfl⟩
abbrev main_v86 : Ref sig .tc := ⟨.hbm, 109, rfl⟩
abbrev main_v87 : Ref sig .tc := ⟨.hbm, 110, rfl⟩
abbrev main_v88 : Ref sig .tc := ⟨.hbm, 111, rfl⟩
abbrev main_cst_9 : Ref sig .tc := ⟨.hbm, 112, rfl⟩
abbrev main_v89 : Ref sig .tc := ⟨.hbm, 113, rfl⟩
abbrev main_v90 : Ref sig .tc := ⟨.hbm, 114, rfl⟩
abbrev main_cst_10 : Ref sig .tc := ⟨.hbm, 115, rfl⟩
abbrev main_v91 : Ref sig .tc := ⟨.hbm, 116, rfl⟩
abbrev main_v92 : Ref sig .tc := ⟨.hbm, 117, rfl⟩
abbrev main_v93 : Ref sig .tc := ⟨.hbm, 118, rfl⟩
abbrev main_v94 : Ref sig .tc := ⟨.hbm, 119, rfl⟩
abbrev main_v95 : Ref sig .tc := ⟨.hbm, 120, rfl⟩
abbrev main_cst_11 : Ref sig .tc := ⟨.hbm, 121, rfl⟩
abbrev main_v96 : Ref sig .tc := ⟨.hbm, 122, rfl⟩
abbrev main_v97 : Ref sig .tc := ⟨.hbm, 123, rfl⟩
abbrev main_cst_12 : Ref sig .tc := ⟨.hbm, 124, rfl⟩
abbrev main_v98 : Ref sig .tc := ⟨.hbm, 125, rfl⟩
abbrev main_v99 : Ref sig .tc := ⟨.hbm, 126, rfl⟩
abbrev main_v100 : Ref sig .tc := ⟨.hbm, 127, rfl⟩
abbrev main_v101 : Ref sig .tc := ⟨.hbm, 128, rfl⟩
abbrev main_v102 : Ref sig .tc := ⟨.hbm, 129, rfl⟩
abbrev main_cst_13 : Ref sig .tc := ⟨.hbm, 130, rfl⟩
abbrev main_v103 : Ref sig .tc := ⟨.hbm, 131, rfl⟩
abbrev main_v104 : Ref sig .tc := ⟨.hbm, 132, rfl⟩
abbrev main_v105 : Ref sig .tc := ⟨.hbm, 133, rfl⟩
abbrev main_v106 : Ref sig .tc := ⟨.hbm, 134, rfl⟩
abbrev main_v107 : Ref sig .tc := ⟨.hbm, 135, rfl⟩
abbrev main_v108 : Ref sig .tc := ⟨.hbm, 136, rfl⟩
abbrev main_v109 : Ref sig .tc := ⟨.hbm, 137, rfl⟩
abbrev main_v110 : Ref sig .tc := ⟨.hbm, 138, rfl⟩
abbrev main_c_14 : Ref sig .tc := ⟨.hbm, 139, rfl⟩
abbrev main_v111 : Ref sig .tc := ⟨.hbm, 140, rfl⟩
abbrev main_v112 : Ref sig .tc := ⟨.hbm, 141, rfl⟩
abbrev main_c_15 : Ref sig .tc := ⟨.hbm, 142, rfl⟩
abbrev main_v113 : Ref sig .tc := ⟨.hbm, 143, rfl⟩
abbrev main_v114 : Ref sig .tc := ⟨.hbm, 144, rfl⟩
abbrev main_v115 : Ref sig .tc := ⟨.hbm, 145, rfl⟩
abbrev main_v116 : Ref sig .tc := ⟨.hbm, 146, rfl⟩
abbrev main_v117 : Ref sig .tc := ⟨.hbm, 147, rfl⟩
abbrev main_v118 : Ref sig .tc := ⟨.hbm, 148, rfl⟩
abbrev main_v119 : Ref sig .tc := ⟨.hbm, 149, rfl⟩
abbrev main_v120 : Ref sig .tc := ⟨.hbm, 150, rfl⟩
abbrev main_cst_16 : Ref sig .tc := ⟨.hbm, 151, rfl⟩
abbrev main_v121 : Ref sig .tc := ⟨.hbm, 152, rfl⟩
abbrev main_v122 : Ref sig .tc := ⟨.hbm, 153, rfl⟩
abbrev main_v123 : Ref sig .tc := ⟨.hbm, 154, rfl⟩
abbrev main_v124 : Ref sig .tc := ⟨.hbm, 155, rfl⟩
abbrev main_v125 : Ref sig .tc := ⟨.hbm, 156, rfl⟩
abbrev main_v126 : Ref sig .tc := ⟨.hbm, 157, rfl⟩
abbrev main_v127 : Ref sig .tc := ⟨.hbm, 158, rfl⟩
abbrev main_v128 : Ref sig .tc := ⟨.hbm, 159, rfl⟩
abbrev main_v129 : Ref sig .tc := ⟨.hbm, 160, rfl⟩
abbrev main_v130 : Ref sig .tc := ⟨.hbm, 161, rfl⟩
abbrev main_v131 : Ref sig .tc := ⟨.hbm, 162, rfl⟩
abbrev main_v132 : Ref sig .tc := ⟨.hbm, 163, rfl⟩
abbrev main_v133 : Ref sig .tc := ⟨.hbm, 164, rfl⟩
abbrev main_v134 : Ref sig .tc := ⟨.hbm, 165, rfl⟩
abbrev main_v135 : Ref sig .tc := ⟨.hbm, 166, rfl⟩
abbrev main_v136 : Ref sig .tc := ⟨.hbm, 167, rfl⟩
abbrev main_v137 : Ref sig .tc := ⟨.hbm, 168, rfl⟩
abbrev main_v138 : Ref sig .tc := ⟨.hbm, 169, rfl⟩
abbrev main_v139 : Ref sig .tc := ⟨.hbm, 170, rfl⟩
abbrev main_v140 : Ref sig .tc := ⟨.hbm, 171, rfl⟩
abbrev main_v141 : Ref sig .tc := ⟨.hbm, 172, rfl⟩
abbrev main_v142 : Ref sig .tc := ⟨.hbm, 173, rfl⟩
abbrev main_cst_17 : Ref sig .tc := ⟨.hbm, 174, rfl⟩
abbrev main_v143 : Ref sig .tc := ⟨.hbm, 175, rfl⟩
abbrev main_v144 : Ref sig .tc := ⟨.hbm, 176, rfl⟩
abbrev main_cst_18 : Ref sig .tc := ⟨.hbm, 177, rfl⟩
abbrev main_v145 : Ref sig .tc := ⟨.hbm, 178, rfl⟩
abbrev main_v146 : Ref sig .tc := ⟨.hbm, 179, rfl⟩
abbrev main_v147 : Ref sig .tc := ⟨.hbm, 180, rfl⟩
abbrev main_v148 : Ref sig .tc := ⟨.hbm, 181, rfl⟩
abbrev main_v149 : Ref sig .tc := ⟨.hbm, 182, rfl⟩
abbrev main_cst_19 : Ref sig .tc := ⟨.hbm, 183, rfl⟩
abbrev main_v150 : Ref sig .tc := ⟨.hbm, 184, rfl⟩
abbrev main_v151 : Ref sig .tc := ⟨.hbm, 185, rfl⟩
abbrev main_cst_20 : Ref sig .tc := ⟨.hbm, 186, rfl⟩
abbrev main_v152 : Ref sig .tc := ⟨.hbm, 187, rfl⟩
abbrev main_v153 : Ref sig .tc := ⟨.hbm, 188, rfl⟩
abbrev main_v154 : Ref sig .tc := ⟨.hbm, 189, rfl⟩
abbrev main_v155 : Ref sig .tc := ⟨.hbm, 190, rfl⟩
abbrev main_v156 : Ref sig .tc := ⟨.hbm, 191, rfl⟩
abbrev main_cst_21 : Ref sig .tc := ⟨.hbm, 192, rfl⟩
abbrev main_v157 : Ref sig .tc := ⟨.hbm, 193, rfl⟩
abbrev main_v158 : Ref sig .tc := ⟨.hbm, 194, rfl⟩
abbrev main_v159 : Ref sig .tc := ⟨.hbm, 195, rfl⟩
abbrev main_v160 : Ref sig .tc := ⟨.hbm, 196, rfl⟩
abbrev main_v161 : Ref sig .tc := ⟨.hbm, 197, rfl⟩
abbrev main_call0_cst : Ref sig .tc := ⟨.hbm, 198, rfl⟩
abbrev main_call0_v0 : Ref sig .tc := ⟨.hbm, 199, rfl⟩
abbrev main_v162 : Ref sig .tc := ⟨.hbm, 200, rfl⟩
abbrev main_v163 : Ref sig .tc := ⟨.hbm, 201, rfl⟩
abbrev main_v164 : Ref sig .tc := ⟨.hbm, 202, rfl⟩
abbrev main_v165 : Ref sig .tc := ⟨.hbm, 203, rfl⟩
abbrev main_v166 : Ref sig .tc := ⟨.hbm, 204, rfl⟩
abbrev main_v167 : Ref sig .tc := ⟨.hbm, 205, rfl⟩
abbrev main_cst_22 : Ref sig .tc := ⟨.hbm, 206, rfl⟩
abbrev main_v168 : Ref sig .tc := ⟨.hbm, 207, rfl⟩
abbrev main_v169 : Ref sig .tc := ⟨.hbm, 208, rfl⟩
abbrev main_v170 : Ref sig .tc := ⟨.hbm, 209, rfl⟩
abbrev main_cst_23 : Ref sig .tc := ⟨.hbm, 210, rfl⟩
abbrev main_v171 : Ref sig .tc := ⟨.hbm, 211, rfl⟩
abbrev main_cst_24 : Ref sig .tc := ⟨.hbm, 212, rfl⟩
abbrev main_v172 : Ref sig .tc := ⟨.hbm, 213, rfl⟩
abbrev main_v173 : Ref sig .tc := ⟨.hbm, 214, rfl⟩
abbrev main_v174 : Ref sig .tc := ⟨.hbm, 215, rfl⟩
abbrev main_cst_25 : Ref sig .tc := ⟨.hbm, 216, rfl⟩
abbrev main_v175 : Ref sig .tc := ⟨.hbm, 217, rfl⟩
abbrev main_v176 : Ref sig .tc := ⟨.hbm, 218, rfl⟩
abbrev main_v177 : Ref sig .tc := ⟨.hbm, 219, rfl⟩
abbrev main_v178 : Ref sig .tc := ⟨.hbm, 220, rfl⟩
abbrev main_v179 : Ref sig .tc := ⟨.hbm, 221, rfl⟩
abbrev main_cst_26 : Ref sig .tc := ⟨.hbm, 222, rfl⟩
abbrev main_v180 : Ref sig .tc := ⟨.hbm, 223, rfl⟩
abbrev main_cst_27 : Ref sig .tc := ⟨.hbm, 224, rfl⟩
abbrev main_v181 : Ref sig .tc := ⟨.hbm, 225, rfl⟩
abbrev main_v182 : Ref sig .tc := ⟨.hbm, 226, rfl⟩

abbrev nD : Nat := 1
abbrev τ : Topo := Topo.v7x

variable {F : FTy → Type} [FloatOps F]

class Facts₀ : Prop where
  slices_S3x1000x1000_S1x1000x1000_0_0_0 : S3x1000x1000.Slices ![0, 0, 0] S1x1000x1000
  shapeCasts_S1x1000x1000_S1000x1000 : S1x1000x1000.ShapeCasts S1000x1000
  bcast_S_S80000 : S_.BroadcastsInDim S80000 (![] : Fin 0 → Fin S80000.rank)
  bcast_S80000_S80000x1_0 : S80000.BroadcastsInDim S80000x1 (![0] : Fin 1 → Fin S80000x1.rank)
  bcast_S80000x1_S80000x1000_0_1 : S80000x1.BroadcastsInDim S80000x1000 (![0, 1] : Fin 2 → Fin S80000x1000.rank)
  bcast_S_S10000x1000 : S_.BroadcastsInDim S10000x1000 (![] : Fin 0 → Fin S10000x1000.rank)
  transposes_S3000x1000_S1000x3000_1_0 : S3000x1000.Transposes [1, 0] S1000x3000
  bcast_S3000_S1x3000_1 : S3000.BroadcastsInDim S1x3000 (![1] : Fin 1 → Fin S1x3000.rank)
  bcast_S1x3000_S10000x3000_0_1 : S1x3000.BroadcastsInDim S10000x3000 (![0, 1] : Fin 2 → Fin S10000x3000.rank)
  slices_S10000x3000_S10000x1000_0_0 : S10000x3000.Slices ![0, 0] S10000x1000
  slices_S10000x3000_S10000x1000_0_1000 : S10000x3000.Slices ![0, 1000] S10000x1000
  slices_S10000x3000_S10000x1000_0_2000 : S10000x3000.Slices ![0, 2000] S10000x1000
  slices_S3x1000x1000_S1x1000x1000_1_0_0 : S3x1000x1000.Slices ![1, 0, 0] S1x1000x1000
  slices_S3x1000x1000_S1x1000x1000_2_0_0 : S3x1000x1000.Slices ![2, 0, 0] S1x1000x1000
  transposes_S100x1000_S1000x100_1_0 : S100x1000.Transposes [1, 0] S1000x100
  bcast_S100_S1x100_1 : S100.BroadcastsInDim S1x100 (![1] : Fin 1 → Fin S1x100.rank)
  bcast_S1x100_S10000x100_0_1 : S1x100.BroadcastsInDim S10000x100 (![0, 1] : Fin 2 → Fin S10000x100.rank)
  bcast_S_S16x100 : S_.BroadcastsInDim S16x100 (![] : Fin 0 → Fin S16x100.rank)
  bcast_S10000_S10000x1_0 : S10000.BroadcastsInDim S10000x1 (![0] : Fin 1 → Fin S10000x1.rank)
  bcast_S_S10000 : S_.BroadcastsInDim S10000 (![] : Fin 0 → Fin S10000.rank)
  bcast_S_S16 : S_.BroadcastsInDim S16 (![] : Fin 0 → Fin S16.rank)
  bcast_S16_S16x1_0 : S16.BroadcastsInDim S16x1 (![0] : Fin 1 → Fin S16x1.rank)
  bcast_S16x1_S16x100_0_1 : S16x1.BroadcastsInDim S16x100 (![0, 1] : Fin 2 → Fin S16x100.rank)
  reducesTo_S16x100_S16_d1 : S16x100.ReducesTo [1] S16
  h_S_ : 0 < S_.numel
  dot_S10000x1000_S1000x1000_S10000x1000_1_0_0_1_n_n_wf : DotDims.WF S10000x1000 S1000x1000 S10000x1000 [1] [0] [0] [1] [] []
  gather_S10000x1000_S80000x1_S80000x1000_1_0_n_n_0_1_11000_wf : GatherDims.WF S10000x1000 S80000x1 S80000x1000 [1] [0] [] [0] [] 1 ![1, 1000]
  scatter_S10000x1000_S80000x1_S80000x1000_1_0_0_1_wf : ScatterDims.WF S10000x1000 S80000x1 S80000x1000 [1] [0] [0] 1
  dot_S10000x1000_S1000x3000_S10000x3000_1_0_0_1_n_n_wf : DotDims.WF S10000x1000 S1000x3000 S10000x3000 [1] [0] [0] [1] [] []
  dot_S10000x1000_S1000x100_S10000x100_1_0_0_1_n_n_wf : DotDims.WF S10000x1000 S1000x100 S10000x100 [1] [0] [0] [1] [] []
  scatter_S16x100_S10000x1_S10000x100_1_0_0_1_wf : ScatterDims.WF S16x100 S10000x1 S10000x100 [1] [0] [0] 1
  scatter_S16_S10000x1_S10000_n_0_0_1_wf : ScatterDims.WF S16 S10000x1 S10000 [] [0] [0] 1

variable [Facts₀]

def dot_S10000x1000_S1000x1000_S10000x1000_1_0_0_1_n_n : DotDims S10000x1000 S1000x1000 S10000x1000 where
  lhsContracting := [1]
  rhsContracting := [0]
  lhsNonContracting := [0]
  rhsNonContracting := [1]
  lhsBatch := []
  rhsBatch := []
  wf := dot_S10000x1000_S1000x1000_S10000x1000_1_0_0_1_n_n_wf
def gather_S10000x1000_S80000x1_S80000x1000_1_0_n_n_0_1_11000 : GatherDims S10000x1000 S80000x1 S80000x1000 where
  offsetDims := [1]
  collapsedSliceDims := [0]
  operandBatchingDims := []
  startIndicesBatchingDims := []
  startIndexMap := [0]
  indexVectorDim := 1
  sliceSizes := ![1, 1000]
  wf := gather_S10000x1000_S80000x1_S80000x1000_1_0_n_n_0_1_11000_wf
def scatter_S10000x1000_S80000x1_S80000x1000_1_0_0_1 : ScatterDims S10000x1000 S80000x1 S80000x1000 where
  updateWindowDims := [1]
  insertedWindowDims := [0]
  scatterDimsToOperandDims := [0]
  indexVectorDim := 1
  wf := scatter_S10000x1000_S80000x1_S80000x1000_1_0_0_1_wf
def dot_S10000x1000_S1000x3000_S10000x3000_1_0_0_1_n_n : DotDims S10000x1000 S1000x3000 S10000x3000 where
  lhsContracting := [1]
  rhsContracting := [0]
  lhsNonContracting := [0]
  rhsNonContracting := [1]
  lhsBatch := []
  rhsBatch := []
  wf := dot_S10000x1000_S1000x3000_S10000x3000_1_0_0_1_n_n_wf
def dot_S10000x1000_S1000x100_S10000x100_1_0_0_1_n_n : DotDims S10000x1000 S1000x100 S10000x100 where
  lhsContracting := [1]
  rhsContracting := [0]
  lhsNonContracting := [0]
  rhsNonContracting := [1]
  lhsBatch := []
  rhsBatch := []
  wf := dot_S10000x1000_S1000x100_S10000x100_1_0_0_1_n_n_wf
def scatter_S16x100_S10000x1_S10000x100_1_0_0_1 : ScatterDims S16x100 S10000x1 S10000x100 where
  updateWindowDims := [1]
  insertedWindowDims := [0]
  scatterDimsToOperandDims := [0]
  indexVectorDim := 1
  wf := scatter_S16x100_S10000x1_S10000x100_1_0_0_1_wf
def scatter_S16_S10000x1_S10000_n_0_0_1 : ScatterDims S16 S10000x1 S10000 where
  updateWindowDims := []
  insertedWindowDims := [0]
  scatterDimsToOperandDims := [0]
  indexVectorDim := 1
  wf := scatter_S16_S10000x1_S10000_n_0_0_1_wf

class Facts : Prop extends Facts₀ where

variable [Facts]
-- ==== Proof.KRun.lean ====
/-
  The kernel program's run with its result named.

  The program is seven kernel launches among stretches of host operations.  Its run is the chain of
  its segments: every weakly fair execution ends, nothing faults, and at the end every buffer of the
  device holds what the fold of the segments leaves there — a host stretch applies its operations, a
  launch leaves each of its arrays at what its write-backs leave.  Read at the result buffer this
  names the result; read at an argument it is the argument as launched.
-/
import proofs.«128269_j111669150311_1_alg».proof.Proof.Gen.KernelIdeal.Frame

set_option maxRecDepth 16384

noncomputable section

namespace Cert.KernelIdeal.KRun

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

-- the launch theorem's implicit arguments are found by unifying its conclusion with this one, which takes unfolding
-- plain definitions in a metavariable's type
set_option backward.isDefEq.respectTransparency.types false in
/-- Every weakly fair execution of the program ends, nothing faulting, with the result buffer at what the fold of
    the segments leaves there and the arguments as launched. -/
theorem run_result : θ_run defs (onTc (τ := τ) (main (F := F))) ⟨m, fun _ => 0, ρ⟩ (fun r => ∀ c : Dev nD,
      r.2.mem ((c.tc : Thread nD τ).loc main_v76) = W15 m ρ c (Proc.devRef .tc main_v76)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun c => by
      dsimp only [Pipeline.Seg.post, hseg, Pipeline.HostSeg.ofOps]
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W15 m ρ c b)
    (hfin := fun c s' => by
      iintro ⟨⟨Hh, -⟩, HSI⟩
      unfold StableHlo.held
      imodintro
      iapply (pointsTo_read_all (Pipeline.ucRefs τ sig) (fun b => (((c : Thread nD τ)).1, b)) (W15 m ρ c) s')
      isplitl [Hh] <;> iassumption)
    (hQ := fun s h c =>
      ⟨h c _ (mem_uc main_v76 (by decide)),
       (h c _ (mem_uc main_arg0 (by decide))).trans (W15_main_arg0 m ρ c),
       (h c _ (mem_uc main_arg1 (by decide))).trans (W15_main_arg1 m ρ c),
       (h c _ (mem_uc main_arg2 (by decide))).trans (W15_main_arg2 m ρ c),
       (h c _ (mem_uc main_arg3 (by decide))).trans (W15_main_arg3 m ρ c),
       (h c _ (mem_uc main_arg4 (by decide))).trans (W15_main_arg4 m ρ c),
       (h c _ (mem_uc main_arg5 (by decide))).trans (W15_main_arg5 m ρ c),
       (h c _ (mem_uc main_arg6 (by decide))).trans (W15_main_arg6 m ρ c),
       (h c _ (mem_uc main_arg7 (by decide))).trans (W15_main_arg7 m ρ c),
       (h c _ (mem_uc main_arg8 (by decide))).trans (W15_main_arg8 m ρ c),
       (h c _ (mem_uc main_arg9 (by decide))).trans (W15_main_arg9 m ρ c),
       (h c _ (mem_uc main_arg10 (by decide))).trans (W15_main_arg10 m ρ c),
       (h c _ (mem_uc main_arg11 (by decide))).trans (W15_main_arg11 m ρ c)⟩)

end Cert.KernelIdeal.KRun

end
-- ==== Proof.LibPlainDot.lean ====
/-
  A plain matrix product read at an index.

  For the dimension numbers of an `M×K` by `K×N` product (`DotDims.plain`: the left operand contracted on its second
  axis, the right one on its first, no batch axis), the sum over the contraction index of the operands' products at
  result index `(i, j)` is `Σ_k l[i,k]·r[k,j]` over `k : Fin K`. Stated for the sum itself, so that it serves a
  kernel's matrix product into a zero accumulator and a host's `dot_general` alike.
-/
import Idealize.ShloMosaic.PureOps.Ideal
import Idealize.ShloMosaic.PureOps.Ideal.Laws
import Idealize.ShloMosaic.Lib.ValueIdx

noncomputable section

namespace Cert.Lib

open Idealize.ShloMosaic Idealize.ShloMosaic.ValueIdx

/-- The contraction shape of a plain product has one axis. -/
theorem plain_contr_rank (M K N : Nat) : (DotDims.plain M K N).contr.rank = 1 := rfl

/-- The left operand's index at result `(i, j)` and contraction position `k` is `(i, k)`. -/
theorem plain_lhsIdx (M K N : Nat) (i : Fin M) (j : Fin N) (k : Fin K) :
    (DotDims.plain M K N).lhsIdx (ix2 i j) ((contrEquiv1 (DotDims.plain M K N) K rfl rfl).symm k) = ix2 i k := by
  funext a
  refine Fin.ext ?_
  match a with
  | ⟨0, _⟩ => rfl
  | ⟨1, _⟩ =>
    show (((contrEquiv1 (DotDims.plain M K N) K rfl rfl).symm k) ⟨0, (Nat.one_pos : 0 < 1)⟩ : ℕ) = k.val
    exact contrEquiv1_symm_val (DotDims.plain M K N) K rfl rfl k

/-- The right operand's index at result `(i, j)` and contraction position `k` is `(k, j)`. -/
theorem plain_rhsIdx (M K N : Nat) (i : Fin M) (j : Fin N) (k : Fin K) :
    (DotDims.plain M K N).rhsIdx (ix2 i j) ((contrEquiv1 (DotDims.plain M K N) K rfl rfl).symm k) = ix2 k j := by
  funext a
  refine Fin.ext ?_
  match a with
  | ⟨0, _⟩ =>
    show (((contrEquiv1 (DotDims.plain M K N) K rfl rfl).symm k) ⟨0, (Nat.one_pos : 0 < 1)⟩ : ℕ) = k.val
    exact contrEquiv1_symm_val (DotDims.plain M K N) K rfl rfl k
  | ⟨1, _⟩ => rfl

/-- THE PLAIN PRODUCT'S SUM at `(i, j)`: over `k : Fin K`, of `l[i,k]·r[k,j]`. -/
theorem plain_sum (M K N : Nat) (l : (⟨2, ![M, K]⟩ : Shape).Idx → EReal) (r : (⟨2, ![K, N]⟩ : Shape).Idx → EReal)
    (i : Fin M) (j : Fin N) :
    (∑ q : (DotDims.plain M K N).contr.Idx,
        l ((DotDims.plain M K N).lhsIdx (ix2 i j) q) * r ((DotDims.plain M K N).rhsIdx (ix2 i j) q))
      = ∑ k : Fin K, l (ix2 i k) * r (ix2 k j) := by
  rw [← Equiv.sum_comp (contrEquiv1 (DotDims.plain M K N) K rfl rfl).symm]
  exact Finset.sum_congr rfl fun k _ => by rw [plain_lhsIdx, plain_rhsIdx]

/-- A host `dot_general` with the plain dimension numbers, at the ideal values, read at `(i, j)`. -/
theorem plain_dotGeneral_apply (M K N : Nat) {φ₁ φ₂ : FTy} (prec : Option ContractPrecision)
    (l : FVec Ideal ⟨2, ![M, K]⟩ φ₁) (r : FVec Ideal ⟨2, ![K, N]⟩ φ₂) (i : Fin M) (j : Fin N) :
    Host.dotGeneral (DotDims.plain M K N) prec l r (ix2 i j) = ∑ k : Fin K, l (ix2 i k) * r (ix2 k j) :=
  (Ideal.dotGeneral_apply (DotDims.plain M K N) prec _ l r (ix2 i j)).trans (plain_sum M K N l r i j)

/-- A kernel's matrix product with the plain dimension numbers into the zero splat, at the ideal values, read at `(i, j)`. -/
theorem plain_matmul_zero_apply (M K N : Nat) {φ₁ φ₂ : FTy} (prec : Option ContractPrecision)
    (l : FVec Ideal ⟨2, ![M, K]⟩ φ₁) (r : FVec Ideal ⟨2, ![K, N]⟩ φ₂) (i : Fin M) (j : Fin N) :
    matmul (DotDims.plain M K N) prec l r (constant ⟨2, ![M, N]⟩ .f32 0x00000000#32) (ix2 i j)
      = ∑ k : Fin K, l (ix2 i k) * r (ix2 k j) :=
  (Ideal.matmul_constant_zero_apply (DotDims.plain M K N) prec l r (ix2 i j)).trans (plain_sum M K N l r i j)

end Cert.Lib

end
-- ==== Proof.Spec.lean ====
/-
  The functions both programs compute, index by index, on the extended reals.

  The network is three rounds of a gated graph step followed by a readout.  One round takes the node
  features `h` (10000 nodes, 1000 features each), multiplies them by a 1000×1000 matrix (`lin`), sends
  the products along the edges and adds them up per destination node (host operations, the same in
  both programs, so they never appear here), and feeds the sums `a` and the old features to a GRU cell
  (`gruRow`, one node at a time): with `gi = a·wi + bi` and `gh = h·wh + bh` (3000 columns each, read
  as three groups of 1000),
      r = σ(gi₀ + gh₀),  z = σ(gi₁ + gh₁),  n = tanh(gi₂ + r·gh₂),  h' = (1 - z)·n + z·h,
  where σ(x) = 1 / (1 + e^(-x)).  The readout (`fcRow`) is `max(h, 0)·w + b` with 100 columns.
  Every sum over the 1000 features is written once, as a sum over `Fin 1000`, so that a tiled product
  and a whole one are visibly the same number.
-/
import Idealize.ShloMosaic.PureOps.Ideal
import Idealize.ShloMosaic.PureOps.Ideal.Laws
import Idealize.ShloMosaic.Lib.ValueIdx

noncomputable section

namespace Cert.Spec

open Idealize.ShloMosaic Idealize.ShloMosaic.ValueIdx

/-- A matrix of extended reals with `a` rows and `b` columns. -/
abbrev Mat (a b : Nat) : Type := (⟨2, ![a, b]⟩ : Shape).Idx → EReal

/-- The number the pattern of `1.0` denotes. -/
def one : EReal := Ideal.ofBits .f32 0x3F800000#32

/-- The number the pattern of `0.0` denotes. -/
def zero : EReal := Ideal.ofBits .f32 0x00000000#32

/-- Row vector times column `j` of a matrix with `K` rows. -/
def rowDot {K N : Nat} (a : Fin K → EReal) (w : Mat K N) (j : Fin N) : EReal := ∑ k : Fin K, a k * w (ix2 k j)

/-- Row `i` of a matrix. -/
def row {M K : Nat} (h : Mat M K) (i : Fin M) : Fin K → EReal := fun k => h (ix2 i k)

/-- The per-round linear map: `h · w`. -/
def lin (h : Mat 10000 1000) (w : Mat 1000 1000) : Mat 10000 1000 := fun i => rowDot (row h (i 0)) w (i 1)

/-- Column `o + j` of the 3000 gate columns: group `o / 1000`, feature `j`. -/
def gateCol (o : Nat) (ho : o + 1000 ≤ 3000) (j : Fin 1000) : Fin 3000 := ⟨o + j.val, by have := j.isLt; omega⟩

/-- The logistic function, spelt with the pattern of `1.0`. -/
def sigm (x : EReal) : EReal := Ideal.div one (one + Ideal.exp (-x))

/-- One node's GRU update at feature `j`, from the node's aggregated message `a` and old features `h`. -/
def gruRow (a h : Fin 1000 → EReal) (wi wh : Mat 1000 3000) (bi bh : Fin 3000 → EReal) (j : Fin 1000) : EReal :=
  (one - sigm ((rowDot a wi (gateCol 1000 (by omega) j) + bi (gateCol 1000 (by omega) j))
                + (rowDot h wh (gateCol 1000 (by omega) j) + bh (gateCol 1000 (by omega) j))))
      * Ideal.tanh ((rowDot a wi (gateCol 2000 (by omega) j) + bi (gateCol 2000 (by omega) j))
          + sigm ((rowDot a wi (gateCol 0 (by omega) j) + bi (gateCol 0 (by omega) j))
                  + (rowDot h wh (gateCol 0 (by omega) j) + bh (gateCol 0 (by omega) j)))
            * (rowDot h wh (gateCol 2000 (by omega) j) + bh (gateCol 2000 (by omega) j)))
    + sigm ((rowDot a wi (gateCol 1000 (by omega) j) + bi (gateCol 1000 (by omega) j))
              + (rowDot h wh (gateCol 1000 (by omega) j) + bh (gateCol 1000 (by omega) j)))
      * h j

/-- The GRU cell over all nodes. -/
def gru (a h : Mat 10000 1000) (wi wh : Mat 1000 3000) (bi bh : Fin 3000 → EReal) : Mat 10000 1000 :=
  fun i => gruRow (row a (i 0)) (row h (i 0)) wi wh bi bh (i 1)

/-- One node's readout at output column `j`. -/
def fcRow (h : Fin 1000 → EReal) (w : Mat 1000 100) (b : Fin 100 → EReal) (j : Fin 100) : EReal :=
  rowDot (fun k => max (h k) zero) w j + b j

/-- The readout over all nodes. -/
def fc (h : Mat 10000 1000) (w : Mat 1000 100) (b : Fin 100 → EReal) : Mat 10000 100 :=
  fun i => fcRow (row h (i 0)) w b (i 1)

/-- The GRU update depends only on the values it is given. -/
theorem gruRow_congr {a a' h h' : Fin 1000 → EReal} {wi wi' wh wh' : Mat 1000 3000} {bi bi' bh bh' : Fin 3000 → EReal} {j j' : Fin 1000}
    (ha : a = a') (hh : h = h') (hwi : wi = wi') (hwh : wh = wh') (hbi : bi = bi') (hbh : bh = bh') (hj : j = j') :
    gruRow a h wi wh bi bh j = gruRow a' h' wi' wh' bi' bh' j' := by
  subst ha hh hwi hwh hbi hbh hj; rfl

/-- The readout depends only on the values it is given. -/
theorem fcRow_congr {h h' : Fin 1000 → EReal} {w w' : Mat 1000 100} {b b' : Fin 100 → EReal} {j j' : Fin 100}
    (hh : h = h') (hw : w = w') (hb : b = b') (hj : j = j') : fcRow h w b j = fcRow h' w' b' j' := by
  subst hh hw hb hj; rfl

/-- A row times a column depends only on the values it is given. -/
theorem rowDot_congr {K N : Nat} {a a' : Fin K → EReal} {w w' : Mat K N} {j j' : Fin N}
    (ha : a = a') (hw : w = w') (hj : j = j') : rowDot a w j = rowDot a' w' j' := by
  subst ha hw hj; rfl

/-- The logistic function with the pattern of `1.0` is the library's, which is spelt with the number `1`. -/
theorem one_eq : one = 1 := by
  unfold one
  simp [Ideal.ofBits, Ideal.ieee]
  rw [← EReal.coe_mul, ← EReal.coe_one]
  exact congrArg _ (by norm_num)

theorem sigm_eq (x : EReal) : sigm x = Ideal.logistic x := by
  unfold sigm Ideal.logistic
  rw [one_eq]

end Cert.Spec

end
-- ==== Proof.KPay.lean ====
/-
  What each kernel body stores, read at one index of its block.

  A body loads its blocks, runs one or two matrix products into a zero accumulator and a few
  lane-by-lane operations, and stores one block.  Read at row `p`, column `j` of the stored block the
  products are sums over the 1000 features (the change of format to bf16 and back is the identity on
  the extended reals), a slice of the 3000 gate columns moves the column by its offset, and the bias
  row is read at its one row: the stored number is the specification's row function of row `p` of the
  loaded blocks.
-/
import proofs.«128269_j111669150311_1_alg».proof.Proof.Gen.KernelIdeal.Skeleton
import proofs.«128269_j111669150311_1_alg».proof.Proof.LibPlainDot
import proofs.«128269_j111669150311_1_alg».proof.Proof.Spec
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.KPay

open Idealize.ShloMosaic Idealize.ShloMosaic.ValueIdx Cert.KernelIdeal Cert.KernelIdeal.Gen

/-! ## The matrix products at an index -/

theorem mm_2000_1000 (l : FVec Ideal S2000x1000 .bf16) (r : FVec Ideal S1000x1000 .bf16) (p : Fin 2000) (q : Fin 1000) :
    matmul dot_S2000x1000_S1000x1000_S2000x1000_1_0_0_1_n_n none l r (constant S2000x1000 .f32 0x00000000#32) (ix2 p q)
      = ∑ k : Fin 1000, l (ix2 p k) * r (ix2 k q) :=
  Cert.Lib.plain_matmul_zero_apply 2000 1000 1000 none l r p q

theorem mm_400_3000 (l : FVec Ideal S400x1000 .bf16) (r : FVec Ideal S1000x3000 .bf16) (p : Fin 400) (q : Fin 3000) :
    matmul dot_S400x1000_S1000x3000_S400x3000_1_0_0_1_n_n none l r (constant S400x3000 .f32 0x00000000#32) (ix2 p q)
      = ∑ k : Fin 1000, l (ix2 p k) * r (ix2 k q) :=
  Cert.Lib.plain_matmul_zero_apply 400 1000 3000 none l r p q

theorem mm_2000_100 (l : FVec Ideal S2000x1000 .bf16) (r : FVec Ideal S1000x100 .bf16) (p : Fin 2000) (q : Fin 100) :
    matmul dot_S2000x1000_S1000x100_S2000x100_1_0_0_1_n_n none l r (constant S2000x100 .f32 0x00000000#32) (ix2 p q)
      = ∑ k : Fin 1000, l (ix2 p k) * r (ix2 k q) :=
  Cert.Lib.plain_matmul_zero_apply 2000 1000 100 none l r p q

/-! ## The linear map's bodies -/

theorem lin0_apply (x : Vec Ideal S2000x1000 .f32) (w : Vec Ideal S1000x1000 .f32) (p : Fin 2000) (q : Fin 1000) :
    k0_pay1 (F := Ideal) x w (ix2 p q) = Spec.rowDot (Spec.row x p) w q := by
  unfold k0_pay1
  simp only [shapeCast_self]
  rw [mm_2000_1000]
  rfl

theorem lin2_apply (x : Vec Ideal S2000x1000 .f32) (w : Vec Ideal S1000x1000 .f32) (p : Fin 2000) (q : Fin 1000) :
    k2_pay1 (F := Ideal) x w (ix2 p q) = Spec.rowDot (Spec.row x p) w q := by
  unfold k2_pay1
  simp only [shapeCast_self]
  rw [mm_2000_1000]
  rfl

theorem lin4_apply (x : Vec Ideal S2000x1000 .f32) (w : Vec Ideal S1000x1000 .f32) (p : Fin 2000) (q : Fin 1000) :
    k4_pay1 (F := Ideal) x w (ix2 p q) = Spec.rowDot (Spec.row x p) w q := by
  unfold k4_pay1
  simp only [shapeCast_self]
  rw [mm_2000_1000]
  rfl

/-! ## The GRU cell's bodies -/

/-- A gate's product at row `p`, gate column `c`. -/
theorem mm_gate (x : Vec Ideal S400x1000 .f32) (w : Vec Ideal S1000x3000 .f32) (p : Fin 400) (c : Fin 3000) :
    matmul (F := Ideal) dot_S400x1000_S1000x3000_S400x3000_1_0_0_1_n_n none (truncf .bf16 x bitsLt_bf16_f32) (truncf .bf16 w bitsLt_bf16_f32) (constant S400x3000 .f32 0x00000000#32) (ix2 p c)
      = Spec.rowDot (Spec.row x p) w c := by
  rw [mm_400_3000]
  rfl

theorem gru1_apply (xa xh : Vec Ideal S400x1000 .f32) (wi wh : Vec Ideal S1000x3000 .f32) (bi bh : Vec Ideal S1x3000 .f32) (p : Fin 400) (j : Fin 1000) :
    k1_pay1 (F := Ideal) xa xh wi wh bi bh xh (ix2 p j)
      = Spec.gruRow (Spec.row xa p) (Spec.row xh p) wi wh (fun c => bi (ix2 (0 : Fin 1) c)) (fun c => bh (ix2 (0 : Fin 1) c)) j := by
  unfold k1_pay1
  simp only [shapeCast_self]
  simp only [addf_apply, mulf_apply, subf_apply, broadcast_apply, logistic, tanh, slice2_axis1_eq, mm_gate, broadcastTo_1b_ab_apply]
  unfold Spec.gruRow
  simp only [Spec.sigm_eq]
  rfl

theorem gru3_apply (xa xh : Vec Ideal S400x1000 .f32) (wi wh : Vec Ideal S1000x3000 .f32) (bi bh : Vec Ideal S1x3000 .f32) (p : Fin 400) (j : Fin 1000) :
    k3_pay1 (F := Ideal) xa xh wi wh bi bh xh (ix2 p j)
      = Spec.gruRow (Spec.row xa p) (Spec.row xh p) wi wh (fun c => bi (ix2 (0 : Fin 1) c)) (fun c => bh (ix2 (0 : Fin 1) c)) j := by
  unfold k3_pay1
  simp only [shapeCast_self]
  simp only [addf_apply, mulf_apply, subf_apply, broadcast_apply, logistic, tanh, slice2_axis1_eq, mm_gate, broadcastTo_1b_ab_apply]
  unfold Spec.gruRow
  simp only [Spec.sigm_eq]
  rfl

theorem gru5_apply (xa xh : Vec Ideal S400x1000 .f32) (wi wh : Vec Ideal S1000x3000 .f32) (bi bh : Vec Ideal S1x3000 .f32) (p : Fin 400) (j : Fin 1000) :
    k5_pay1 (F := Ideal) xa xh wi wh bi bh xh (ix2 p j)
      = Spec.gruRow (Spec.row xa p) (Spec.row xh p) wi wh (fun c => bi (ix2 (0 : Fin 1) c)) (fun c => bh (ix2 (0 : Fin 1) c)) j :=
  gru3_apply xa xh wi wh bi bh p j

/-! ## The readout's body -/

theorem fc6_apply (x : Vec Ideal S2000x1000 .f32) (w : Vec Ideal S1000x100 .f32) (b : Vec Ideal S1x100 .f32) (p : Fin 2000) (j : Fin 100) :
    k6_pay1 (F := Ideal) x w b (ix2 p j) = Spec.fcRow (Spec.row x p) w (fun c => b (ix2 (0 : Fin 1) c)) j := by
  unfold k6_pay1
  simp only [shapeCast_self]
  rw [addf_apply, mm_2000_100, broadcastTo_1b_ab_apply]
  rfl

end Cert.KPay

end
-- ==== Proof.KReg0.lean ====
/-
  Launch 0: the linear map, tile by tile.

  The launch walks five tiles of 2000 rows.  At tile `t` the body multiplies rows 2000·t … 2000·t + 1999 of
  the features by the whole 1000×1000 matrix and writes those rows of the product: entry (p, q) of the
  stored tile is the sum over k of feature (2000·t + p, k) times weight (k, q), which is entry
  (2000·t + p, q) of the whole product.  The five tiles cover the 10000 rows, so the output array ends as
  the whole product.
-/
import proofs.«128269_j111669150311_1_alg».proof.Proof.Gen.KernelIdeal.Frame
import proofs.«128269_j111669150311_1_alg».proof.Proof.KPay

set_option maxRecDepth 16384

noncomputable section

namespace Cert.KernelIdeal.KReg

open Cert.KernelIdeal Cert.KernelIdeal.Gen
open Idealize.ShloMosaic Idealize.ShloMosaic.TcCoe Idealize.ShloMosaic.ValueIdx
open Idealize.ShloMosaic.Pipeline (Dat Cfg Window)

variable (V : (c : Dev nD) → (b : Ref sig .tc) → Buf (Elt Ideal) ((c : Thread nD τ).loc b))

theorem hz0 : (![0, 0] : Fin 2 → Nat) = fun _ => 0 := funext fun a => by fin_cases a <;> rfl

/-- The index maps, decided over the five points: the feature tile and the output tile sit at the point's row block,
    the weight matrix is one block. -/
theorem idx_facts0 : ∀ t : Fin cfg0.N, win0_0.index t (0 : Fin 2) = win0_2.index t (0 : Fin 2)
    ∧ win0_0.index t (1 : Fin 2) = 0
    ∧ win0_1.index t (0 : Fin 2) = 0
    ∧ win0_1.index t (1 : Fin 2) = 0
    ∧ win0_2.index t (1 : Fin 2) = 0
    ∧ win0_2.index t (0 : Fin 2) ≤ 4 :=
  (by decide +kernel : ∀ t : Fin grid0.N, _)

/-- Every row block is some point's. -/
theorem idx_onto0 : ∀ q0 : Fin 5, ∃ t : Fin cfg0.N, win0_2.index t = ![q0.val, 0] :=
  (by decide +kernel : ∀ q0 : Fin 5, ∃ t : Fin grid0.N, win0_2.index t = ![q0.val, 0])

/-- What point `t` writes back is tile `t` of the whole product. -/
theorem flushed0 (c : Dev nD) (t : Fin cfg0.N) :
    (dat0 V c).flushed 2 t = ((cfg0.win 2).blk t).view.read (Elt Ideal) (Spec.lin (V c main_arg0) (V c main_v4)) := by
  show (cfg0.win 2).cut (grid0.coords t) ((dat0 V c).after 2 t) = _
  rw [after0_2]
  unfold out0_2
  rw [View.canon_unit_zero hz0]
  simp only [View.ld_unit_zero (S := S2000x1000) hz0, View.ld_unit_zero (S := S1000x1000) hz0]
  obtain ⟨e0, e1, e2, e3, e4, e5⟩ := idx_facts0 t
  funext j
  obtain ⟨p, q, rfl⟩ : ∃ (p : Fin 2000) (q : Fin 1000), j = ix2 p q := ⟨j 0, j 1, eq_ix2 j⟩
  show k0_pay1 (iblk0 V c 0 t) (iblk0 V c 1 t) (ix2 p q)
    = Spec.lin (V c main_arg0) (V c main_v4) (((cfg0.win 2).blk t).view.emb (ix2 p q))
  refine (KPay.lin0_apply (iblk0 V c 0 t) (iblk0 V c 1 t) p q).trans ?_
  show Spec.rowDot _ _ _ = Spec.rowDot _ _ _
  refine Spec.rowDot_congr ?_ ?_ ?_
  · funext k
    show V c main_arg0 (((cfg0.win 0).blk t).view.emb (ix2 p k)) = V c main_arg0 (ix2 ((((cfg0.win 2).blk t).view.emb (ix2 p q)) 0) k)
    refine congrArg _ (funext fun a => Fin.ext ?_)
    match a with
    | ⟨0, _⟩ => show win0_0.index t (0 : Fin 2) * 2000 + 1 * p.val = win0_2.index t (0 : Fin 2) * 2000 + 1 * p.val; omega
    | ⟨1, _⟩ => show win0_0.index t (1 : Fin 2) * 1000 + 1 * k.val = k.val; omega
  · funext y
    show V c main_v4 (((cfg0.win 1).blk t).view.emb y) = V c main_v4 y
    refine congrArg _ (funext fun a => Fin.ext ?_)
    match a with
    | ⟨0, _⟩ => show win0_1.index t (0 : Fin 2) * 1000 + 1 * (y 0).val = (y 0).val; omega
    | ⟨1, _⟩ => show win0_1.index t (1 : Fin 2) * 1000 + 1 * (y 1).val = (y 1).val; omega
  · refine Fin.ext ?_
    show q.val = win0_2.index t (1 : Fin 2) * 1000 + 1 * q.val
    omega

/-- An index of the output array is in point `t`'s tile iff each coordinate is in the tile's range. -/
theorem mem_blk0 (t : Fin cfg0.N) (i : S10000x1000.Idx) :
    i ∈ ((cfg0.win 2).blk t).view.set ↔ ∀ a : Fin 2, win0_2.index t a * S2000x1000.size a ≤ (i a).val ∧ (i a).val < win0_2.index t a * S2000x1000.size a + S2000x1000.size a := by
  show i ∈ ((View.whole main_v5).slice (win0_2.rect t)).set ↔ _
  rw [View.set_slice_whole, Rect.mem_set_unit]
  exact Iff.rfl

/-- The tiles cover the output array: row `r` is in tile `r / 2000`. -/
theorem cover0 (i : S10000x1000.Idx) :
    ∃ t : Fin cfg0.N, (cfg0.win 2).flush t = true ∧ i ∈ ((cfg0.win 2).blk t).view.set := by
  have hi0 : (i 0).val < 10000 := (i 0).isLt
  have hi1 : (i 1).val < 1000 := (i 1).isLt
  obtain ⟨t, ht⟩ := idx_onto0 ⟨(i 0).val / 2000, by omega⟩
  have q0 : win0_2.index t (0 : Fin 2) = (i 0).val / 2000 := congrFun ht 0
  have q1 : win0_2.index t (1 : Fin 2) = 0 := congrFun ht 1
  refine ⟨t, flush0_2 t, ?_⟩
  rw [mem_blk0]
  intro a
  match a with
  | ⟨0, _⟩ => show win0_2.index t (0 : Fin 2) * 2000 ≤ (i 0).val ∧ (i 0).val < win0_2.index t (0 : Fin 2) * 2000 + 2000; omega
  | ⟨1, _⟩ => show win0_2.index t (1 : Fin 2) * 1000 ≤ (i 1).val ∧ (i 1).val < win0_2.index t (1 : Fin 2) * 1000 + 1000; omega

/-- The output array after the launch is the whole product of the arrays the launch found. -/
theorem final0 (c : Dev nD) : (dat0 V c).arrAt 2 cfg0.N = Spec.lin (V c main_arg0) (V c main_v4) :=
  (dat0 V c).arrAt_eq_of_cover 2 (Spec.lin (V c main_arg0) (V c main_v4)) (fun t _ => flushed0 V c t) (cover0)

end Cert.KernelIdeal.KReg

end
-- ==== Proof.KReg1.lean ====
/-
  Launch 1: the GRU cell, tile by tile.

  The launch walks 25 tiles of 400 nodes.  At tile `t` the body takes rows 400·t … 400·t + 399 of the
  aggregated messages and of the old features, the two whole 1000×3000 weight matrices and the two bias
  rows, and writes the new features of those 400 nodes: entry (p, j) of the stored tile is the GRU update
  of node 400·t + p at feature j.  The 25 tiles cover the 10000 nodes, so the output array ends as the
  GRU cell of the arrays the launch found.
-/
import proofs.«128269_j111669150311_1_alg».proof.Proof.Gen.KernelIdeal.Frame
import proofs.«128269_j111669150311_1_alg».proof.Proof.KPay

set_option maxRecDepth 16384

noncomputable section

namespace Cert.KernelIdeal.KReg

open Cert.KernelIdeal Cert.KernelIdeal.Gen
open Idealize.ShloMosaic Idealize.ShloMosaic.TcCoe Idealize.ShloMosaic.ValueIdx
open Idealize.ShloMosaic.Pipeline (Dat Cfg Window)

variable (V : (c : Dev nD) → (b : Ref sig .tc) → Buf (Elt Ideal) ((c : Thread nD τ).loc b))

theorem hz1 : (![0, 0] : Fin 2 → Nat) = fun _ => 0 := funext fun a => by fin_cases a <;> rfl

/-- The index maps, decided over the 25 points: the two row-tiled inputs and the output sit at the point's row block,
    the weights and the biases are one block each. -/
theorem idx_facts1 : ∀ t : Fin cfg1.N, win1_0.index t (0 : Fin 2) = win1_6.index t (0 : Fin 2)
    ∧ win1_0.index t (1 : Fin 2) = 0
    ∧ win1_1.index t (0 : Fin 2) = win1_6.index t (0 : Fin 2)
    ∧ win1_1.index t (1 : Fin 2) = 0
    ∧ win1_2.index t (0 : Fin 2) = 0 ∧ win1_2.index t (1 : Fin 2) = 0
    ∧ win1_3.index t (0 : Fin 2) = 0 ∧ win1_3.index t (1 : Fin 2) = 0
    ∧ win1_4.index t (0 : Fin 2) = 0 ∧ win1_4.index t (1 : Fin 2) = 0
    ∧ win1_5.index t (0 : Fin 2) = 0 ∧ win1_5.index t (1 : Fin 2) = 0
    ∧ win1_6.index t (1 : Fin 2) = 0
    ∧ win1_6.index t (0 : Fin 2) ≤ 24 :=
  (by decide +kernel : ∀ t : Fin grid1.N, _)

/-- Every row block is some point's. -/
theorem idx_onto1 : ∀ q0 : Fin 25, ∃ t : Fin cfg1.N, win1_6.index t = ![q0.val, 0] :=
  (by decide +kernel : ∀ q0 : Fin 25, ∃ t : Fin grid1.N, win1_6.index t = ![q0.val, 0])

set_option maxHeartbeats 2000000 in
/-- What point `t` writes back is tile `t` of the GRU cell of the arrays the launch found. -/
theorem flushed1 (c : Dev nD) (t : Fin cfg1.N) :
    (dat1 V c).flushed 6 t = ((cfg1.win 6).blk t).view.read (Elt Ideal)
      (Spec.gru (V c main_v18) (V c main_arg0) (V c main_v0) (V c main_v1) (fun e => V c main_v19 (ix2 (0 : Fin 1) e)) (fun e => V c main_v20 (ix2 (0 : Fin 1) e))) := by
  show (cfg1.win 6).cut (grid1.coords t) ((dat1 V c).after 6 t) = _
  rw [after1_6]
  unfold out1_6
  rw [View.canon_unit_zero hz1]
  simp only [View.ld_unit_zero (S := S400x1000) hz1, View.ld_unit_zero (S := S1000x3000) hz1, View.ld_unit_zero (S := S1x3000) hz1]
  obtain ⟨e0, e1, e2, e3, e4, e5, e6, e7, e8, e9, e10, e11, e12, e13⟩ := idx_facts1 t
  funext j
  obtain ⟨p, q, rfl⟩ : ∃ (p : Fin 400) (q : Fin 1000), j = ix2 p q := ⟨j 0, j 1, eq_ix2 j⟩
  show k1_pay1 (iblk1 V c 0 t) (iblk1 V c 1 t) (iblk1 V c 2 t) (iblk1 V c 3 t) (iblk1 V c 4 t) (iblk1 V c 5 t) (iblk1 V c 1 t) (ix2 p q)
    = Spec.gru (V c main_v18) (V c main_arg0) (V c main_v0) (V c main_v1) (fun e => V c main_v19 (ix2 (0 : Fin 1) e)) (fun e => V c main_v20 (ix2 (0 : Fin 1) e))
        (((cfg1.win 6).blk t).view.emb (ix2 p q))
  refine (KPay.gru1_apply (iblk1 V c 0 t) (iblk1 V c 1 t) (iblk1 V c 2 t) (iblk1 V c 3 t) (iblk1 V c 4 t) (iblk1 V c 5 t) p q).trans ?_
  show Spec.gruRow _ _ _ _ _ _ _ = Spec.gruRow _ _ _ _ _ _ _
  refine Spec.gruRow_congr ?_ ?_ ?_ ?_ ?_ ?_ ?_
  · funext k
    show V c main_v18 (((cfg1.win 0).blk t).view.emb (ix2 p k)) = V c main_v18 (ix2 ((((cfg1.win 6).blk t).view.emb (ix2 p q)) 0) k)
    refine congrArg _ (funext fun a => Fin.ext ?_)
    match a with
    | ⟨0, _⟩ => show win1_0.index t (0 : Fin 2) * 400 + 1 * p.val = win1_6.index t (0 : Fin 2) * 400 + 1 * p.val; omega
    | ⟨1, _⟩ => show win1_0.index t (1 : Fin 2) * 1000 + 1 * k.val = k.val; omega
  · funext k
    show V c main_arg0 (((cfg1.win 1).blk t).view.emb (ix2 p k)) = V c main_arg0 (ix2 ((((cfg1.win 6).blk t).view.emb (ix2 p q)) 0) k)
    refine congrArg _ (funext fun a => Fin.ext ?_)
    match a with
    | ⟨0, _⟩ => show win1_1.index t (0 : Fin 2) * 400 + 1 * p.val = win1_6.index t (0 : Fin 2) * 400 + 1 * p.val; omega
    | ⟨1, _⟩ => show win1_1.index t (1 : Fin 2) * 1000 + 1 * k.val = k.val; omega
  · funext y
    show V c main_v0 (((cfg1.win 2).blk t).view.emb y) = V c main_v0 y
    refine congrArg _ (funext fun a => Fin.ext ?_)
    match a with
    | ⟨0, _⟩ => show win1_2.index t (0 : Fin 2) * 1000 + 1 * (y 0).val = (y 0).val; omega
    | ⟨1, _⟩ => show win1_2.index t (1 : Fin 2) * 3000 + 1 * (y 1).val = (y 1).val; omega
  · funext y
    show V c main_v1 (((cfg1.win 3).blk t).view.emb y) = V c main_v1 y
    refine congrArg _ (funext fun a => Fin.ext ?_)
    match a with
    | ⟨0, _⟩ => show win1_3.index t (0 : Fin 2) * 1000 + 1 * (y 0).val = (y 0).val; omega
    | ⟨1, _⟩ => show win1_3.index t (1 : Fin 2) * 3000 + 1 * (y 1).val = (y 1).val; omega
  · funext e
    show V c main_v19 (((cfg1.win 4).blk t).view.emb (ix2 (0 : Fin 1) e)) = V c main_v19 (ix2 (0 : Fin 1) e)
    refine congrArg _ (funext fun a => Fin.ext ?_)
    match a with
    | ⟨0, _⟩ => show win1_4.index t (0 : Fin 2) * 1 + 1 * 0 = 0; omega
    | ⟨1, _⟩ => show win1_4.index t (1 : Fin 2) * 3000 + 1 * e.val = e.val; omega
  · funext e
    show V c main_v20 (((cfg1.win 5).blk t).view.emb (ix2 (0 : Fin 1) e)) = V c main_v20 (ix2 (0 : Fin 1) e)
    refine congrArg _ (funext fun a => Fin.ext ?_)
    match a with
    | ⟨0, _⟩ => show win1_5.index t (0 : Fin 2) * 1 + 1 * 0 = 0; omega
    | ⟨1, _⟩ => show win1_5.index t (1 : Fin 2) * 3000 + 1 * e.val = e.val; omega
  · refine Fin.ext ?_
    show q.val = win1_6.index t (1 : Fin 2) * 1000 + 1 * q.val
    omega

/-- An index of the output array is in point `t`'s tile iff each coordinate is in the tile's range. -/
theorem mem_blk1 (t : Fin cfg1.N) (i : S10000x1000.Idx) :
    i ∈ ((cfg1.win 6).blk t).view.set ↔ ∀ a : Fin 2, win1_6.index t a * S400x1000.size a ≤ (i a).val ∧ (i a).val < win1_6.index t a * S400x1000.size a + S400x1000.size a := by
  show i ∈ ((View.whole main_v21).slice (win1_6.rect t)).set ↔ _
  rw [View.set_slice_whole, Rect.mem_set_unit]
  exact Iff.rfl

/-- The tiles cover the output array: node `r` is in tile `r / 400`. -/
theorem cover1 (i : S10000x1000.Idx) :
    ∃ t : Fin cfg1.N, (cfg1.win 6).flush t = true ∧ i ∈ ((cfg1.win 6).blk t).view.set := by
  have hi0 : (i 0).val < 10000 := (i 0).isLt
  have hi1 : (i 1).val < 1000 := (i 1).isLt
  obtain ⟨t, ht⟩ := idx_onto1 ⟨(i 0).val / 400, by omega⟩
  have q0 : win1_6.index t (0 : Fin 2) = (i 0).val / 400 := congrFun ht 0
  have q1 : win1_6.index t (1 : Fin 2) = 0 := congrFun ht 1
  refine ⟨t, flush1_6 t, ?_⟩
  rw [mem_blk1]
  intro a
  match a with
  | ⟨0, _⟩ => show win1_6.index t (0 : Fin 2) * 400 ≤ (i 0).val ∧ (i 0).val < win1_6.index t (0 : Fin 2) * 400 + 400; omega
  | ⟨1, _⟩ => show win1_6.index t (1 : Fin 2) * 1000 ≤ (i 1).val ∧ (i 1).val < win1_6.index t (1 : Fin 2) * 1000 + 1000; omega

/-- The output array after the launch is the GRU cell of the arrays the launch found. -/
theorem final1 (c : Dev nD) : (dat1 V c).arrAt 6 cfg1.N
    = Spec.gru (V c main_v18) (V c main_arg0) (V c main_v0) (V c main_v1) (fun e => V c main_v19 (ix2 (0 : Fin 1) e)) (fun e => V c main_v20 (ix2 (0 : Fin 1) e)) :=
  (dat1 V c).arrAt_eq_of_cover 6 _ (fun t _ => flushed1 V c t) (cover1)

end Cert.KernelIdeal.KReg

end
-- ==== Proof.KReg2.lean ====
/-
  Launch 2: the linear map, tile by tile.

  The launch walks five tiles of 2000 rows.  At tile `t` the body multiplies rows 2000·t … 2000·t + 1999 of
  the features by the whole 1000×1000 matrix and writes those rows of the product: entry (p, q) of the
  stored tile is the sum over k of feature (2000·t + p, k) times weight (k, q), which is entry
  (2000·t + p, q) of the whole product.  The five tiles cover the 10000 rows, so the output array ends as
  the whole product.
-/
import proofs.«128269_j111669150311_1_alg».proof.Proof.Gen.KernelIdeal.Frame
import proofs.«128269_j111669150311_1_alg».proof.Proof.KPay

set_option maxRecDepth 16384

noncomputable section

namespace Cert.KernelIdeal.KReg

open Cert.KernelIdeal Cert.KernelIdeal.Gen
open Idealize.ShloMosaic Idealize.ShloMosaic.TcCoe Idealize.ShloMosaic.ValueIdx
open Idealize.ShloMosaic.Pipeline (Dat Cfg Window)

variable (V : (c : Dev nD) → (b : Ref sig .tc) → Buf (Elt Ideal) ((c : Thread nD τ).loc b))

theorem hz2 : (![0, 0] : Fin 2 → Nat) = fun _ => 0 := funext fun a => by fin_cases a <;> rfl

/-- The index maps, decided over the five points: the feature tile and the output tile sit at the point's row block,
    the weight matrix is one block. -/
theorem idx_facts2 : ∀ t : Fin cfg2.N, win2_0.index t (0 : Fin 2) = win2_2.index t (0 : Fin 2)
    ∧ win2_0.index t (1 : Fin 2) = 0
    ∧ win2_1.index t (0 : Fin 2) = 0
    ∧ win2_1.index t (1 : Fin 2) = 0
    ∧ win2_2.index t (1 : Fin 2) = 0
    ∧ win2_2.index t (0 : Fin 2) ≤ 4 :=
  (by decide +kernel : ∀ t : Fin grid2.N, _)

/-- Every row block is some point's. -/
theorem idx_onto2 : ∀ q0 : Fin 5, ∃ t : Fin cfg2.N, win2_2.index t = ![q0.val, 0] :=
  (by decide +kernel : ∀ q0 : Fin 5, ∃ t : Fin grid2.N, win2_2.index t = ![q0.val, 0])

/-- What point `t` writes back is tile `t` of the whole product. -/
theorem flushed2 (c : Dev nD) (t : Fin cfg2.N) :
    (dat2 V c).flushed 2 t = ((cfg2.win 2).blk t).view.read (Elt Ideal) (Spec.lin (V c main_v21) (V c main_v23)) := by
  show (cfg2.win 2).cut (grid2.coords t) ((dat2 V c).after 2 t) = _
  rw [after2_2]
  unfold out2_2
  rw [View.canon_unit_zero hz2]
  simp only [View.ld_unit_zero (S := S2000x1000) hz2, View.ld_unit_zero (S := S1000x1000) hz2]
  obtain ⟨e0, e1, e2, e3, e4, e5⟩ := idx_facts2 t
  funext j
  obtain ⟨p, q, rfl⟩ : ∃ (p : Fin 2000) (q : Fin 1000), j = ix2 p q := ⟨j 0, j 1, eq_ix2 j⟩
  show k2_pay1 (iblk2 V c 0 t) (iblk2 V c 1 t) (ix2 p q)
    = Spec.lin (V c main_v21) (V c main_v23) (((cfg2.win 2).blk t).view.emb (ix2 p q))
  refine (KPay.lin2_apply (iblk2 V c 0 t) (iblk2 V c 1 t) p q).trans ?_
  show Spec.rowDot _ _ _ = Spec.rowDot _ _ _
  refine Spec.rowDot_congr ?_ ?_ ?_
  · funext k
    show V c main_v21 (((cfg2.win 0).blk t).view.emb (ix2 p k)) = V c main_v21 (ix2 ((((cfg2.win 2).blk t).view.emb (ix2 p q)) 0) k)
    refine congrArg _ (funext fun a => Fin.ext ?_)
    match a with
    | ⟨0, _⟩ => show win2_0.index t (0 : Fin 2) * 2000 + 1 * p.val = win2_2.index t (0 : Fin 2) * 2000 + 1 * p.val; omega
    | ⟨1, _⟩ => show win2_0.index t (1 : Fin 2) * 1000 + 1 * k.val = k.val; omega
  · funext y
    show V c main_v23 (((cfg2.win 1).blk t).view.emb y) = V c main_v23 y
    refine congrArg _ (funext fun a => Fin.ext ?_)
    match a with
    | ⟨0, _⟩ => show win2_1.index t (0 : Fin 2) * 1000 + 1 * (y 0).val = (y 0).val; omega
    | ⟨1, _⟩ => show win2_1.index t (1 : Fin 2) * 1000 + 1 * (y 1).val = (y 1).val; omega
  · refine Fin.ext ?_
    show q.val = win2_2.index t (1 : Fin 2) * 1000 + 1 * q.val
    omega

/-- An index of the output array is in point `t`'s tile iff each coordinate is in the tile's range. -/
theorem mem_blk2 (t : Fin cfg2.N) (i : S10000x1000.Idx) :
    i ∈ ((cfg2.win 2).blk t).view.set ↔ ∀ a : Fin 2, win2_2.index t a * S2000x1000.size a ≤ (i a).val ∧ (i a).val < win2_2.index t a * S2000x1000.size a + S2000x1000.size a := by
  show i ∈ ((View.whole main_v24).slice (win2_2.rect t)).set ↔ _
  rw [View.set_slice_whole, Rect.mem_set_unit]
  exact Iff.rfl

/-- The tiles cover the output array: row `r` is in tile `r / 2000`. -/
theorem cover2 (i : S10000x1000.Idx) :
    ∃ t : Fin cfg2.N, (cfg2.win 2).flush t = true ∧ i ∈ ((cfg2.win 2).blk t).view.set := by
  have hi0 : (i 0).val < 10000 := (i 0).isLt
  have hi1 : (i 1).val < 1000 := (i 1).isLt
  obtain ⟨t, ht⟩ := idx_onto2 ⟨(i 0).val / 2000, by omega⟩
  have q0 : win2_2.index t (0 : Fin 2) = (i 0).val / 2000 := congrFun ht 0
  have q1 : win2_2.index t (1 : Fin 2) = 0 := congrFun ht 1
  refine ⟨t, flush2_2 t, ?_⟩
  rw [mem_blk2]
  intro a
  match a with
  | ⟨0, _⟩ => show win2_2.index t (0 : Fin 2) * 2000 ≤ (i 0).val ∧ (i 0).val < win2_2.index t (0 : Fin 2) * 2000 + 2000; omega
  | ⟨1, _⟩ => show win2_2.index t (1 : Fin 2) * 1000 ≤ (i 1).val ∧ (i 1).val < win2_2.index t (1 : Fin 2) * 1000 + 1000; omega

/-- The output array after the launch is the whole product of the arrays the launch found. -/
theorem final2 (c : Dev nD) : (dat2 V c).arrAt 2 cfg2.N = Spec.lin (V c main_v21) (V c main_v23) :=
  (dat2 V c).arrAt_eq_of_cover 2 (Spec.lin (V c main_v21) (V c main_v23)) (fun t _ => flushed2 V c t) (cover2)

end Cert.KernelIdeal.KReg

end
-- ==== Proof.KReg3.lean ====
/-
  Launch 3: the GRU cell, tile by tile.

  The launch walks 25 tiles of 400 nodes.  At tile `t` the body takes rows 400·t … 400·t + 399 of the
  aggregated messages and of the old features, the two whole 1000×3000 weight matrices and the two bias
  rows, and writes the new features of those 400 nodes: entry (p, j) of the stored tile is the GRU update
  of node 400·t + p at feature j.  The 25 tiles cover the 10000 nodes, so the output array ends as the
  GRU cell of the arrays the launch found.
-/
import proofs.«128269_j111669150311_1_alg».proof.Proof.Gen.KernelIdeal.Frame
import proofs.«128269_j111669150311_1_alg».proof.Proof.KPay

set_option maxRecDepth 16384

noncomputable section

namespace Cert.KernelIdeal.KReg

open Cert.KernelIdeal Cert.KernelIdeal.Gen
open Idealize.ShloMosaic Idealize.ShloMosaic.TcCoe Idealize.ShloMosaic.ValueIdx
open Idealize.ShloMosaic.Pipeline (Dat Cfg Window)

variable (V : (c : Dev nD) → (b : Ref sig .tc) → Buf (Elt Ideal) ((c : Thread nD τ).loc b))

theorem hz3 : (![0, 0] : Fin 2 → Nat) = fun _ => 0 := funext fun a => by fin_cases a <;> rfl

/-- The index maps, decided over the 25 points: the two row-tiled inputs and the output sit at the point's row block,
    the weights and the biases are one block each. -/
theorem idx_facts3 : ∀ t : Fin cfg3.N, win3_0.index t (0 : Fin 2) = win3_6.index t (0 : Fin 2)
    ∧ win3_0.index t (1 : Fin 2) = 0
    ∧ win3_1.index t (0 : Fin 2) = win3_6.index t (0 : Fin 2)
    ∧ win3_1.index t (1 : Fin 2) = 0
    ∧ win3_2.index t (0 : Fin 2) = 0 ∧ win3_2.index t (1 : Fin 2) = 0
    ∧ win3_3.index t (0 : Fin 2) = 0 ∧ win3_3.index t (1 : Fin 2) = 0
    ∧ win3_4.index t (0 : Fin 2) = 0 ∧ win3_4.index t (1 : Fin 2) = 0
    ∧ win3_5.index t (0 : Fin 2) = 0 ∧ win3_5.index t (1 : Fin 2) = 0
    ∧ win3_6.index t (1 : Fin 2) = 0
    ∧ win3_6.index t (0 : Fin 2) ≤ 24 :=
  (by decide +kernel : ∀ t : Fin grid3.N, _)

/-- Every row block is some point's. -/
theorem idx_onto3 : ∀ q0 : Fin 25, ∃ t : Fin cfg3.N, win3_6.index t = ![q0.val, 0] :=
  (by decide +kernel : ∀ q0 : Fin 25, ∃ t : Fin grid3.N, win3_6.index t = ![q0.val, 0])

set_option maxHeartbeats 2000000 in
/-- What point `t` writes back is tile `t` of the GRU cell of the arrays the launch found. -/
theorem flushed3 (c : Dev nD) (t : Fin cfg3.N) :
    (dat3 V c).flushed 6 t = ((cfg3.win 6).blk t).view.read (Elt Ideal)
      (Spec.gru (V c main_v37) (V c main_v21) (V c main_v0) (V c main_v1) (fun e => V c main_v38 (ix2 (0 : Fin 1) e)) (fun e => V c main_v39 (ix2 (0 : Fin 1) e))) := by
  show (cfg3.win 6).cut (grid3.coords t) ((dat3 V c).after 6 t) = _
  rw [after3_6]
  unfold out3_6
  rw [View.canon_unit_zero hz3]
  simp only [View.ld_unit_zero (S := S400x1000) hz3, View.ld_unit_zero (S := S1000x3000) hz3, View.ld_unit_zero (S := S1x3000) hz3]
  obtain ⟨e0, e1, e2, e3, e4, e5, e6, e7, e8, e9, e10, e11, e12, e13⟩ := idx_facts3 t
  funext j
  obtain ⟨p, q, rfl⟩ : ∃ (p : Fin 400) (q : Fin 1000), j = ix2 p q := ⟨j 0, j 1, eq_ix2 j⟩
  show k3_pay1 (iblk3 V c 0 t) (iblk3 V c 1 t) (iblk3 V c 2 t) (iblk3 V c 3 t) (iblk3 V c 4 t) (iblk3 V c 5 t) (iblk3 V c 1 t) (ix2 p q)
    = Spec.gru (V c main_v37) (V c main_v21) (V c main_v0) (V c main_v1) (fun e => V c main_v38 (ix2 (0 : Fin 1) e)) (fun e => V c main_v39 (ix2 (0 : Fin 1) e))
        (((cfg3.win 6).blk t).view.emb (ix2 p q))
  refine (KPay.gru3_apply (iblk3 V c 0 t) (iblk3 V c 1 t) (iblk3 V c 2 t) (iblk3 V c 3 t) (iblk3 V c 4 t) (iblk3 V c 5 t) p q).trans ?_
  show Spec.gruRow _ _ _ _ _ _ _ = Spec.gruRow _ _ _ _ _ _ _
  refine Spec.gruRow_congr ?_ ?_ ?_ ?_ ?_ ?_ ?_
  · funext k
    show V c main_v37 (((cfg3.win 0).blk t).view.emb (ix2 p k)) = V c main_v37 (ix2 ((((cfg3.win 6).blk t).view.emb (ix2 p q)) 0) k)
    refine congrArg _ (funext fun a => Fin.ext ?_)
    match a with
    | ⟨0, _⟩ => show win3_0.index t (0 : Fin 2) * 400 + 1 * p.val = win3_6.index t (0 : Fin 2) * 400 + 1 * p.val; omega
    | ⟨1, _⟩ => show win3_0.index t (1 : Fin 2) * 1000 + 1 * k.val = k.val; omega
  · funext k
    show V c main_v21 (((cfg3.win 1).blk t).view.emb (ix2 p k)) = V c main_v21 (ix2 ((((cfg3.win 6).blk t).view.emb (ix2 p q)) 0) k)
    refine congrArg _ (funext fun a => Fin.ext ?_)
    match a with
    | ⟨0, _⟩ => show win3_1.index t (0 : Fin 2) * 400 + 1 * p.val = win3_6.index t (0 : Fin 2) * 400 + 1 * p.val; omega
    | ⟨1, _⟩ => show win3_1.index t (1 : Fin 2) * 1000 + 1 * k.val = k.val; omega
  · funext y
    show V c main_v0 (((cfg3.win 2).blk t).view.emb y) = V c main_v0 y
    refine congrArg _ (funext fun a => Fin.ext ?_)
    match a with
    | ⟨0, _⟩ => show win3_2.index t (0 : Fin 2) * 1000 + 1 * (y 0).val = (y 0).val; omega
    | ⟨1, _⟩ => show win3_2.index t (1 : Fin 2) * 3000 + 1 * (y 1).val = (y 1).val; omega
  · funext y
    show V c main_v1 (((cfg3.win 3).blk t).view.emb y) = V c main_v1 y
    refine congrArg _ (funext fun a => Fin.ext ?_)
    match a with
    | ⟨0, _⟩ => show win3_3.index t (0 : Fin 2) * 1000 + 1 * (y 0).val = (y 0).val; omega
    | ⟨1, _⟩ => show win3_3.index t (1 : Fin 2) * 3000 + 1 * (y 1).val = (y 1).val; omega
  · funext e
    show V c main_v38 (((cfg3.win 4).blk t).view.emb (ix2 (0 : Fin 1) e)) = V c main_v38 (ix2 (0 : Fin 1) e)
    refine congrArg _ (funext fun a => Fin.ext ?_)
    match a with
    | ⟨0, _⟩ => show win3_4.index t (0 : Fin 2) * 1 + 1 * 0 = 0; omega
    | ⟨1, _⟩ => show win3_4.index t (1 : Fin 2) * 3000 + 1 * e.val = e.val; omega
  · funext e
    show V c main_v39 (((cfg3.win 5).blk t).view.emb (ix2 (0 : Fin 1) e)) = V c main_v39 (ix2 (0 : Fin 1) e)
    refine congrArg _ (funext fun a => Fin.ext ?_)
    match a with
    | ⟨0, _⟩ => show win3_5.index t (0 : Fin 2) * 1 + 1 * 0 = 0; omega
    | ⟨1, _⟩ => show win3_5.index t (1 : Fin 2) * 3000 + 1 * e.val = e.val; omega
  · refine Fin.ext ?_
    show q.val = win3_6.index t (1 : Fin 2) * 1000 + 1 * q.val
    omega

/-- An index of the output array is in point `t`'s tile iff each coordinate is in the tile's range. -/
theorem mem_blk3 (t : Fin cfg3.N) (i : S10000x1000.Idx) :
    i ∈ ((cfg3.win 6).blk t).view.set ↔ ∀ a : Fin 2, win3_6.index t a * S400x1000.size a ≤ (i a).val ∧ (i a).val < win3_6.index t a * S400x1000.size a + S400x1000.size a := by
  show i ∈ ((View.whole main_v40).slice (win3_6.rect t)).set ↔ _
  rw [View.set_slice_whole, Rect.mem_set_unit]
  exact Iff.rfl

/-- The tiles cover the output array: node `r` is in tile `r / 400`. -/
theorem cover3 (i : S10000x1000.Idx) :
    ∃ t : Fin cfg3.N, (cfg3.win 6).flush t = true ∧ i ∈ ((cfg3.win 6).blk t).view.set := by
  have hi0 : (i 0).val < 10000 := (i 0).isLt
  have hi1 : (i 1).val < 1000 := (i 1).isLt
  obtain ⟨t, ht⟩ := idx_onto3 ⟨(i 0).val / 400, by omega⟩
  have q0 : win3_6.index t (0 : Fin 2) = (i 0).val / 400 := congrFun ht 0
  have q1 : win3_6.index t (1 : Fin 2) = 0 := congrFun ht 1
  refine ⟨t, flush3_6 t, ?_⟩
  rw [mem_blk3]
  intro a
  match a with
  | ⟨0, _⟩ => show win3_6.index t (0 : Fin 2) * 400 ≤ (i 0).val ∧ (i 0).val < win3_6.index t (0 : Fin 2) * 400 + 400; omega
  | ⟨1, _⟩ => show win3_6.index t (1 : Fin 2) * 1000 ≤ (i 1).val ∧ (i 1).val < win3_6.index t (1 : Fin 2) * 1000 + 1000; omega

/-- The output array after the launch is the GRU cell of the arrays the launch found. -/
theorem final3 (c : Dev nD) : (dat3 V c).arrAt 6 cfg3.N
    = Spec.gru (V c main_v37) (V c main_v21) (V c main_v0) (V c main_v1) (fun e => V c main_v38 (ix2 (0 : Fin 1) e)) (fun e => V c main_v39 (ix2 (0 : Fin 1) e)) :=
  (dat3 V c).arrAt_eq_of_cover 6 _ (fun t _ => flushed3 V c t) (cover3)

end Cert.KernelIdeal.KReg

end
-- ==== Proof.KReg4.lean ====
/-
  Launch 4: the linear map, tile by tile.

  The launch walks five tiles of 2000 rows.  At tile `t` the body multiplies rows 2000·t … 2000·t + 1999 of
  the features by the whole 1000×1000 matrix and writes those rows of the product: entry (p, q) of the
  stored tile is the sum over k of feature (2000·t + p, k) times weight (k, q), which is entry
  (2000·t + p, q) of the whole product.  The five tiles cover the 10000 rows, so the output array ends as
  the whole product.
-/
import proofs.«128269_j111669150311_1_alg».proof.Proof.Gen.KernelIdeal.Frame
import proofs.«128269_j111669150311_1_alg».proof.Proof.KPay

set_option maxRecDepth 16384

noncomputable section

namespace Cert.KernelIdeal.KReg

open Cert.KernelIdeal Cert.KernelIdeal.Gen
open Idealize.ShloMosaic Idealize.ShloMosaic.TcCoe Idealize.ShloMosaic.ValueIdx
open Idealize.ShloMosaic.Pipeline (Dat Cfg Window)

variable (V : (c : Dev nD) → (b : Ref sig .tc) → Buf (Elt Ideal) ((c : Thread nD τ).loc b))

theorem hz4 : (![0, 0] : Fin 2 → Nat) = fun _ => 0 := funext fun a => by fin_cases a <;> rfl

/-- The index maps, decided over the five points: the feature tile and the output tile sit at the point's row block,
    the weight matrix is one block. -/
theorem idx_facts4 : ∀ t : Fin cfg4.N, win4_0.index t (0 : Fin 2) = win4_2.index t (0 : Fin 2)
    ∧ win4_0.index t (1 : Fin 2) = 0
    ∧ win4_1.index t (0 : Fin 2) = 0
    ∧ win4_1.index t (1 : Fin 2) = 0
    ∧ win4_2.index t (1 : Fin 2) = 0
    ∧ win4_2.index t (0 : Fin 2) ≤ 4 :=
  (by decide +kernel : ∀ t : Fin grid4.N, _)

/-- Every row block is some point's. -/
theorem idx_onto4 : ∀ q0 : Fin 5, ∃ t : Fin cfg4.N, win4_2.index t = ![q0.val, 0] :=
  (by decide +kernel : ∀ q0 : Fin 5, ∃ t : Fin grid4.N, win4_2.index t = ![q0.val, 0])

/-- What point `t` writes back is tile `t` of the whole product. -/
theorem flushed4 (c : Dev nD) (t : Fin cfg4.N) :
    (dat4 V c).flushed 2 t = ((cfg4.win 2).blk t).view.read (Elt Ideal) (Spec.lin (V c main_v40) (V c main_v42)) := by
  show (cfg4.win 2).cut (grid4.coords t) ((dat4 V c).after 2 t) = _
  rw [after4_2]
  unfold out4_2
  rw [View.canon_unit_zero hz4]
  simp only [View.ld_unit_zero (S := S2000x1000) hz4, View.ld_unit_zero (S := S1000x1000) hz4]
  obtain ⟨e0, e1, e2, e3, e4, e5⟩ := idx_facts4 t
  funext j
  obtain ⟨p, q, rfl⟩ : ∃ (p : Fin 2000) (q : Fin 1000), j = ix2 p q := ⟨j 0, j 1, eq_ix2 j⟩
  show k4_pay1 (iblk4 V c 0 t) (iblk4 V c 1 t) (ix2 p q)
    = Spec.lin (V c main_v40) (V c main_v42) (((cfg4.win 2).blk t).view.emb (ix2 p q))
  refine (KPay.lin4_apply (iblk4 V c 0 t) (iblk4 V c 1 t) p q).trans ?_
  show Spec.rowDot _ _ _ = Spec.rowDot _ _ _
  refine Spec.rowDot_congr ?_ ?_ ?_
  · funext k
    show V c main_v40 (((cfg4.win 0).blk t).view.emb (ix2 p k)) = V c main_v40 (ix2 ((((cfg4.win 2).blk t).view.emb (ix2 p q)) 0) k)
    refine congrArg _ (funext fun a => Fin.ext ?_)
    match a with
    | ⟨0, _⟩ => show win4_0.index t (0 : Fin 2) * 2000 + 1 * p.val = win4_2.index t (0 : Fin 2) * 2000 + 1 * p.val; omega
    | ⟨1, _⟩ => show win4_0.index t (1 : Fin 2) * 1000 + 1 * k.val = k.val; omega
  · funext y
    show V c main_v42 (((cfg4.win 1).blk t).view.emb y) = V c main_v42 y
    refine congrArg _ (funext fun a => Fin.ext ?_)
    match a with
    | ⟨0, _⟩ => show win4_1.index t (0 : Fin 2) * 1000 + 1 * (y 0).val = (y 0).val; omega
    | ⟨1, _⟩ => show win4_1.index t (1 : Fin 2) * 1000 + 1 * (y 1).val = (y 1).val; omega
  · refine Fin.ext ?_
    show q.val = win4_2.index t (1 : Fin 2) * 1000 + 1 * q.val
    omega

/-- An index of the output array is in point `t`'s tile iff each coordinate is in the tile's range. -/
theorem mem_blk4 (t : Fin cfg4.N) (i : S10000x1000.Idx) :
    i ∈ ((cfg4.win 2).blk t).view.set ↔ ∀ a : Fin 2, win4_2.index t a * S2000x1000.size a ≤ (i a).val ∧ (i a).val < win4_2.index t a * S2000x1000.size a + S2000x1000.size a := by
  show i ∈ ((View.whole main_v43).slice (win4_2.rect t)).set ↔ _
  rw [View.set_slice_whole, Rect.mem_set_unit]
  exact Iff.rfl

/-- The tiles cover the output array: row `r` is in tile `r / 2000`. -/
theorem cover4 (i : S10000x1000.Idx) :
    ∃ t : Fin cfg4.N, (cfg4.win 2).flush t = true ∧ i ∈ ((cfg4.win 2).blk t).view.set := by
  have hi0 : (i 0).val < 10000 := (i 0).isLt
  have hi1 : (i 1).val < 1000 := (i 1).isLt
  obtain ⟨t, ht⟩ := idx_onto4 ⟨(i 0).val / 2000, by omega⟩
  have q0 : win4_2.index t (0 : Fin 2) = (i 0).val / 2000 := congrFun ht 0
  have q1 : win4_2.index t (1 : Fin 2) = 0 := congrFun ht 1
  refine ⟨t, flush4_2 t, ?_⟩
  rw [mem_blk4]
  intro a
  match a with
  | ⟨0, _⟩ => show win4_2.index t (0 : Fin 2) * 2000 ≤ (i 0).val ∧ (i 0).val < win4_2.index t (0 : Fin 2) * 2000 + 2000; omega
  | ⟨1, _⟩ => show win4_2.index t (1 : Fin 2) * 1000 ≤ (i 1).val ∧ (i 1).val < win4_2.index t (1 : Fin 2) * 1000 + 1000; omega

/-- The output array after the launch is the whole product of the arrays the launch found. -/
theorem final4 (c : Dev nD) : (dat4 V c).arrAt 2 cfg4.N = Spec.lin (V c main_v40) (V c main_v42) :=
  (dat4 V c).arrAt_eq_of_cover 2 (Spec.lin (V c main_v40) (V c main_v42)) (fun t _ => flushed4 V c t) (cover4)

end Cert.KernelIdeal.KReg

end
-- ==== Proof.KReg5.lean ====
/-
  Launch 5: the GRU cell, tile by tile.

  The launch walks 25 tiles of 400 nodes.  At tile `t` the body takes rows 400·t … 400·t + 399 of the
  aggregated messages and of the old features, the two whole 1000×3000 weight matrices and the two bias
  rows, and writes the new features of those 400 nodes: entry (p, j) of the stored tile is the GRU update
  of node 400·t + p at feature j.  The 25 tiles cover the 10000 nodes, so the output array ends as the
  GRU cell of the arrays the launch found.
-/
import proofs.«128269_j111669150311_1_alg».proof.Proof.Gen.KernelIdeal.Frame
import proofs.«128269_j111669150311_1_alg».proof.Proof.KPay

set_option maxRecDepth 16384

noncomputable section

namespace Cert.KernelIdeal.KReg

open Cert.KernelIdeal Cert.KernelIdeal.Gen
open Idealize.ShloMosaic Idealize.ShloMosaic.TcCoe Idealize.ShloMosaic.ValueIdx
open Idealize.ShloMosaic.Pipeline (Dat Cfg Window)

variable (V : (c : Dev nD) → (b : Ref sig .tc) → Buf (Elt Ideal) ((c : Thread nD τ).loc b))

theorem hz5 : (![0, 0] : Fin 2 → Nat) = fun _ => 0 := funext fun a => by fin_cases a <;> rfl

/-- The index maps, decided over the 25 points: the two row-tiled inputs and the output sit at the point's row block,
    the weights and the biases are one block each. -/
theorem idx_facts5 : ∀ t : Fin cfg5.N, win5_0.index t (0 : Fin 2) = win5_6.index t (0 : Fin 2)
    ∧ win5_0.index t (1 : Fin 2) = 0
    ∧ win5_1.index t (0 : Fin 2) = win5_6.index t (0 : Fin 2)
    ∧ win5_1.index t (1 : Fin 2) = 0
    ∧ win5_2.index t (0 : Fin 2) = 0 ∧ win5_2.index t (1 : Fin 2) = 0
    ∧ win5_3.index t (0 : Fin 2) = 0 ∧ win5_3.index t (1 : Fin 2) = 0
    ∧ win5_4.index t (0 : Fin 2) = 0 ∧ win5_4.index t (1 : Fin 2) = 0
    ∧ win5_5.index t (0 : Fin 2) = 0 ∧ win5_5.index t (1 : Fin 2) = 0
    ∧ win5_6.index t (1 : Fin 2) = 0
    ∧ win5_6.index t (0 : Fin 2) ≤ 24 :=
  (by decide +kernel : ∀ t : Fin grid5.N, _)

/-- Every row block is some point's. -/
theorem idx_onto5 : ∀ q0 : Fin 25, ∃ t : Fin cfg5.N, win5_6.index t = ![q0.val, 0] :=
  (by decide +kernel : ∀ q0 : Fin 25, ∃ t : Fin grid5.N, win5_6.index t = ![q0.val, 0])

set_option maxHeartbeats 2000000 in
/-- What point `t` writes back is tile `t` of the GRU cell of the arrays the launch found. -/
theorem flushed5 (c : Dev nD) (t : Fin cfg5.N) :
    (dat5 V c).flushed 6 t = ((cfg5.win 6).blk t).view.read (Elt Ideal)
      (Spec.gru (V c main_v56) (V c main_v40) (V c main_v0) (V c main_v1) (fun e => V c main_v57 (ix2 (0 : Fin 1) e)) (fun e => V c main_v58 (ix2 (0 : Fin 1) e))) := by
  show (cfg5.win 6).cut (grid5.coords t) ((dat5 V c).after 6 t) = _
  rw [after5_6]
  unfold out5_6
  rw [View.canon_unit_zero hz5]
  simp only [View.ld_unit_zero (S := S400x1000) hz5, View.ld_unit_zero (S := S1000x3000) hz5, View.ld_unit_zero (S := S1x3000) hz5]
  obtain ⟨e0, e1, e2, e3, e4, e5, e6, e7, e8, e9, e10, e11, e12, e13⟩ := idx_facts5 t
  funext j
  obtain ⟨p, q, rfl⟩ : ∃ (p : Fin 400) (q : Fin 1000), j = ix2 p q := ⟨j 0, j 1, eq_ix2 j⟩
  show k5_pay1 (iblk5 V c 0 t) (iblk5 V c 1 t) (iblk5 V c 2 t) (iblk5 V c 3 t) (iblk5 V c 4 t) (iblk5 V c 5 t) (iblk5 V c 1 t) (ix2 p q)
    = Spec.gru (V c main_v56) (V c main_v40) (V c main_v0) (V c main_v1) (fun e => V c main_v57 (ix2 (0 : Fin 1) e)) (fun e => V c main_v58 (ix2 (0 : Fin 1) e))
        (((cfg5.win 6).blk t).view.emb (ix2 p q))
  refine (KPay.gru5_apply (iblk5 V c 0 t) (iblk5 V c 1 t) (iblk5 V c 2 t) (iblk5 V c 3 t) (iblk5 V c 4 t) (iblk5 V c 5 t) p q).trans ?_
  show Spec.gruRow _ _ _ _ _ _ _ = Spec.gruRow _ _ _ _ _ _ _
  refine Spec.gruRow_congr ?_ ?_ ?_ ?_ ?_ ?_ ?_
  · funext k
    show V c main_v56 (((cfg5.win 0).blk t).view.emb (ix2 p k)) = V c main_v56 (ix2 ((((cfg5.win 6).blk t).view.emb (ix2 p q)) 0) k)
    refine congrArg _ (funext fun a => Fin.ext ?_)
    match a with
    | ⟨0, _⟩ => show win5_0.index t (0 : Fin 2) * 400 + 1 * p.val = win5_6.index t (0 : Fin 2) * 400 + 1 * p.val; omega
    | ⟨1, _⟩ => show win5_0.index t (1 : Fin 2) * 1000 + 1 * k.val = k.val; omega
  · funext k
    show V c main_v40 (((cfg5.win 1).blk t).view.emb (ix2 p k)) = V c main_v40 (ix2 ((((cfg5.win 6).blk t).view.emb (ix2 p q)) 0) k)
    refine congrArg _ (funext fun a => Fin.ext ?_)
    match a with
    | ⟨0, _⟩ => show win5_1.index t (0 : Fin 2) * 400 + 1 * p.val = win5_6.index t (0 : Fin 2) * 400 + 1 * p.val; omega
    | ⟨1, _⟩ => show win5_1.index t (1 : Fin 2) * 1000 + 1 * k.val = k.val; omega
  · funext y
    show V c main_v0 (((cfg5.win 2).blk t).view.emb y) = V c main_v0 y
    refine congrArg _ (funext fun a => Fin.ext ?_)
    match a with
    | ⟨0, _⟩ => show win5_2.index t (0 : Fin 2) * 1000 + 1 * (y 0).val = (y 0).val; omega
    | ⟨1, _⟩ => show win5_2.index t (1 : Fin 2) * 3000 + 1 * (y 1).val = (y 1).val; omega
  · funext y
    show V c main_v1 (((cfg5.win 3).blk t).view.emb y) = V c main_v1 y
    refine congrArg _ (funext fun a => Fin.ext ?_)
    match a with
    | ⟨0, _⟩ => show win5_3.index t (0 : Fin 2) * 1000 + 1 * (y 0).val = (y 0).val; omega
    | ⟨1, _⟩ => show win5_3.index t (1 : Fin 2) * 3000 + 1 * (y 1).val = (y 1).val; omega
  · funext e
    show V c main_v57 (((cfg5.win 4).blk t).view.emb (ix2 (0 : Fin 1) e)) = V c main_v57 (ix2 (0 : Fin 1) e)
    refine congrArg _ (funext fun a => Fin.ext ?_)
    match a with
    | ⟨0, _⟩ => show win5_4.index t (0 : Fin 2) * 1 + 1 * 0 = 0; omega
    | ⟨1, _⟩ => show win5_4.index t (1 : Fin 2) * 3000 + 1 * e.val = e.val; omega
  · funext e
    show V c main_v58 (((cfg5.win 5).blk t).view.emb (ix2 (0 : Fin 1) e)) = V c main_v58 (ix2 (0 : Fin 1) e)
    refine congrArg _ (funext fun a => Fin.ext ?_)
    match a with
    | ⟨0, _⟩ => show win5_5.index t (0 : Fin 2) * 1 + 1 * 0 = 0; omega
    | ⟨1, _⟩ => show win5_5.index t (1 : Fin 2) * 3000 + 1 * e.val = e.val; omega
  · refine Fin.ext ?_
    show q.val = win5_6.index t (1 : Fin 2) * 1000 + 1 * q.val
    omega

/-- An index of the output array is in point `t`'s tile iff each coordinate is in the tile's range. -/
theorem mem_blk5 (t : Fin cfg5.N) (i : S10000x1000.Idx) :
    i ∈ ((cfg5.win 6).blk t).view.set ↔ ∀ a : Fin 2, win5_6.index t a * S400x1000.size a ≤ (i a).val ∧ (i a).val < win5_6.index t a * S400x1000.size a + S400x1000.size a := by
  show i ∈ ((View.whole main_v59).slice (win5_6.rect t)).set ↔ _
  rw [View.set_slice_whole, Rect.mem_set_unit]
  exact Iff.rfl

/-- The tiles cover the output array: node `r` is in tile `r / 400`. -/
theorem cover5 (i : S10000x1000.Idx) :
    ∃ t : Fin cfg5.N, (cfg5.win 6).flush t = true ∧ i ∈ ((cfg5.win 6).blk t).view.set := by
  have hi0 : (i 0).val < 10000 := (i 0).isLt
  have hi1 : (i 1).val < 1000 := (i 1).isLt
  obtain ⟨t, ht⟩ := idx_onto5 ⟨(i 0).val / 400, by omega⟩
  have q0 : win5_6.index t (0 : Fin 2) = (i 0).val / 400 := congrFun ht 0
  have q1 : win5_6.index t (1 : Fin 2) = 0 := congrFun ht 1
  refine ⟨t, flush5_6 t, ?_⟩
  rw [mem_blk5]
  intro a
  match a with
  | ⟨0, _⟩ => show win5_6.index t (0 : Fin 2) * 400 ≤ (i 0).val ∧ (i 0).val < win5_6.index t (0 : Fin 2) * 400 + 400; omega
  | ⟨1, _⟩ => show win5_6.index t (1 : Fin 2) * 1000 ≤ (i 1).val ∧ (i 1).val < win5_6.index t (1 : Fin 2) * 1000 + 1000; omega

/-- The output array after the launch is the GRU cell of the arrays the launch found. -/
theorem final5 (c : Dev nD) : (dat5 V c).arrAt 6 cfg5.N
    = Spec.gru (V c main_v56) (V c main_v40) (V c main_v0) (V c main_v1) (fun e => V c main_v57 (ix2 (0 : Fin 1) e)) (fun e => V c main_v58 (ix2 (0 : Fin 1) e)) :=
  (dat5 V c).arrAt_eq_of_cover 6 _ (fun t _ => flushed5 V c t) (cover5)

end Cert.KernelIdeal.KReg

end
-- ==== Proof.KReg6.lean ====
/-
  Launch 6: the readout, tile by tile.

  The launch walks five tiles of 2000 nodes.  At tile `t` the body takes rows 2000·t … 2000·t + 1999 of
  the features, the whole 1000×100 weight matrix and the bias row, and writes the readout of those 2000
  nodes: entry (p, j) of the stored tile is `max(h, 0)·w + b` of node 2000·t + p at column j.  The five
  tiles cover the 10000 nodes, so the output array ends as the readout of the arrays the launch found.
-/
import proofs.«128269_j111669150311_1_alg».proof.Proof.Gen.KernelIdeal.Frame
import proofs.«128269_j111669150311_1_alg».proof.Proof.KPay

set_option maxRecDepth 16384

noncomputable section

namespace Cert.KernelIdeal.KReg

open Cert.KernelIdeal Cert.KernelIdeal.Gen
open Idealize.ShloMosaic Idealize.ShloMosaic.TcCoe Idealize.ShloMosaic.ValueIdx
open Idealize.ShloMosaic.Pipeline (Dat Cfg Window)

variable (V : (c : Dev nD) → (b : Ref sig .tc) → Buf (Elt Ideal) ((c : Thread nD τ).loc b))

theorem hz6 : (![0, 0] : Fin 2 → Nat) = fun _ => 0 := funext fun a => by fin_cases a <;> rfl

/-- The index maps, decided over the five points. -/
theorem idx_facts6 : ∀ t : Fin cfg6.N, win6_0.index t (0 : Fin 2) = win6_3.index t (0 : Fin 2)
    ∧ win6_0.index t (1 : Fin 2) = 0
    ∧ win6_1.index t (0 : Fin 2) = 0 ∧ win6_1.index t (1 : Fin 2) = 0
    ∧ win6_2.index t (0 : Fin 2) = 0 ∧ win6_2.index t (1 : Fin 2) = 0
    ∧ win6_3.index t (1 : Fin 2) = 0
    ∧ win6_3.index t (0 : Fin 2) ≤ 4 :=
  (by decide +kernel : ∀ t : Fin grid6.N, _)

/-- Every row block is some point's. -/
theorem idx_onto6 : ∀ q0 : Fin 5, ∃ t : Fin cfg6.N, win6_3.index t = ![q0.val, 0] :=
  (by decide +kernel : ∀ q0 : Fin 5, ∃ t : Fin grid6.N, win6_3.index t = ![q0.val, 0])

/-- What point `t` writes back is tile `t` of the readout of the arrays the launch found. -/
theorem flushed6 (c : Dev nD) (t : Fin cfg6.N) :
    (dat6 V c).flushed 3 t = ((cfg6.win 3).blk t).view.read (Elt Ideal)
      (Spec.fc (V c main_v59) (V c main_v2) (fun e => V c main_v60 (ix2 (0 : Fin 1) e))) := by
  show (cfg6.win 3).cut (grid6.coords t) ((dat6 V c).after 3 t) = _
  rw [after6_3]
  unfold out6_3
  rw [View.canon_unit_zero hz6]
  simp only [View.ld_unit_zero (S := S2000x1000) hz6, View.ld_unit_zero (S := S1000x100) hz6, View.ld_unit_zero (S := S1x100) hz6]
  obtain ⟨e0, e1, e2, e3, e4, e5, e6, e7⟩ := idx_facts6 t
  funext j
  obtain ⟨p, q, rfl⟩ : ∃ (p : Fin 2000) (q : Fin 100), j = ix2 p q := ⟨j 0, j 1, eq_ix2 j⟩
  show k6_pay1 (iblk6 V c 0 t) (iblk6 V c 1 t) (iblk6 V c 2 t) (ix2 p q)
    = Spec.fc (V c main_v59) (V c main_v2) (fun e => V c main_v60 (ix2 (0 : Fin 1) e)) (((cfg6.win 3).blk t).view.emb (ix2 p q))
  refine (KPay.fc6_apply (iblk6 V c 0 t) (iblk6 V c 1 t) (iblk6 V c 2 t) p q).trans ?_
  show Spec.fcRow _ _ _ _ = Spec.fcRow _ _ _ _
  refine Spec.fcRow_congr ?_ ?_ ?_ ?_
  · funext k
    show V c main_v59 (((cfg6.win 0).blk t).view.emb (ix2 p k)) = V c main_v59 (ix2 ((((cfg6.win 3).blk t).view.emb (ix2 p q)) 0) k)
    refine congrArg _ (funext fun a => Fin.ext ?_)
    match a with
    | ⟨0, _⟩ => show win6_0.index t (0 : Fin 2) * 2000 + 1 * p.val = win6_3.index t (0 : Fin 2) * 2000 + 1 * p.val; omega
    | ⟨1, _⟩ => show win6_0.index t (1 : Fin 2) * 1000 + 1 * k.val = k.val; omega
  · funext y
    show V c main_v2 (((cfg6.win 1).blk t).view.emb y) = V c main_v2 y
    refine congrArg _ (funext fun a => Fin.ext ?_)
    match a with
    | ⟨0, _⟩ => show win6_1.index t (0 : Fin 2) * 1000 + 1 * (y 0).val = (y 0).val; omega
    | ⟨1, _⟩ => show win6_1.index t (1 : Fin 2) * 100 + 1 * (y 1).val = (y 1).val; omega
  · funext e
    show V c main_v60 (((cfg6.win 2).blk t).view.emb (ix2 (0 : Fin 1) e)) = V c main_v60 (ix2 (0 : Fin 1) e)
    refine congrArg _ (funext fun a => Fin.ext ?_)
    match a with
    | ⟨0, _⟩ => show win6_2.index t (0 : Fin 2) * 1 + 1 * 0 = 0; omega
    | ⟨1, _⟩ => show win6_2.index t (1 : Fin 2) * 100 + 1 * e.val = e.val; omega
  · refine Fin.ext ?_
    show q.val = win6_3.index t (1 : Fin 2) * 100 + 1 * q.val
    omega

/-- An index of the output array is in point `t`'s tile iff each coordinate is in the tile's range. -/
theorem mem_blk6 (t : Fin cfg6.N) (i : S10000x100.Idx) :
    i ∈ ((cfg6.win 3).blk t).view.set ↔ ∀ a : Fin 2, win6_3.index t a * S2000x100.size a ≤ (i a).val ∧ (i a).val < win6_3.index t a * S2000x100.size a + S2000x100.size a := by
  show i ∈ ((View.whole main_v61).slice (win6_3.rect t)).set ↔ _
  rw [View.set_slice_whole, Rect.mem_set_unit]
  exact Iff.rfl

/-- The tiles cover the output array: node `r` is in tile `r / 2000`. -/
theorem cover6 (i : S10000x100.Idx) :
    ∃ t : Fin cfg6.N, (cfg6.win 3).flush t = true ∧ i ∈ ((cfg6.win 3).blk t).view.set := by
  have hi0 : (i 0).val < 10000 := (i 0).isLt
  have hi1 : (i 1).val < 100 := (i 1).isLt
  obtain ⟨t, ht⟩ := idx_onto6 ⟨(i 0).val / 2000, by omega⟩
  have q0 : win6_3.index t (0 : Fin 2) = (i 0).val / 2000 := congrFun ht 0
  have q1 : win6_3.index t (1 : Fin 2) = 0 := congrFun ht 1
  refine ⟨t, flush6_3 t, ?_⟩
  rw [mem_blk6]
  intro a
  match a with
  | ⟨0, _⟩ => show win6_3.index t (0 : Fin 2) * 2000 ≤ (i 0).val ∧ (i 0).val < win6_3.index t (0 : Fin 2) * 2000 + 2000; omega
  | ⟨1, _⟩ => show win6_3.index t (1 : Fin 2) * 100 ≤ (i 1).val ∧ (i 1).val < win6_3.index t (1 : Fin 2) * 100 + 100; omega

/-- The output array after the launch is the readout of the arrays the launch found. -/
theorem final6 (c : Dev nD) : (dat6 V c).arrAt 3 cfg6.N
    = Spec.fc (V c main_v59) (V c main_v2) (fun e => V c main_v60 (ix2 (0 : Fin 1) e)) :=
  (dat6 V c).arrAt_eq_of_cover 3 _ (fun t _ => flushed6 V c t) (cover6)

end Cert.KernelIdeal.KReg

end
-- ==== Proof.RefStages.lean ====
/-
  The reference program, stage by stage.

  The reference computes the same network with whole-array host operations.  Its operations are cut
  here into the stages the kernel program also has — the per-round linear map, the edge stage (gather
  rows at the edge sources, weight them, add them up at the destinations), the GRU cell, the readout,
  the pooling tail — each as a function of the arrays that enter it, so that the three rounds are three
  uses of the same functions.  The linear map, the GRU cell and the readout are then read index by
  index: a `dot_general` contracting the 1000 features is the sum over `Fin 1000`, a slice of the 3000
  gate columns moves the column by its offset, a bias broadcast over the rows is read at its column,
  and `1 / (1 + e^(-x))` is the logistic function as the specification spells it.
-/
import proofs.«128269_j111669150311_1_alg».proof.Proof.Gen.ReferenceIdeal
import proofs.«128269_j111669150311_1_alg».proof.Proof.LibPlainDot
import proofs.«128269_j111669150311_1_alg».proof.Proof.Spec
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.ReferenceIdeal.Stages

open Cert.ReferenceIdeal Cert.ReferenceIdeal.Gen Idealize.ShloMosaic Idealize.ShloMosaic.ValueIdx

abbrev Arr (s : Shape) : Type := FVec Ideal s .f32
abbrev IArr (s : Shape) : Type := IVec s 32

/-! ## The stages as functions of what enters them -/

/-- Slice `i` of the stacked weights, as a 1000×1000 matrix. -/
def weight0 (x2 : Arr S3x1000x1000) : Arr S1000x1000 :=
  shapeCast _ (extractStridedSlice S1x1000x1000 ![0, 0, 0] x2 slices_S3x1000x1000_S1x1000x1000_0_0_0) shapeCasts_S1x1000x1000_S1000x1000
def weight1 (x2 : Arr S3x1000x1000) : Arr S1000x1000 :=
  shapeCast _ (extractStridedSlice S1x1000x1000 ![1, 0, 0] x2 slices_S3x1000x1000_S1x1000x1000_1_0_0) shapeCasts_S1x1000x1000_S1000x1000
def weight2 (x2 : Arr S3x1000x1000) : Arr S1000x1000 :=
  shapeCast _ (extractStridedSlice S1x1000x1000 ![2, 0, 0] x2 slices_S3x1000x1000_S1x1000x1000_2_0_0) shapeCasts_S1x1000x1000_S1000x1000

/-- The per-round linear map. -/
def linH (h : Arr S10000x1000) (w : Arr S1000x1000) : Arr S10000x1000 :=
  Host.dotGeneral (F := Ideal) dot_S10000x1000_S1000x1000_S10000x1000_1_0_0_1_n_n none h w

/-- The edge sources, negative ones wrapped around, as a column of indices. -/
def srcIdx (x9 : IArr S80000) : IArr S80000x1 :=
  broadcastInDim S80000x1 ![0] bcast_S80000_S80000x1_0
    (select (cmpi .slt x9 (broadcastInDim S80000 ![] bcast_S_S80000 (constantI S_ 32 0#32)))
      (addi x9 (broadcastInDim S80000 ![] bcast_S_S80000 (constantI S_ 32 10000#32))) x9)

/-- The edge stage: rows of `mm` gathered at the edge sources, weighted, added up at the destinations. -/
def aggH (mm : Arr S10000x1000) (x1 : Arr S80000) (x9 x10 : IArr S80000) : Arr S10000x1000 :=
  Host.scatterAdd scatter_S10000x1000_S80000x1_S80000x1000_1_0_0_1
    (broadcastInDim S10000x1000 ![] bcast_S_S10000x1000 (constant (F := Ideal) S_ .f32 0x00000000#32))
    (broadcastInDim S80000x1 ![0] bcast_S80000_S80000x1_0 x10)
    (mulf (Host.gather gather_S10000x1000_S80000x1_S80000x1000_1_0_n_n_0_1_11000 mm (srcIdx x9))
      (broadcastInDim S80000x1000 ![0, 1] bcast_S80000x1_S80000x1000_0_1 (broadcastInDim S80000x1 ![0] bcast_S80000_S80000x1_0 x1)))

/-- A gate weight matrix, transposed to 1000×3000. -/
def wT (x : Arr S3000x1000) : Arr S1000x3000 := transpose S1000x3000 [1, 0] x transposes_S3000x1000_S1000x3000_1_0

/-- A gate bias over the 3000 columns, broadcast over the rows. -/
def biasRows (x : Arr S3000) : Arr S10000x3000 :=
  broadcastInDim S10000x3000 ![0, 1] bcast_S1x3000_S10000x3000_0_1 (broadcastInDim S1x3000 ![1] bcast_S3000_S1x3000_1 x)

/-- The gates' pre-activations, all 3000 columns. -/
def gateH (a : Arr S10000x1000) (x3 : Arr S3000x1000) (x5 : Arr S3000) : Arr S10000x3000 :=
  addf (Host.dotGeneral (F := Ideal) dot_S10000x1000_S1000x3000_S10000x3000_1_0_0_1_n_n none a (wT x3)) (biasRows x5)

/-- The pattern of `1.0` over all nodes and features. -/
def ones : Arr S10000x1000 := broadcastInDim S10000x1000 ![] bcast_S_S10000x1000 (constant (F := Ideal) S_ .f32 0x3F800000#32)

/-- The logistic function as jax expands it on the host. -/
def sigH (x : Arr S10000x1000) : Arr S10000x1000 := Host.divf (F := Ideal) ones (addf ones (Host.exp (Host.negf x)))

/-- The GRU cell from the gates' pre-activations. -/
def cellH (gi gh : Arr S10000x3000) (h : Arr S10000x1000) : Arr S10000x1000 :=
  addf
    (mulf (subf ones
            (sigH (addf (extractStridedSlice S10000x1000 ![0, 1000] gi slices_S10000x3000_S10000x1000_0_1000)
                        (extractStridedSlice S10000x1000 ![0, 1000] gh slices_S10000x3000_S10000x1000_0_1000))))
          (Host.tanh (addf (extractStridedSlice S10000x1000 ![0, 2000] gi slices_S10000x3000_S10000x1000_0_2000)
            (mulf (sigH (addf (extractStridedSlice S10000x1000 ![0, 0] gi slices_S10000x3000_S10000x1000_0_0)
                              (extractStridedSlice S10000x1000 ![0, 0] gh slices_S10000x3000_S10000x1000_0_0)))
                  (extractStridedSlice S10000x1000 ![0, 2000] gh slices_S10000x3000_S10000x1000_0_2000)))))
    (mulf (sigH (addf (extractStridedSlice S10000x1000 ![0, 1000] gi slices_S10000x3000_S10000x1000_0_1000)
                      (extractStridedSlice S10000x1000 ![0, 1000] gh slices_S10000x3000_S10000x1000_0_1000)))
          h)

/-- The GRU cell from the aggregated messages and the old features. -/
def gruH (a h : Arr S10000x1000) (x3 x4 : Arr S3000x1000) (x5 x6 : Arr S3000) : Arr S10000x1000 :=
  cellH (gateH a x3 x5) (gateH h x4 x6) h

/-- The readout weights, transposed to 1000×100. -/
def fcT (x7 : Arr S100x1000) : Arr S1000x100 := transpose S1000x100 [1, 0] x7 transposes_S100x1000_S1000x100_1_0

/-- The readout: `max(h, 0)` times the transposed weights, plus the bias. -/
def fcH (h : Arr S10000x1000) (x7 : Arr S100x1000) (x8 : Arr S100) : Arr S10000x100 :=
  addf (Host.dotGeneral (F := Ideal) dot_S10000x1000_S1000x100_S10000x100_1_0_0_1_n_n none
          (maximumf h (broadcastInDim S10000x1000 ![] bcast_S_S10000x1000 (constant (F := Ideal) S_ .f32 0x00000000#32))) (fcT x7))
    (broadcastInDim S10000x100 ![0, 1] bcast_S1x100_S10000x100_0_1 (broadcastInDim S1x100 ![1] bcast_S100_S1x100_1 x8))

/-- The pooling tail: per-graph sums of the readout divided by the per-graph node counts (at least one), then the mean
    over the 100 columns. -/
def tailH (o : Arr S10000x100) (x11 : IArr S10000) : Arr S16 :=
  Host.divf
    (Host.reduceAdd
      (Host.divf
        (Host.scatterAdd scatter_S16x100_S10000x1_S10000x100_1_0_0_1
          (broadcastInDim S16x100 ![] bcast_S_S16x100 (constant (F := Ideal) S_ .f32 0x00000000#32))
          (broadcastInDim S10000x1 ![0] bcast_S10000_S10000x1_0 x11) o)
        (broadcastInDim S16x100 ![0, 1] bcast_S16x1_S16x100_0_1
          (broadcastInDim S16x1 ![0] bcast_S16_S16x1_0
            (maximumf
              (Host.scatterAdd scatter_S16_S10000x1_S10000_n_0_0_1
                (broadcastInDim S16 ![] bcast_S_S16 (constant (F := Ideal) S_ .f32 0x00000000#32))
                (broadcastInDim S10000x1 ![0] bcast_S10000_S10000x1_0 x11)
                (broadcastInDim S10000 ![] bcast_S_S10000 (constant (F := Ideal) S_ .f32 0x3F800000#32)))
              (broadcastInDim S16 ![] bcast_S_S16 (constant (F := Ideal) S_ .f32 0x3F800000#32))))))
      (constant (F := Ideal) S_ .f32 0x00000000#32) reducesTo_S16x100_S16_d1 h_S_)
    (broadcastInDim S16 ![] bcast_S_S16 (constant (F := Ideal) S_ .f32 0x42C80000#32))

/-! ## The network -/

section Compose

variable (x0 : Arr S10000x1000) (x1 : Arr S80000) (x2 : Arr S3x1000x1000) (x3 x4 : Arr S3000x1000) (x5 x6 : Arr S3000)
  (x7 : Arr S100x1000) (x8 : Arr S100) (x9 x10 : IArr S80000) (x11 : IArr S10000)

/-- The features after round 1, 2, 3. -/
def h1 : Arr S10000x1000 := gruH (aggH (linH x0 (weight0 x2)) x1 x9 x10) x0 x3 x4 x5 x6
def h2 : Arr S10000x1000 := gruH (aggH (linH (h1 x0 x1 x2 x3 x4 x5 x6 x9 x10) (weight1 x2)) x1 x9 x10) (h1 x0 x1 x2 x3 x4 x5 x6 x9 x10) x3 x4 x5 x6
def h3 : Arr S10000x1000 := gruH (aggH (linH (h2 x0 x1 x2 x3 x4 x5 x6 x9 x10) (weight2 x2)) x1 x9 x10) (h2 x0 x1 x2 x3 x4 x5 x6 x9 x10) x3 x4 x5 x6

/-- The whole network. -/
def net : Arr S16 := tailH (fcH (h3 x0 x1 x2 x3 x4 x5 x6 x9 x10) x7 x8) x11

end Compose

/-! ## The stages read index by index -/

theorem linH_eq (h : Arr S10000x1000) (w : Arr S1000x1000) : linH h w = Spec.lin h w := by
  funext i
  obtain ⟨p, q, rfl⟩ : ∃ (p : Fin 10000) (q : Fin 1000), i = ix2 p q := ⟨i 0, i 1, eq_ix2 i⟩
  exact Cert.Lib.plain_dotGeneral_apply 10000 1000 1000 none h w p q

/-- A bias over the 3000 gate columns, broadcast over the rows, read at `(p, c)`. -/
theorem biasRows_apply (x : Arr S3000) (p : Fin 10000) (c : Fin 3000) : biasRows x (ix2 p c) = x (ix1 c) := by
  unfold biasRows
  rw [broadcastInDim_apply ![0, 1] bcast_S1x3000_S10000x3000_0_1 _ (ix2 p c) (ix2 (0 : Fin 1) c) (fun a => match a with
    | ⟨0, _⟩ => by show 0 = if (1 : Nat) = 1 then 0 else p.val; rw [if_pos rfl]
    | ⟨1, _⟩ => by show c.val = if (3000 : Nat) = 1 then 0 else c.val; rw [if_neg (by decide)])]
  exact broadcastInDim_apply ![1] bcast_S3000_S1x3000_1 x (ix2 (0 : Fin 1) c) (ix1 c) (fun a => match a with
    | ⟨0, _⟩ => by show c.val = if (3000 : Nat) = 1 then 0 else c.val; rw [if_neg (by decide)])

theorem gateH_apply (a : Arr S10000x1000) (x3 : Arr S3000x1000) (x5 : Arr S3000) (p : Fin 10000) (c : Fin 3000) :
    gateH a x3 x5 (ix2 p c) = Spec.rowDot (Spec.row a p) (wT x3) c + x5 (ix1 c) := by
  unfold gateH
  rw [addf_apply, biasRows_apply]
  exact congrArg (· + _) (Cert.Lib.plain_dotGeneral_apply 10000 1000 3000 none a _ p c)

theorem sigH_apply (x : Arr S10000x1000) (i : S10000x1000.Idx) : sigH x i = Spec.sigm (x i) := rfl

theorem ones_apply (i : S10000x1000.Idx) : ones i = Spec.one := rfl

theorem gruH_eq (a h : Arr S10000x1000) (x3 x4 : Arr S3000x1000) (x5 x6 : Arr S3000) :
    gruH a h x3 x4 x5 x6 = Spec.gru a h (wT x3) (wT x4) (fun c => x5 (ix1 c)) (fun c => x6 (ix1 c)) := by
  funext i
  obtain ⟨p, j, rfl⟩ : ∃ (p : Fin 10000) (j : Fin 1000), i = ix2 p j := ⟨i 0, i 1, eq_ix2 i⟩
  unfold gruH cellH
  simp only [addf_apply, mulf_apply, subf_apply, sigH_apply, ones_apply, Host.tanh, slice2_axis1_eq, gateH_apply]
  rfl

/-- The readout bias over the 100 columns, broadcast over the rows, read at `(p, c)`. -/
theorem bias100_apply (x : Arr S100) (p : Fin 10000) (c : Fin 100) :
    broadcastInDim S10000x100 ![0, 1] bcast_S1x100_S10000x100_0_1 (broadcastInDim S1x100 ![1] bcast_S100_S1x100_1 x) (ix2 p c) = x (ix1 c) := by
  rw [broadcastInDim_apply ![0, 1] bcast_S1x100_S10000x100_0_1 _ (ix2 p c) (ix2 (0 : Fin 1) c) (fun a => match a with
    | ⟨0, _⟩ => by show 0 = if (1 : Nat) = 1 then 0 else p.val; rw [if_pos rfl]
    | ⟨1, _⟩ => by show c.val = if (100 : Nat) = 1 then 0 else c.val; rw [if_neg (by decide)])]
  exact broadcastInDim_apply ![1] bcast_S100_S1x100_1 x (ix2 (0 : Fin 1) c) (ix1 c) (fun a => match a with
    | ⟨0, _⟩ => by show c.val = if (100 : Nat) = 1 then 0 else c.val; rw [if_neg (by decide)])

theorem fcH_eq (h : Arr S10000x1000) (x7 : Arr S100x1000) (x8 : Arr S100) :
    fcH h x7 x8 = Spec.fc h (fcT x7) (fun c => x8 (ix1 c)) := by
  funext i
  obtain ⟨p, j, rfl⟩ : ∃ (p : Fin 10000) (j : Fin 100), i = ix2 p j := ⟨i 0, i 1, eq_ix2 i⟩
  unfold fcH
  rw [addf_apply, bias100_apply]
  exact congrArg (· + _) (Cert.Lib.plain_dotGeneral_apply 10000 1000 100 none _ _ p j)

end Cert.ReferenceIdeal.Stages

end
-- ==== Proof.KFold.lean ====
/-
  The kernel program's result, read through its segments.

  The program's run leaves every buffer at the fold of its segments.  Walking that fold back from the
  result buffer: the pooling tail reads the readout launch's output; that launch found the third GRU
  launch's output, the transposed readout weights and the bias row; a GRU launch found the edge stage of
  the round's linear launch, the previous features, the transposed gate weights and the bias rows; a
  linear launch found the previous features and a slice of the stacked weights.  A host stretch leaves
  alone every buffer it does not write, and a launch leaves alone its inputs and every buffer that is
  none of its arrays, so each buffer is read where it was last written.  The host operations between
  the launches are the reference's own (gather, weighting, scatter-add; the pooling tail), and each
  launch's output is the specification's function of what the launch found; so the result is the
  reference's network of the argument arrays.
-/
import proofs.«128269_j111669150311_1_alg».proof.Proof.Gen.KernelIdeal.Frame
import proofs.«128269_j111669150311_1_alg».proof.Proof.KReg0
import proofs.«128269_j111669150311_1_alg».proof.Proof.KReg1
import proofs.«128269_j111669150311_1_alg».proof.Proof.KReg2
import proofs.«128269_j111669150311_1_alg».proof.Proof.KReg3
import proofs.«128269_j111669150311_1_alg».proof.Proof.KReg4
import proofs.«128269_j111669150311_1_alg».proof.Proof.KReg5
import proofs.«128269_j111669150311_1_alg».proof.Proof.KReg6
import proofs.«128269_j111669150311_1_alg».proof.Proof.RefStages
import Idealize.ShloMosaic.Lib.StableHlo.Run
import Idealize.ShloMosaic.Lib.ValueLayout

set_option maxRecDepth 16384

noncomputable section

namespace Cert.KernelIdeal.KFold

open Cert.KernelIdeal Cert.KernelIdeal.Gen
open Idealize.ShloMosaic Idealize.ShloMosaic.TcCoe Idealize.ShloMosaic.ValueIdx Idealize.ShloMosaic.StableHlo
open Idealize.ShloMosaic.Pipeline (Dat Cfg Window)
open Cert.ReferenceIdeal.Stages (linH aggH gruH fcH tailH weight0 weight1 weight2 h1 h2 h3 net)

variable (m : (ℓ : Loc nD τ sig) → Buf (Elt Ideal) ℓ) (ρ : Dev nD → PrngReg)

/-! ## One segment back: what a launch leaves alone, and what it writes -/

theorem W0_at (c : Dev nD) (b : Ref sig .tc) : W0 m ρ c (no_index (Proc.devRef .tc b)) = m ((c : Thread nD τ).loc b) := rfl

theorem W2_skip (c : Dev nD) (b : Ref sig .tc) (hb : ∀ w, Pipeline.arrRef spec0 w ≠ b) : W2 m ρ c (no_index (Proc.devRef .tc b)) = W1 m ρ c (Proc.devRef .tc b) := W2_of_ne m ρ c b hb
theorem W4_skip (c : Dev nD) (b : Ref sig .tc) (hb : ∀ w, Pipeline.arrRef spec1 w ≠ b) : W4 m ρ c (no_index (Proc.devRef .tc b)) = W3 m ρ c (Proc.devRef .tc b) := W4_of_ne m ρ c b hb
theorem W6_skip (c : Dev nD) (b : Ref sig .tc) (hb : ∀ w, Pipeline.arrRef spec2 w ≠ b) : W6 m ρ c (no_index (Proc.devRef .tc b)) = W5 m ρ c (Proc.devRef .tc b) := W6_of_ne m ρ c b hb
theorem W8_skip (c : Dev nD) (b : Ref sig .tc) (hb : ∀ w, Pipeline.arrRef spec3 w ≠ b) : W8 m ρ c (no_index (Proc.devRef .tc b)) = W7 m ρ c (Proc.devRef .tc b) := W8_of_ne m ρ c b hb
theorem W10_skip (c : Dev nD) (b : Ref sig .tc) (hb : ∀ w, Pipeline.arrRef spec4 w ≠ b) : W10 m ρ c (no_index (Proc.devRef .tc b)) = W9 m ρ c (Proc.devRef .tc b) := W10_of_ne m ρ c b hb
theorem W12_skip (c : Dev nD) (b : Ref sig .tc) (hb : ∀ w, Pipeline.arrRef spec5 w ≠ b) : W12 m ρ c (no_index (Proc.devRef .tc b)) = W11 m ρ c (Proc.devRef .tc b) := W12_of_ne m ρ c b hb
theorem W14_skip (c : Dev nD) (b : Ref sig .tc) (hb : ∀ w, Pipeline.arrRef spec6 w ≠ b) : W14 m ρ c (no_index (Proc.devRef .tc b)) = W13 m ρ c (Proc.devRef .tc b) := W14_of_ne m ρ c b hb

/-- A launch's input array is as the launch found it. -/
theorem W2_arg0 (c : Dev nD) : W2 m ρ c (no_index (Proc.devRef .tc main_arg0)) = W1 m ρ c (Proc.devRef .tc main_arg0) :=
  (W2_arr m ρ c 0).trans (((dat0 (V1 m ρ) c).arrAt_in 0 rfl _).trans (A_eq0 (V1 m ρ) c 0))
theorem W4_v0 (c : Dev nD) : W4 m ρ c (no_index (Proc.devRef .tc main_v0)) = W3 m ρ c (Proc.devRef .tc main_v0) :=
  (W4_arr m ρ c 2).trans (((dat1 (V3 m ρ) c).arrAt_in 2 rfl _).trans (A_eq1 (V3 m ρ) c 2))
theorem W4_v1 (c : Dev nD) : W4 m ρ c (no_index (Proc.devRef .tc main_v1)) = W3 m ρ c (Proc.devRef .tc main_v1) :=
  (W4_arr m ρ c 3).trans (((dat1 (V3 m ρ) c).arrAt_in 3 rfl _).trans (A_eq1 (V3 m ρ) c 3))
theorem W6_v21 (c : Dev nD) : W6 m ρ c (no_index (Proc.devRef .tc main_v21)) = W5 m ρ c (Proc.devRef .tc main_v21) :=
  (W6_arr m ρ c 0).trans (((dat2 (V5 m ρ) c).arrAt_in 0 rfl _).trans (A_eq2 (V5 m ρ) c 0))
theorem W8_v0 (c : Dev nD) : W8 m ρ c (no_index (Proc.devRef .tc main_v0)) = W7 m ρ c (Proc.devRef .tc main_v0) :=
  (W8_arr m ρ c 2).trans (((dat3 (V7 m ρ) c).arrAt_in 2 rfl _).trans (A_eq3 (V7 m ρ) c 2))
theorem W8_v1 (c : Dev nD) : W8 m ρ c (no_index (Proc.devRef .tc main_v1)) = W7 m ρ c (Proc.devRef .tc main_v1) :=
  (W8_arr m ρ c 3).trans (((dat3 (V7 m ρ) c).arrAt_in 3 rfl _).trans (A_eq3 (V7 m ρ) c 3))
theorem W10_v40 (c : Dev nD) : W10 m ρ c (no_index (Proc.devRef .tc main_v40)) = W9 m ρ c (Proc.devRef .tc main_v40) :=
  (W10_arr m ρ c 0).trans (((dat4 (V9 m ρ) c).arrAt_in 0 rfl _).trans (A_eq4 (V9 m ρ) c 0))

/-- Walk a buffer back through the segments that leave it alone, and through the host operations that write it. -/
macro "walk" : tactic =>
  `(tactic| simp (disch := decide) only [W1, W3, W5, W7, W9, W11, W13, W15,
      hostOps0, hostOps1, hostOps2, hostOps3, hostOps4, hostOps5, hostOps6, hostOps7,
      StableHlo.after_cons, StableHlo.after_nil,
      StableHlo.nullary_result', StableHlo.unary_result', StableHlo.binary_result', StableHlo.ternary_result', StableHlo.reshape_result',
      StableHlo.nullary_result_ne', StableHlo.unary_result_ne', StableHlo.binary_result_ne', StableHlo.ternary_result_ne', StableHlo.reshape_result_ne',
      W2_skip, W4_skip, W6_skip, W8_skip, W10_skip, W12_skip, W14_skip,
      W2_arg0, W4_v0, W4_v1, W6_v21, W8_v0, W8_v1, W10_v40, W0_at])

section Values

variable (c : Dev nD)

/-! ## Round 1: the linear launch -/

theorem e0_h : V1 m ρ c main_arg0 = (m ((c : Thread nD τ).loc main_arg0)) := by
  show W1 m ρ c (Proc.devRef .tc main_arg0) = _
  walk
theorem e0_w : V1 m ρ c main_v4 = weight0 (m ((c : Thread nD τ).loc main_arg2)) := by
  show W1 m ρ c (Proc.devRef .tc main_v4) = _
  walk
  rfl
theorem o0 : W2 m ρ c (Proc.devRef .tc main_v5) = Spec.lin (m ((c : Thread nD τ).loc main_arg0)) (weight0 (m ((c : Thread nD τ).loc main_arg2))) := by
  refine ((W2_arr m ρ c 2).trans (KReg.final0 (V1 m ρ) c)).trans ?_
  rw [e0_h m ρ c, e0_w m ρ c]

/-! ## Round 1: the GRU launch -/

theorem e1_agg : V3 m ρ c main_v18 = aggH (Spec.lin (m ((c : Thread nD τ).loc main_arg0)) (weight0 (m ((c : Thread nD τ).loc main_arg2)))) (m ((c : Thread nD τ).loc main_arg1)) (m ((c : Thread nD τ).loc main_arg9)) (m ((c : Thread nD τ).loc main_arg10)) := by
  show W3 m ρ c (Proc.devRef .tc main_v18) = _
  walk
  rw [o0 m ρ c]
  rfl
theorem e1_h : V3 m ρ c main_arg0 = (m ((c : Thread nD τ).loc main_arg0)) := by
  show W3 m ρ c (Proc.devRef .tc main_arg0) = _
  walk
theorem e1_wi : V3 m ρ c main_v0 = Cert.ReferenceIdeal.Stages.wT (m ((c : Thread nD τ).loc main_arg3)) := by
  show W3 m ρ c (Proc.devRef .tc main_v0) = _
  walk
  rfl
theorem e1_wh : V3 m ρ c main_v1 = Cert.ReferenceIdeal.Stages.wT (m ((c : Thread nD τ).loc main_arg4)) := by
  show W3 m ρ c (Proc.devRef .tc main_v1) = _
  walk
  rfl
theorem e1_bi : (fun e : Fin 3000 => V3 m ρ c main_v19 (ix2 (0 : Fin 1) e)) = fun e => (m ((c : Thread nD τ).loc main_arg5)) (ix1 e) := by
  have h : W3 m ρ c (Proc.devRef .tc main_v19) = shapeCast S1x3000 (m ((c : Thread nD τ).loc main_arg5)) shapeCasts_S3000_S1x3000 := by
    walk
    rfl
  funext e
  show W3 m ρ c (Proc.devRef .tc main_v19) (ix2 (0 : Fin 1) e) = _
  rw [h]
  exact shapeCast_a_1a_apply _ _ (0 : Fin 1) e
theorem e1_bh : (fun e : Fin 3000 => V3 m ρ c main_v20 (ix2 (0 : Fin 1) e)) = fun e => (m ((c : Thread nD τ).loc main_arg6)) (ix1 e) := by
  have h : W3 m ρ c (Proc.devRef .tc main_v20) = shapeCast S1x3000 (m ((c : Thread nD τ).loc main_arg6)) shapeCasts_S3000_S1x3000 := by
    walk
    rfl
  funext e
  show W3 m ρ c (Proc.devRef .tc main_v20) (ix2 (0 : Fin 1) e) = _
  rw [h]
  exact shapeCast_a_1a_apply _ _ (0 : Fin 1) e

theorem o1 : W4 m ρ c (Proc.devRef .tc main_v21) = h1 (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg9)) (m ((c : Thread nD τ).loc main_arg10)) := by
  refine ((W4_arr m ρ c 6).trans (KReg.final1 (V3 m ρ) c)).trans ?_
  rw [e1_agg m ρ c, e1_h m ρ c, e1_wi m ρ c, e1_wh m ρ c, e1_bi m ρ c, e1_bh m ρ c]
  unfold h1
  rw [Cert.ReferenceIdeal.Stages.gruH_eq, Cert.ReferenceIdeal.Stages.linH_eq]

/-! ## Round 2: the linear launch -/

theorem e2_h : V5 m ρ c main_v21 = (h1 (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg9)) (m ((c : Thread nD τ).loc main_arg10))) := by
  show W5 m ρ c (Proc.devRef .tc main_v21) = _
  walk
  exact o1 m ρ c
theorem e2_w : V5 m ρ c main_v23 = weight1 (m ((c : Thread nD τ).loc main_arg2)) := by
  show W5 m ρ c (Proc.devRef .tc main_v23) = _
  walk
  rfl
theorem o2 : W6 m ρ c (Proc.devRef .tc main_v24) = Spec.lin (h1 (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg9)) (m ((c : Thread nD τ).loc main_arg10))) (weight1 (m ((c : Thread nD τ).loc main_arg2))) := by
  refine ((W6_arr m ρ c 2).trans (KReg.final2 (V5 m ρ) c)).trans ?_
  rw [e2_h m ρ c, e2_w m ρ c]

/-! ## Round 2: the GRU launch -/

theorem e3_agg : V7 m ρ c main_v37 = aggH (Spec.lin (h1 (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg9)) (m ((c : Thread nD τ).loc main_arg10))) (weight1 (m ((c : Thread nD τ).loc main_arg2)))) (m ((c : Thread nD τ).loc main_arg1)) (m ((c : Thread nD τ).loc main_arg9)) (m ((c : Thread nD τ).loc main_arg10)) := by
  show W7 m ρ c (Proc.devRef .tc main_v37) = _
  walk
  rw [o2 m ρ c]
  rfl
theorem e3_h : V7 m ρ c main_v21 = (h1 (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg9)) (m ((c : Thread nD τ).loc main_arg10))) := by
  show W7 m ρ c (Proc.devRef .tc main_v21) = _
  walk
  exact o1 m ρ c
theorem e3_wi : V7 m ρ c main_v0 = Cert.ReferenceIdeal.Stages.wT (m ((c : Thread nD τ).loc main_arg3)) := by
  show W7 m ρ c (Proc.devRef .tc main_v0) = _
  walk
  rfl
theorem e3_wh : V7 m ρ c main_v1 = Cert.ReferenceIdeal.Stages.wT (m ((c : Thread nD τ).loc main_arg4)) := by
  show W7 m ρ c (Proc.devRef .tc main_v1) = _
  walk
  rfl
theorem e3_bi : (fun e : Fin 3000 => V7 m ρ c main_v38 (ix2 (0 : Fin 1) e)) = fun e => (m ((c : Thread nD τ).loc main_arg5)) (ix1 e) := by
  have h : W7 m ρ c (Proc.devRef .tc main_v38) = shapeCast S1x3000 (m ((c : Thread nD τ).loc main_arg5)) shapeCasts_S3000_S1x3000 := by
    walk
    rfl
  funext e
  show W7 m ρ c (Proc.devRef .tc main_v38) (ix2 (0 : Fin 1) e) = _
  rw [h]
  exact shapeCast_a_1a_apply _ _ (0 : Fin 1) e
theorem e3_bh : (fun e : Fin 3000 => V7 m ρ c main_v39 (ix2 (0 : Fin 1) e)) = fun e => (m ((c : Thread nD τ).loc main_arg6)) (ix1 e) := by
  have h : W7 m ρ c (Proc.devRef .tc main_v39) = shapeCast S1x3000 (m ((c : Thread nD τ).loc main_arg6)) shapeCasts_S3000_S1x3000 := by
    walk
    rfl
  funext e
  show W7 m ρ c (Proc.devRef .tc main_v39) (ix2 (0 : Fin 1) e) = _
  rw [h]
  exact shapeCast_a_1a_apply _ _ (0 : Fin 1) e

theorem o3 : W8 m ρ c (Proc.devRef .tc main_v40) = h2 (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg9)) (m ((c : Thread nD τ).loc main_arg10)) := by
  refine ((W8_arr m ρ c 6).trans (KReg.final3 (V7 m ρ) c)).trans ?_
  rw [e3_agg m ρ c, e3_h m ρ c, e3_wi m ρ c, e3_wh m ρ c, e3_bi m ρ c, e3_bh m ρ c]
  unfold h2
  rw [Cert.ReferenceIdeal.Stages.gruH_eq, Cert.ReferenceIdeal.Stages.linH_eq]

/-! ## Round 3: the linear launch -/

theorem e4_h : V9 m ρ c main_v40 = (h2 (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg9)) (m ((c : Thread nD τ).loc main_arg10))) := by
  show W9 m ρ c (Proc.devRef .tc main_v40) = _
  walk
  exact o3 m ρ c
theorem e4_w : V9 m ρ c main_v42 = weight2 (m ((c : Thread nD τ).loc main_arg2)) := by
  show W9 m ρ c (Proc.devRef .tc main_v42) = _
  walk
  rfl
theorem o4 : W10 m ρ c (Proc.devRef .tc main_v43) = Spec.lin (h2 (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg9)) (m ((c : Thread nD τ).loc main_arg10))) (weight2 (m ((c : Thread nD τ).loc main_arg2))) := by
  refine ((W10_arr m ρ c 2).trans (KReg.final4 (V9 m ρ) c)).trans ?_
  rw [e4_h m ρ c, e4_w m ρ c]

/-! ## Round 3: the GRU launch -/

theorem e5_agg : V11 m ρ c main_v56 = aggH (Spec.lin (h2 (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg9)) (m ((c : Thread nD τ).loc main_arg10))) (weight2 (m ((c : Thread nD τ).loc main_arg2)))) (m ((c : Thread nD τ).loc main_arg1)) (m ((c : Thread nD τ).loc main_arg9)) (m ((c : Thread nD τ).loc main_arg10)) := by
  show W11 m ρ c (Proc.devRef .tc main_v56) = _
  walk
  rw [o4 m ρ c]
  rfl
theorem e5_h : V11 m ρ c main_v40 = (h2 (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg9)) (m ((c : Thread nD τ).loc main_arg10))) := by
  show W11 m ρ c (Proc.devRef .tc main_v40) = _
  walk
  exact o3 m ρ c
theorem e5_wi : V11 m ρ c main_v0 = Cert.ReferenceIdeal.Stages.wT (m ((c : Thread nD τ).loc main_arg3)) := by
  show W11 m ρ c (Proc.devRef .tc main_v0) = _
  walk
  rfl
theorem e5_wh : V11 m ρ c main_v1 = Cert.ReferenceIdeal.Stages.wT (m ((c : Thread nD τ).loc main_arg4)) := by
  show W11 m ρ c (Proc.devRef .tc main_v1) = _
  walk
  rfl
theorem e5_bi : (fun e : Fin 3000 => V11 m ρ c main_v57 (ix2 (0 : Fin 1) e)) = fun e => (m ((c : Thread nD τ).loc main_arg5)) (ix1 e) := by
  have h : W11 m ρ c (Proc.devRef .tc main_v57) = shapeCast S1x3000 (m ((c : Thread nD τ).loc main_arg5)) shapeCasts_S3000_S1x3000 := by
    walk
    rfl
  funext e
  show W11 m ρ c (Proc.devRef .tc main_v57) (ix2 (0 : Fin 1) e) = _
  rw [h]
  exact shapeCast_a_1a_apply _ _ (0 : Fin 1) e
theorem e5_bh : (fun e : Fin 3000 => V11 m ρ c main_v58 (ix2 (0 : Fin 1) e)) = fun e => (m ((c : Thread nD τ).loc main_arg6)) (ix1 e) := by
  have h : W11 m ρ c (Proc.devRef .tc main_v58) = shapeCast S1x3000 (m ((c : Thread nD τ).loc main_arg6)) shapeCasts_S3000_S1x3000 := by
    walk
    rfl
  funext e
  show W11 m ρ c (Proc.devRef .tc main_v58) (ix2 (0 : Fin 1) e) = _
  rw [h]
  exact shapeCast_a_1a_apply _ _ (0 : Fin 1) e

theorem o5 : W12 m ρ c (Proc.devRef .tc main_v59) = h3 (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg9)) (m ((c : Thread nD τ).loc main_arg10)) := by
  refine ((W12_arr m ρ c 6).trans (KReg.final5 (V11 m ρ) c)).trans ?_
  rw [e5_agg m ρ c, e5_h m ρ c, e5_wi m ρ c, e5_wh m ρ c, e5_bi m ρ c, e5_bh m ρ c]
  unfold h3
  rw [Cert.ReferenceIdeal.Stages.gruH_eq, Cert.ReferenceIdeal.Stages.linH_eq]

/-! ## The readout launch and the tail -/

theorem e6_h : V13 m ρ c main_v59 = (h3 (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg9)) (m ((c : Thread nD τ).loc main_arg10))) := by
  show W13 m ρ c (Proc.devRef .tc main_v59) = _
  walk
  exact o5 m ρ c
theorem e6_w : V13 m ρ c main_v2 = Cert.ReferenceIdeal.Stages.fcT (m ((c : Thread nD τ).loc main_arg7)) := by
  show W13 m ρ c (Proc.devRef .tc main_v2) = _
  walk
  rfl
theorem e6_b : (fun e : Fin 100 => V13 m ρ c main_v60 (ix2 (0 : Fin 1) e)) = fun e => (m ((c : Thread nD τ).loc main_arg8)) (ix1 e) := by
  have h : W13 m ρ c (Proc.devRef .tc main_v60) = shapeCast S1x100 (m ((c : Thread nD τ).loc main_arg8)) shapeCasts_S100_S1x100 := by
    walk
    rfl
  funext e
  show W13 m ρ c (Proc.devRef .tc main_v60) (ix2 (0 : Fin 1) e) = _
  rw [h]
  exact shapeCast_a_1a_apply _ _ (0 : Fin 1) e

theorem o6 : W14 m ρ c (Proc.devRef .tc main_v61) = fcH (h3 (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg9)) (m ((c : Thread nD τ).loc main_arg10))) (m ((c : Thread nD τ).loc main_arg7)) (m ((c : Thread nD τ).loc main_arg8)) := by
  refine ((W14_arr m ρ c 3).trans (KReg.final6 (V13 m ρ) c)).trans ?_
  rw [e6_h m ρ c, e6_w m ρ c, e6_b m ρ c, Cert.ReferenceIdeal.Stages.fcH_eq]

/-- THE RESULT: the result buffer after the run holds the reference's network of the argument arrays. -/
theorem result_eq : W15 m ρ c (Proc.devRef .tc main_v76)
    = net (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) := by
  walk
  rw [o6 m ρ c]
  rfl

end Values

end Cert.KernelIdeal.KFold

end
-- ==== Proof.RefFold.lean ====
/-
  The reference program's result, read off the fold of its operations.

  The reference is a straight line of host operations, and its run leaves every buffer at the fold of the
  operations over the launch contents.  Reading the result buffer walks the line back: each operation's
  result is its function of the buffers it reads, and a buffer an operation does not write is what it
  was.  The features of each round are read by three later operations (the next linear map, the next
  hidden gates, the next convex combination); the walk visits each buffer once.  What comes out is the
  network of the stages: three rounds of linear map, edge stage and GRU cell, the readout, the pooling
  tail.  No operation writes an argument, so the arguments end as launched.
-/
import proofs.«128269_j111669150311_1_alg».proof.Proof.RefRunP
import proofs.«128269_j111669150311_1_alg».proof.Proof.RefStages

set_option maxRecDepth 16384

noncomputable section

namespace Cert.ReferenceIdeal.RefFold

open Cert.ReferenceIdeal Cert.ReferenceIdeal.Gen Cert.ReferenceIdeal.ValueP Cert.ReferenceIdeal.Stages
open Idealize.ShloMosaic Idealize.ShloMosaic.TcCoe Idealize.SL.Sem Idealize.ShloMosaic.StableHlo

variable (V : Valuation τ sig (Elt Ideal))

set_option maxHeartbeats 4000000 in
/-- The result buffer after the line holds the network of the argument buffers. -/
theorem result_eq :
    after (ops (F := Ideal)) V (Proc.devRef .tc main_v182)
      = net (V (Proc.devRef .tc main_arg0)) (V (Proc.devRef .tc main_arg1)) (V (Proc.devRef .tc main_arg2)) (V (Proc.devRef .tc main_arg3)) (V (Proc.devRef .tc main_arg4)) (V (Proc.devRef .tc main_arg5)) (V (Proc.devRef .tc main_arg6)) (V (Proc.devRef .tc main_arg7)) (V (Proc.devRef .tc main_arg8)) (V (Proc.devRef .tc main_arg9)) (V (Proc.devRef .tc main_arg10)) (V (Proc.devRef .tc main_arg11)) := by
  after_results_simp
  rfl

set_option maxHeartbeats 4000000 in
theorem arg0_eq : after (ops (F := Ideal)) V (Proc.devRef .tc main_arg0) = V (Proc.devRef .tc main_arg0) := by
  after_results_simp

set_option maxHeartbeats 4000000 in
theorem arg1_eq : after (ops (F := Ideal)) V (Proc.devRef .tc main_arg1) = V (Proc.devRef .tc main_arg1) := by
  after_results_simp

set_option maxHeartbeats 4000000 in
theorem arg2_eq : after (ops (F := Ideal)) V (Proc.devRef .tc main_arg2) = V (Proc.devRef .tc main_arg2) := by
  after_results_simp

set_option maxHeartbeats 4000000 in
theorem arg3_eq : after (ops (F := Ideal)) V (Proc.devRef .tc main_arg3) = V (Proc.devRef .tc main_arg3) := by
  after_results_simp

set_option maxHeartbeats 4000000 in
theorem arg4_eq : after (ops (F := Ideal)) V (Proc.devRef .tc main_arg4) = V (Proc.devRef .tc main_arg4) := by
  after_results_simp

set_option maxHeartbeats 4000000 in
theorem arg5_eq : after (ops (F := Ideal)) V (Proc.devRef .tc main_arg5) = V (Proc.devRef .tc main_arg5) := by
  after_results_simp

set_option maxHeartbeats 4000000 in
theorem arg6_eq : after (ops (F := Ideal)) V (Proc.devRef .tc main_arg6) = V (Proc.devRef .tc main_arg6) := by
  after_results_simp

set_option maxHeartbeats 4000000 in
theorem arg7_eq : after (ops (F := Ideal)) V (Proc.devRef .tc main_arg7) = V (Proc.devRef .tc main_arg7) := by
  after_results_simp

set_option maxHeartbeats 4000000 in
theorem arg8_eq : after (ops (F := Ideal)) V (Proc.devRef .tc main_arg8) = V (Proc.devRef .tc main_arg8) := by
  after_results_simp

set_option maxHeartbeats 4000000 in
theorem arg9_eq : after (ops (F := Ideal)) V (Proc.devRef .tc main_arg9) = V (Proc.devRef .tc main_arg9) := by
  after_results_simp

set_option maxHeartbeats 4000000 in
theorem arg10_eq : after (ops (F := Ideal)) V (Proc.devRef .tc main_arg10) = V (Proc.devRef .tc main_arg10) := by
  after_results_simp

set_option maxHeartbeats 4000000 in
theorem arg11_eq : after (ops (F := Ideal)) V (Proc.devRef .tc main_arg11) = V (Proc.devRef .tc main_arg11) := by
  after_results_simp

end Cert.ReferenceIdeal.RefFold

end
-- ==== Proof.lean ====
/-
  The certificate: a graph network of three gated rounds and a pooled readout, computed by seven tiled
  kernel launches among host operations, against the same network written with whole-array host operations.

  Both programs run to the end with their arguments unchanged: the kernel programs by the chain of their
  segments, the reference by its straight line of operations.  The idealized kernel program was printed
  with no rewrite, so there is nothing to preserve beyond the text itself.  At the ideal values the two
  results are one function of the arguments: each launch's output array is, tile by tile, the
  specification's linear map, GRU cell or readout of the arrays the launch found (a tile of rows of a
  matrix product is those rows of the whole product; the change of format before a product is the identity);
  the host operations between the launches (gather at the edge sources, weighting, scatter-add at the
  destinations; the pooling tail) are the reference's own; and the reference's `dot_general`s, slices,
  broadcasts and `1 / (1 + e^(-x))` read index by index are the same specification.  No algebraic law is
  needed beyond that — the sums are over the same index set in the same order of terms — so the
  precondition is never opened.
-/
import proofs.«128269_j111669150311_1_alg».proof.Defs
import proofs.«128269_j111669150311_1_alg».proof.Proof.Gen.Kernel
import proofs.«128269_j111669150311_1_alg».proof.Proof.Gen.Kernel.Skeleton
import proofs.«128269_j111669150311_1_alg».proof.Proof.Gen.Kernel.Launch
import proofs.«128269_j111669150311_1_alg».proof.Proof.Gen.Kernel.Points
import proofs.«128269_j111669150311_1_alg».proof.Proof.Gen.Kernel.Frame
import proofs.«128269_j111669150311_1_alg».proof.Proof.Gen.KernelIdeal
import proofs.«128269_j111669150311_1_alg».proof.Proof.Gen.KernelIdeal.Skeleton
import proofs.«128269_j111669150311_1_alg».proof.Proof.Gen.KernelIdeal.Launch
import proofs.«128269_j111669150311_1_alg».proof.Proof.Gen.KernelIdeal.Points
import proofs.«128269_j111669150311_1_alg».proof.Proof.Gen.KernelIdeal.Frame
import proofs.«128269_j111669150311_1_alg».proof.Proof.Gen.ReferenceIdeal
import proofs.«128269_j111669150311_1_alg».proof.Proof.Gen.Pre_finite_inputs
import proofs.«128269_j111669150311_1_alg».proof.Proof.KRun
import proofs.«128269_j111669150311_1_alg».proof.Proof.KFold
import proofs.«128269_j111669150311_1_alg».proof.Proof.RefRunP
import proofs.«128269_j111669150311_1_alg».proof.Proof.RefFold
import Idealize.ShloMosaic.Adequacy
import Idealize.ShloMosaic.Init

set_option maxRecDepth 16384

noncomputable section

namespace Cert.Proof

open Idealize.ShloMosaic Idealize.ShloMosaic.TcCoe Idealize.SL.Sem

/-- The kernel program runs and leaves its arguments unchanged. -/
theorem frame_k : Cert.frame_Kernel := fun m ρ _ => Cert.Kernel.Gen.frame m ρ

/-- The idealized kernel program runs and leaves its arguments unchanged. -/
theorem frame_ki : Cert.frame_KernelIdeal := fun m ρ _ => Cert.KernelIdeal.Gen.frame m ρ

/-- The reference runs and leaves its arguments unchanged: no operation of its line writes an argument. -/
theorem frame_ri : Cert.frame_ReferenceIdeal := fun m ρ _ =>
  (θ_run Cert.ReferenceIdeal.defs _ _).mono (fun r h c =>
    ⟨(h c Cert.ReferenceIdeal.main_arg0).trans (Cert.ReferenceIdeal.RefFold.arg0_eq _),
     (h c Cert.ReferenceIdeal.main_arg1).trans (Cert.ReferenceIdeal.RefFold.arg1_eq _),
     (h c Cert.ReferenceIdeal.main_arg2).trans (Cert.ReferenceIdeal.RefFold.arg2_eq _),
     (h c Cert.ReferenceIdeal.main_arg3).trans (Cert.ReferenceIdeal.RefFold.arg3_eq _),
     (h c Cert.ReferenceIdeal.main_arg4).trans (Cert.ReferenceIdeal.RefFold.arg4_eq _),
     (h c Cert.ReferenceIdeal.main_arg5).trans (Cert.ReferenceIdeal.RefFold.arg5_eq _),
     (h c Cert.ReferenceIdeal.main_arg6).trans (Cert.ReferenceIdeal.RefFold.arg6_eq _),
     (h c Cert.ReferenceIdeal.main_arg7).trans (Cert.ReferenceIdeal.RefFold.arg7_eq _),
     (h c Cert.ReferenceIdeal.main_arg8).trans (Cert.ReferenceIdeal.RefFold.arg8_eq _),
     (h c Cert.ReferenceIdeal.main_arg9).trans (Cert.ReferenceIdeal.RefFold.arg9_eq _),
     (h c Cert.ReferenceIdeal.main_arg10).trans (Cert.ReferenceIdeal.RefFold.arg10_eq _),
     (h c Cert.ReferenceIdeal.main_arg11).trans (Cert.ReferenceIdeal.RefFold.arg11_eq _)⟩)
    (Cert.ReferenceIdeal.ValueP.run (F := Ideal) m ρ)

/-- The network of equal arguments is equal. -/
theorem net_congr {a0 b0 : Cert.ReferenceIdeal.Stages.Arr Cert.ReferenceIdeal.S10000x1000} {a1 b1 : Cert.ReferenceIdeal.Stages.Arr Cert.ReferenceIdeal.S80000}
    {a2 b2 : Cert.ReferenceIdeal.Stages.Arr Cert.ReferenceIdeal.S3x1000x1000} {a3 b3 a4 b4 : Cert.ReferenceIdeal.Stages.Arr Cert.ReferenceIdeal.S3000x1000}
    {a5 b5 a6 b6 : Cert.ReferenceIdeal.Stages.Arr Cert.ReferenceIdeal.S3000} {a7 b7 : Cert.ReferenceIdeal.Stages.Arr Cert.ReferenceIdeal.S100x1000}
    {a8 b8 : Cert.ReferenceIdeal.Stages.Arr Cert.ReferenceIdeal.S100} {a9 b9 a10 b10 : Cert.ReferenceIdeal.Stages.IArr Cert.ReferenceIdeal.S80000}
    {a11 b11 : Cert.ReferenceIdeal.Stages.IArr Cert.ReferenceIdeal.S10000}
    (h0 : a0 = b0) (h1 : a1 = b1) (h2 : a2 = b2) (h3 : a3 = b3) (h4 : a4 = b4) (h5 : a5 = b5) (h6 : a6 = b6) (h7 : a7 = b7)
    (h8 : a8 = b8) (h9 : a9 = b9) (h10 : a10 = b10) (h11 : a11 = b11) :
    Cert.ReferenceIdeal.Stages.net a0 a1 a2 a3 a4 a5 a6 a7 a8 a9 a10 a11 = Cert.ReferenceIdeal.Stages.net b0 b1 b2 b3 b4 b5 b6 b7 b8 b9 b10 b11 := by
  subst h0 h1 h2 h3 h4 h5 h6 h7 h8 h9 h10 h11; rfl

/-- At the ideal values both programs end with the network of the arguments in their result buffers. -/
theorem algebraic : Cert.algebraic_KernelIdeal_ReferenceIdeal := by
  intro m ρ m' ρ' _ hagree
  refine ⟨fun c => Cert.ReferenceIdeal.Stages.net (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)), ?_, ?_⟩
  · exact (θ_run Cert.KernelIdeal.defs _ _).mono
      (fun r h c => ⟨(h c).1.trans (Cert.KernelIdeal.KFold.result_eq m ρ c), (h c).2⟩)
      (Cert.KernelIdeal.KRun.run_result (F := Ideal) m ρ)
  · refine (θ_run Cert.ReferenceIdeal.defs _ _).mono (fun r h c => ⟨?_,
     (h c Cert.ReferenceIdeal.main_arg0).trans (Cert.ReferenceIdeal.RefFold.arg0_eq _),
     (h c Cert.ReferenceIdeal.main_arg1).trans (Cert.ReferenceIdeal.RefFold.arg1_eq _),
     (h c Cert.ReferenceIdeal.main_arg2).trans (Cert.ReferenceIdeal.RefFold.arg2_eq _),
     (h c Cert.ReferenceIdeal.main_arg3).trans (Cert.ReferenceIdeal.RefFold.arg3_eq _),
     (h c Cert.ReferenceIdeal.main_arg4).trans (Cert.ReferenceIdeal.RefFold.arg4_eq _),
     (h c Cert.ReferenceIdeal.main_arg5).trans (Cert.ReferenceIdeal.RefFold.arg5_eq _),
     (h c Cert.ReferenceIdeal.main_arg6).trans (Cert.ReferenceIdeal.RefFold.arg6_eq _),
     (h c Cert.ReferenceIdeal.main_arg7).trans (Cert.ReferenceIdeal.RefFold.arg7_eq _),
     (h c Cert.ReferenceIdeal.main_arg8).trans (Cert.ReferenceIdeal.RefFold.arg8_eq _),
     (h c Cert.ReferenceIdeal.main_arg9).trans (Cert.ReferenceIdeal.RefFold.arg9_eq _),
     (h c Cert.ReferenceIdeal.main_arg10).trans (Cert.ReferenceIdeal.RefFold.arg10_eq _),
     (h c Cert.ReferenceIdeal.main_arg11).trans (Cert.ReferenceIdeal.RefFold.arg11_eq _)⟩)
      (Cert.ReferenceIdeal.ValueP.run (F := Ideal) m' ρ')
    refine ((h c Cert.ReferenceIdeal.main_v182).trans (Cert.ReferenceIdeal.RefFold.result_eq _)).trans ?_
    obtain ⟨g0, g1, g2, g3, g4, g5, g6, g7, g8, g9, g10, g11⟩ := hagree c
    exact net_congr g0 g1 g2 g3 g4 g5 g6 g7 g8 g9 g10 g11

theorem claim : Cert.Claim := ⟨Cert.Kernel.Gen.facts, Cert.KernelIdeal.Gen.facts, Cert.ReferenceIdeal.Gen.facts, Cert.Pre_finite_inputs.Gen.facts,
  frame_k, frame_ki, frame_ri, trivial, algebraic⟩

end Cert.Proof

end
